-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x160x224 : Shape := ⟨4, ![2, 3, 160, 224]⟩
abbrev S2x64x160x224 : Shape := ⟨4, ![2, 64, 160, 224]⟩
abbrev S2x35840x16 : Shape := ⟨3, ![2, 35840, 16]⟩
abbrev S8x3 : Shape := ⟨2, ![8, 3]⟩
abbrev S8 : Shape := ⟨1, ![8]⟩
abbrev S16x8 : Shape := ⟨2, ![16, 8]⟩
abbrev S16 : Shape := ⟨1, ![16]⟩
abbrev S64x1072 : Shape := ⟨2, ![64, 1072]⟩
abbrev S64 : Shape := ⟨1, ![64]⟩
abbrev S_ : Shape := ⟨0, ![]⟩

class Facts : Prop where
  bcast_S_S2x3x160x224 : S_.BroadcastsInDim S2x3x160x224 (![] : Fin 0 → Fin S2x3x160x224.rank)
  reducesTo_S2x3x160x224_S_d0_1_2_3 : S2x3x160x224.ReducesTo [0, 1, 2, 3] S_
  h_S_ : 0 < S_.numel
  bcast_S_S2x64x160x224 : S_.BroadcastsInDim S2x64x160x224 (![] : Fin 0 → Fin S2x64x160x224.rank)
  reducesTo_S2x64x160x224_S_d0_1_2_3 : S2x64x160x224.ReducesTo [0, 1, 2, 3] S_
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S64x1072 : S_.BroadcastsInDim S64x1072 (![] : Fin 0 → Fin S64x1072.rank)
  reducesTo_S64x1072_S_d0_1 : S64x1072.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x1072 .f32) (main_arg10 : FVec F S64 .f32) (main_v33 : IVec S_ 1) : IVec S_ 1 :=
  let main_v34 : FVec F S64x1072 .f32 := Host.absf main_arg9
  let main_cst_12 : FVec F S_ .f32 := constant S_ .f32 0x7F800000#32
  let main_v35 : FVec F S64x1072 .f32 := broadcastInDim S64x1072 ![] bcast_S_S64x1072 main_cst_12
  let main_v36 : IVec S64x1072 1 := cmpf .olt main_v34 main_v35
  let main_c_13 : IVec S_ 1 := constantI S_ 1 1#1
  let main_v37 : IVec S_ 1 := (fun x v => Host.reduce IntOp.andi x v reducesTo_S64x1072_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S8 .f32) (main_arg7 : FVec F S16x8 .f32) (main_arg8 : FVec F S16 .f32) (main_arg9 : FVec F S64x1072 .f32) (main_arg10 : FVec F S64 .f32) (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S16x8 .f32 := Host.absf main_arg7
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_v33

def fn {F : FTy → Type} [FloatOps F] (main_arg0 : FVec F S2x3x160x224 .f32) (main_arg1 : FVec F S2x64x160x224 .f32) (main_arg2 : FVec F S2x3x160x224 .f32) (main_arg3 : IVec S2x35840x16 32) (main_arg4 : IVec S2x35840x16 1) (main_arg5 : FVec F S8x3 .f32) (main_arg6 : FVec F S8 .f32) (main_arg7 : FVec F S16x8 .f32) (main_arg8 : FVec F S16 .f32) (main_arg9 : FVec F S64x1072 .f32) (main_arg10 : FVec F S64 .f32) : IVec S_ 1 :=
  let main_v0 : FVec F S2x3x160x224 .f32 := Host.absf main_arg0
  let main_cst : FVec F S_ .f32 := constant S_ .f32 0x7F800000#32
  let main_v1 : FVec F S2x3x160x224 .f32 := broadcastInDim S2x3x160x224 ![] bcast_S_S2x3x160x224 main_cst
  let main_v2 : IVec S2x3x160x224 1 := cmpf .olt main_v0 main_v1
  let main_c : IVec S_ 1 := constantI S_ 1 1#1
  let main_v3 : IVec S_ 1 := (fun x v => Host.reduce IntOp.andi x v reducesTo_S2x3x160x224_S_d0_1_2_3 h_S_) main_v2 main_c
  let main_v4 : FVec F S2x64x160x224 .f32 := Host.absf main_arg1
  let main_cst_0 : FVec F S_ .f32 := constant S_ .f32 0x7F800000#32
  let main_v5 : FVec F S2x64x160x224 .f32 := broadcastInDim S2x64x160x224 ![] bcast_S_S2x64x160x224 main_cst_0
  let main_v6 : IVec S2x64x160x224 1 := cmpf .olt main_v4 main_v5
  let main_c_1 : IVec S_ 1 := constantI S_ 1 1#1
  let main_v7 : IVec S_ 1 := (fun x v => Host.reduce IntOp.andi x v reducesTo_S2x64x160x224_S_d0_1_2_3 h_S_) main_v6 main_c_1
  let main_v8 : IVec S_ 1 := andi main_v3 main_v7
  let main_v9 : FVec F S2x3x160x224 .f32 := Host.absf main_arg2
  let main_cst_2 : FVec F S_ .f32 := constant S_ .f32 0x7F800000#32
  let main_v10 : FVec F S2x3x160x224 .f32 := broadcastInDim S2x3x160x224 ![] bcast_S_S2x3x160x224 main_cst_2
  let main_v11 : IVec S2x3x160x224 1 := cmpf .olt main_v9 main_v10
  let main_c_3 : IVec S_ 1 := constantI S_ 1 1#1
  let main_v12 : IVec S_ 1 := (fun x v => Host.reduce IntOp.andi x v reducesTo_S2x3x160x224_S_d0_1_2_3 h_S_) main_v11 main_c_3
  let main_v13 : IVec S_ 1 := andi main_v8 main_v12
  let main_v14 : FVec F S8x3 .f32 := Host.absf main_arg5
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_arg6 main_arg7 main_arg8 main_arg9 main_arg10 main_v13 main_v16
-- ==== Kernel.lean ====
abbrev S2x3x160x224 : Shape := ⟨4, ![2, 3, 160, 224]⟩
abbrev S2x64x160x224 : Shape := ⟨4, ![2, 64, 160, 224]⟩
abbrev S2x35840x16 : Shape := ⟨3, ![2, 35840, 16]⟩
abbrev S8x3 : Shape := ⟨2, ![8, 3]⟩
abbrev S8 : Shape := ⟨1, ![8]⟩
abbrev S16x8 : Shape := ⟨2, ![16, 8]⟩
abbrev S16 : Shape := ⟨1, ![16]⟩
abbrev S64x1072 : Shape := ⟨2, ![64, 1072]⟩
abbrev S64 : Shape := ⟨1, ![64]⟩
abbrev S2x35840x16x1 : Shape := ⟨4, ![2, 35840, 16, 1]⟩
abbrev S2x573440x1 : Shape := ⟨3, ![2, 573440, 1]⟩
abbrev S2x67x160x224 : Shape := ⟨4, ![2, 67, 160, 224]⟩
abbrev S2x67x35840 : Shape := ⟨3, ![2, 67, 35840]⟩
abbrev S2x35840x67 : Shape := ⟨3, ![2, 35840, 67]⟩
abbrev S_ : Shape := ⟨0, ![]⟩
abbrev S1 : Shape := ⟨1, ![1]⟩
abbrev S1x1x1 : Shape := ⟨3, ![1, 1, 1]⟩
abbrev S2x573440 : Shape := ⟨2, ![2, 573440]⟩
abbrev S2x573440x67 : Shape := ⟨3, ![2, 573440, 67]⟩
abbrev S2x35840x16x67 : Shape := ⟨4, ![2, 35840, 16, 67]⟩
abbrev S2x3x35840 : Shape := ⟨3, ![2, 3, 35840]⟩
abbrev S2x35840x3 : Shape := ⟨3, ![2, 35840, 3]⟩
abbrev S3x8 : Shape := ⟨2, ![3, 8]⟩
abbrev S8x16 : Shape := ⟨2, ![8, 16]⟩
abbrev S128x1072 : Shape := ⟨2, ![128, 1072]⟩
abbrev S1072x128 : Shape := ⟨2, ![1072, 128]⟩
abbrev S128 : Shape := ⟨1, ![128]⟩
abbrev S2x35840x128 : Shape := ⟨3, ![2, 35840, 128]⟩
abbrev S1x128x16x67 : Shape := ⟨4, ![1, 128, 16, 67]⟩
abbrev S1x128x3 : Shape := ⟨3, ![1, 128, 3]⟩
abbrev S1x128x128 : Shape := ⟨3, ![1, 128, 128]⟩
abbrev S128x16x67 : Shape := ⟨3, ![128, 16, 67]⟩
abbrev S128x3 : Shape := ⟨2, ![128, 3]⟩
abbrev S128x16x3 : Shape := ⟨3, ![128, 16, 3]⟩
abbrev S128x1x3 : Shape := ⟨3, ![128, 1, 3]⟩
abbrev S2048x3 : Shape := ⟨2, ![2048, 3]⟩
abbrev S2048x8 : Shape := ⟨2, ![2048, 8]⟩
abbrev S1x8 : Shape := ⟨2, ![1, 8]⟩
abbrev S2048x16 : Shape := ⟨2, ![2048, 16]⟩
abbrev S1x16 : Shape := ⟨2, ![1, 16]⟩
abbrev S128x16x16 : Shape := ⟨3, ![128, 16, 16]⟩
abbrev S128x1x16 : Shape := ⟨3, ![128, 1, 16]⟩
abbrev S128x16 : Shape := ⟨2, ![128, 16]⟩
abbrev S128x16x1 : Shape := ⟨3, ![128, 16, 1]⟩
abbrev S128x1x67 : Shape := ⟨3, ![128, 1, 67]⟩
abbrev S128x67 : Shape := ⟨2, ![128, 67]⟩
abbrev S128x128 : Shape := ⟨2, ![128, 128]⟩
abbrev S1x128 : Shape := ⟨2, ![1, 128]⟩
abbrev S2x35840x64 : Shape := ⟨3, ![2, 35840, 64]⟩
abbrev S2x64x35840 : Shape := ⟨3, ![2, 64, 35840]⟩

abbrev nBuf : Space → Nat
  | .hbm => 61
  | .vmem => 12
  | .smem => 0
  | _ => 0

abbrev bufTy : (tb : Table) → Fin (tcTables nBuf tb) → BufTy
  | .hbm, ⟨0, _⟩ => ⟨S2x3x160x224, .f32⟩
  | .hbm, ⟨1, _⟩ => ⟨S2x64x160x224, .f32⟩
  | .hbm, ⟨2, _⟩ => ⟨S2x3x160x224, .f32⟩
  | .hbm, ⟨3, _⟩ => ⟨S2x35840x16, .i32⟩
  | .hbm, ⟨4, _⟩ => ⟨S2x35840x16, .i1⟩
  | .hbm, ⟨5, _⟩ => ⟨S8x3, .f32⟩
  | .hbm, ⟨6, _⟩ => ⟨S8, .f32⟩
  | .hbm, ⟨7, _⟩ => ⟨S16x8, .f32⟩
  | .hbm, ⟨8, _⟩ => ⟨S16, .f32⟩
  | .hbm, ⟨9, _⟩ => ⟨S64x1072, .f32⟩
  | .hbm, ⟨10, _⟩ => ⟨S64, .f32⟩
  | .hbm, ⟨11, _⟩ => ⟨S2x35840x16x1, .i1⟩
  | .hbm, ⟨12, _⟩ => ⟨S2x35840x16x1, .f32⟩
  | .hbm, ⟨13, _⟩ => ⟨S2x573440x1, .i32⟩
  | .hbm, ⟨14, _⟩ => ⟨S2x67x160x224, .f32⟩
  | .hbm, ⟨15, _⟩ => ⟨S2x67x35840, .f32⟩
  | .hbm, ⟨16, _⟩ => ⟨S2x35840x67, .f32⟩
  | .hbm, ⟨17, _⟩ => ⟨S_, .i32⟩
  | .hbm, ⟨18, _⟩ => ⟨S2x573440x1, .i32⟩
  | .hbm, ⟨19, _⟩ => ⟨S2x573440x1, .i1⟩
  | .hbm, ⟨20, _⟩ => ⟨S_, .i32⟩
  | .hbm, ⟨21, _⟩ => ⟨S2x573440x1, .i32⟩
  | .hbm, ⟨22, _⟩ => ⟨S2x573440x1, .i32⟩
  | .hbm, ⟨23, _⟩ => ⟨S2x573440x1, .i32⟩
  | .hbm, ⟨24, _⟩ => ⟨S1, .i32⟩
  | .hbm, ⟨25, _⟩ => ⟨S_, .i32⟩
  | .hbm, ⟨26, _⟩ => ⟨S2x573440x1, .i32⟩
  | .hbm, ⟨27, _⟩ => ⟨S2x573440x1, .i1⟩
  | .hbm, ⟨28, _⟩ => ⟨S1x1x1, .i32⟩
  | .hbm, ⟨29, _⟩ => ⟨S2x573440x1, .i32⟩
  | .hbm, ⟨30, _⟩ => ⟨S2x573440x1, .i1⟩
  | .hbm, ⟨31, _⟩ => ⟨S2x573440x1, .i1⟩
  | .hbm, ⟨32, _⟩ => ⟨S_, .i1⟩
  | .hbm, ⟨33, _⟩ => ⟨S2x573440, .i1⟩
  | .hbm, ⟨34, _⟩ => ⟨S2x573440x67, .f32⟩
  | .hbm, ⟨35, _⟩ => ⟨S2x573440x67, .i1⟩
  | .hbm, ⟨36, _⟩ => ⟨S_, .f32⟩
  | .hbm, ⟨37, _⟩ => ⟨S2x573440x67, .f32⟩
  | .hbm, ⟨38, _⟩ => ⟨S2x573440x67, .f32⟩
  | .hbm, ⟨39, _⟩ => ⟨S2x35840x16x67, .f32⟩
  | .hbm, ⟨40, _⟩ => ⟨S2x35840x16x67, .f32⟩
  | .hbm, ⟨41, _⟩ => ⟨S2x35840x16x67, .f32⟩
  | .hbm, ⟨42, _⟩ => ⟨S2x3x35840, .f32⟩
  | .hbm, ⟨43, _⟩ => ⟨S2x35840x3, .f32⟩
  | .hbm, ⟨44, _⟩ => ⟨S3x8, .f32⟩
  | .hbm, ⟨45, _⟩ => ⟨S8x16, .f32⟩
  | .hbm, ⟨46, _⟩ => ⟨S_, .f32⟩
  | .hbm, ⟨47, _⟩ => ⟨S128x1072, .f32⟩
  | .hbm, ⟨48, _⟩ => ⟨S_, .i32⟩
  | .hbm, ⟨49, _⟩ => ⟨S1, .i32⟩
  | .hbm, ⟨50, _⟩ => ⟨S128x1072, .f32⟩
  | .hbm, ⟨51, _⟩ => ⟨S1072x128, .f32⟩
  | .hbm, ⟨52, _⟩ => ⟨S_, .f32⟩
  | .hbm, ⟨53, _⟩ => ⟨S128, .f32⟩
  | .hbm, ⟨54, _⟩ => ⟨S_, .i32⟩
  | .hbm, ⟨55, _⟩ => ⟨S1, .i32⟩
  | .hbm, ⟨56, _⟩ => ⟨S128, .f32⟩
  | .hbm, ⟨57, _⟩ => ⟨S2x35840x128, .f32⟩
  | .hbm, ⟨58, _⟩ => ⟨S2x35840x64, .f32⟩
  | .hbm, ⟨59, _⟩ => ⟨S2x64x35840, .f32⟩
  | .hbm, ⟨60, _⟩ => ⟨S2x64x160x224, .f32⟩
  | .local _ .vmem, ⟨0, _⟩ => ⟨S1x128x16x67, .f32⟩
  | .local _ .vmem, ⟨1, _⟩ => ⟨S1x128x16x67, .f32⟩
  | .local _ .vmem, ⟨2, _⟩ => ⟨S1x128x3, .f32⟩
  | .local _ .vmem, ⟨3, _⟩ => ⟨S1x128x3, .f32⟩
  | .local _ .vmem, ⟨4, _⟩ => ⟨S3x8, .f32⟩
  | .local _ .vmem, ⟨5, _⟩ => ⟨S8, .f32⟩
  | .local _ .vmem, ⟨6, _⟩ => ⟨S8x16, .f32⟩
  | .local _ .vmem, ⟨7, _⟩ => ⟨S16, .f32⟩
  | .local _ .vmem, ⟨8, _⟩ => ⟨S1072x128, .f32⟩
  | .local _ .vmem, ⟨9, _⟩ => ⟨S128, .f32⟩
  | .local _ .vmem, ⟨10, _⟩ => ⟨S1x128x128, .f32⟩
  | .local _ .vmem, ⟨11, _⟩ => ⟨S1x128x128, .f32⟩
  | _, _ => ⟨S2x3x160x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_c_2 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_c_3 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_v14 : Ref sig .tc := ⟨.hbm, 47, rfl⟩
abbrev main_c : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_0 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 280], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x16x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1072x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S2x35840x16_S2x35840x16x1_0_1_2 : S2x35840x16.BroadcastsInDim S2x35840x16x1 (![0, 1, 2] : Fin 3 → Fin S2x35840x16x1.rank)
  shapeCasts_S2x35840x16_S2x573440x1 : S2x35840x16.ShapeCasts S2x573440x1
  concatenates_S2x3x160x224_S2x64x160x224_S2x67x160x224_d1 : Shape.Concatenates [S2x3x160x224, S2x64x160x224] S2x67x160x224 1
  shapeCasts_S2x67x160x224_S2x67x35840 : S2x67x160x224.ShapeCasts S2x67x35840
  transposes_S2x67x35840_S2x35840x67_0_2_1 : S2x67x35840.Transposes [0, 2, 1] S2x35840x67
  bcast_S_S2x573440x1 : S_.BroadcastsInDim S2x573440x1 (![] : Fin 0 → Fin S2x573440x1.rank)
  bcast_S1_S1x1x1_2 : S1.BroadcastsInDim S1x1x1 (![2] : Fin 1 → Fin S1x1x1.rank)
  bcast_S1x1x1_S2x573440x1_0_1_2 : S1x1x1.BroadcastsInDim S2x573440x1 (![0, 1, 2] : Fin 3 → Fin S2x573440x1.rank)
  reducesTo_S2x573440x1_S2x573440_d2 : S2x573440x1.ReducesTo [2] S2x573440
  h_S_ : 0 < S_.numel
  bcast_S2x573440_S2x573440x67_0_1 : S2x573440.BroadcastsInDim S2x573440x67 (![0, 1] : Fin 2 → Fin S2x573440x67.rank)
  bcast_S_S2x573440x67 : S_.BroadcastsInDim S2x573440x67 (![] : Fin 0 → Fin S2x573440x67.rank)
  shapeCasts_S2x573440x67_S2x35840x16x67 : S2x573440x67.ShapeCasts S2x35840x16x67
  bcast_S2x35840x16x1_S2x35840x16x67_0_1_2_3 : S2x35840x16x1.BroadcastsInDim S2x35840x16x67 (![0, 1, 2, 3] : Fin 4 → Fin S2x35840x16x67.rank)
  shapeCasts_S2x3x160x224_S2x3x35840 : S2x3x160x224.ShapeCasts S2x3x35840
  transposes_S2x3x35840_S2x35840x3_0_2_1 : S2x3x35840.Transposes [0, 2, 1] S2x35840x3
  transposes_S8x3_S3x8_1_0 : S8x3.Transposes [1, 0] S3x8
  transposes_S16x8_S8x16_1_0 : S16x8.Transposes [1, 0] S8x16
  bcast_S_S128x1072 : S_.BroadcastsInDim S128x1072 (![] : Fin 0 → Fin S128x1072.rank)
  bcast_S_S1 : S_.BroadcastsInDim S1 (![] : Fin 0 → Fin S1.rank)
  transposes_S128x1072_S1072x128_1_0 : S128x1072.Transposes [1, 0] S1072x128
  bcast_S_S128 : S_.BroadcastsInDim S128 (![] : Fin 0 → Fin S128.rank)
  inb_S1x128x16x67_S1x128x16x67_0_0_0_0 : ∀ a, (![0, 0, 0, 0] : Fin 4 → Nat) a + S1x128x16x67.size a ≤ S1x128x16x67.size a
  h_S1x128x16x67 : 0 < S1x128x16x67.numel
  shapeCasts_S1x128x16x67_S128x16x67 : S1x128x16x67.ShapeCasts S128x16x67
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  slices_S128x16x67_o0_0_0_S128x16x3 : S128x16x67.Slices ![0, 0, 0] S128x16x3
  shapeCasts_S128x3_S128x1x3 : S128x3.ShapeCasts S128x1x3
  broadcasts_S128x1x3_S128x16x3 : S128x1x3.Broadcasts S128x16x3
  inb_S3x8_S3x8_0_0 : ∀ a, (![0, 0] : Fin 2 → Nat) a + S3x8.size a ≤ S3x8.size a
  h_S3x8 : 0 < S3x8.numel
  shapeCasts_S3x8_S3x8 : S3x8.ShapeCasts S3x8
  inb_S8_S8_0 : ∀ a, (![0] : Fin 1 → Nat) a + S8.size a ≤ S8.size a
  h_S8 : 0 < S8.numel
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S16_S16_0 : ∀ a, (![0] : Fin 1 → Nat) a + S16.size a ≤ S16.size a
  h_S16 : 0 < S16.numel
  inb_S1072x128_S1072x128_0_0 : ∀ a, (![0, 0] : Fin 2 → Nat) a + S1072x128.size a ≤ S1072x128.size a
  h_S1072x128 : 0 < S1072x128.numel
  shapeCasts_S1072x128_S1072x128 : S1072x128.ShapeCasts S1072x128
  inb_S128_S128_0 : ∀ a, (![0] : Fin 1 → Nat) a + S128.size a ≤ S128.size a
  h_S128 : 0 < S128.numel
  shapeCasts_S128_S128 : S128.ShapeCasts S128
  shapeCasts_S128x16x3_S2048x3 : S128x16x3.ShapeCasts S2048x3
  bitsLt_bf16_f32 : FTy.bits .bf16 < FTy.bits .f32
  shapeCasts_S8_S1x8 : S8.ShapeCasts S1x8
  broadcasts_S1x8_S2048x8 : S1x8.Broadcasts S2048x8
  shapeCasts_S16_S1x16 : S16.ShapeCasts S1x16
  broadcasts_S1x16_S2048x16 : S1x16.Broadcasts S2048x16
  shapeCasts_S2048x16_S128x16x16 : S2048x16.ShapeCasts S128x16x16
  slices_S128x16x16_o0_0_0_S128x1x16 : S128x16x16.Slices ![0, 0, 0] S128x1x16
  shapeCasts_S128x1x16_S128x16 : S128x1x16.ShapeCasts S128x16
  shapeCasts_S128x16_S128x16x1 : S128x16.ShapeCasts S128x16x1
  slices_S128x16x67_o0_0_0_S128x1x67 : S128x16x67.Slices ![0, 0, 0] S128x1x67
  shapeCasts_S128x1x67_S128x67 : S128x1x67.ShapeCasts S128x67
  shapeCasts_S128x67_S128x1x67 : S128x67.ShapeCasts S128x1x67
  broadcasts_S128x16x1_S128x16x67 : S128x16x1.Broadcasts S128x16x67
  broadcasts_S128x1x67_S128x16x67 : S128x1x67.Broadcasts S128x16x67
  slices_S128x16x16_o0_1_0_S128x1x16 : S128x16x16.Slices ![0, 1, 0] S128x1x16
  slices_S128x16x67_o0_1_0_S128x1x67 : S128x16x67.Slices ![0, 1, 0] S128x1x67
  slices_S128x16x16_o0_2_0_S128x1x16 : S128x16x16.Slices ![0, 2, 0] S128x1x16
  slices_S128x16x67_o0_2_0_S128x1x67 : S128x16x67.Slices ![0, 2, 0] S128x1x67
  slices_S128x16x16_o0_3_0_S128x1x16 : S128x16x16.Slices ![0, 3, 0] S128x1x16
  slices_S128x16x67_o0_3_0_S128x1x67 : S128x16x67.Slices ![0, 3, 0] S128x1x67
  slices_S128x16x16_o0_4_0_S128x1x16 : S128x16x16.Slices ![0, 4, 0] S128x1x16
  slices_S128x16x67_o0_4_0_S128x1x67 : S128x16x67.Slices ![0, 4, 0] S128x1x67
  slices_S128x16x16_o0_5_0_S128x1x16 : S128x16x16.Slices ![0, 5, 0] S128x1x16
  slices_S128x16x67_o0_5_0_S128x1x67 : S128x16x67.Slices ![0, 5, 0] S128x1x67
  slices_S128x16x16_o0_6_0_S128x1x16 : S128x16x16.Slices ![0, 6, 0] S128x1x16
  slices_S128x16x67_o0_6_0_S128x1x67 : S128x16x67.Slices ![0, 6, 0] S128x1x67
  slices_S128x16x16_o0_7_0_S128x1x16 : S128x16x16.Slices ![0, 7, 0] S128x1x16
  slices_S128x16x67_o0_7_0_S128x1x67 : S128x16x67.Slices ![0, 7, 0] S128x1x67
  slices_S128x16x16_o0_8_0_S128x1x16 : S128x16x16.Slices ![0, 8, 0] S128x1x16
  slices_S128x16x67_o0_8_0_S128x1x67 : S128x16x67.Slices ![0, 8, 0] S128x1x67
  slices_S128x16x16_o0_9_0_S128x1x16 : S128x16x16.Slices ![0, 9, 0] S128x1x16
  slices_S128x16x67_o0_9_0_S128x1x67 : S128x16x67.Slices ![0, 9, 0] S128x1x67
  slices_S128x16x16_o0_10_0_S128x1x16 : S128x16x16.Slices ![0, 10, 0] S128x1x16
  slices_S128x16x67_o0_10_0_S128x1x67 : S128x16x67.Slices ![0, 10, 0] S128x1x67
  slices_S128x16x16_o0_11_0_S128x1x16 : S128x16x16.Slices ![0, 11, 0] S128x1x16
  slices_S128x16x67_o0_11_0_S128x1x67 : S128x16x67.Slices ![0, 11, 0] S128x1x67
  slices_S128x16x16_o0_12_0_S128x1x16 : S128x16x16.Slices ![0, 12, 0] S128x1x16
  slices_S128x16x67_o0_12_0_S128x1x67 : S128x16x67.Slices ![0, 12, 0] S128x1x67
  slices_S128x16x16_o0_13_0_S128x1x16 : S128x16x16.Slices ![0, 13, 0] S128x1x16
  slices_S128x16x67_o0_13_0_S128x1x67 : S128x16x67.Slices ![0, 13, 0] S128x1x67
  slices_S128x16x16_o0_14_0_S128x1x16 : S128x16x16.Slices ![0, 14, 0] S128x1x16
  slices_S128x16x67_o0_14_0_S128x1x67 : S128x16x67.Slices ![0, 14, 0] S128x1x67
  slices_S128x16x16_o0_15_0_S128x1x16 : S128x16x16.Slices ![0, 15, 0] S128x1x16
  slices_S128x16x67_o0_15_0_S128x1x67 : S128x16x67.Slices ![0, 15, 0] S128x1x67
  shapeCasts_S128x16x67_S128x1072 : S128x16x67.ShapeCasts S128x1072
  shapeCasts_S128_S1x128 : S128.ShapeCasts S1x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  slices_S2x35840x128_S2x35840x64_0_0_0 : S2x35840x128.Slices ![0, 0, 0] S2x35840x64
  transposes_S2x35840x64_S2x64x35840_0_2_1 : S2x35840x64.Transposes [0, 2, 1] S2x64x35840
  shapeCasts_S2x64x35840_S2x64x160x224 : S2x64x35840.ShapeCasts S2x64x160x224
  gather_S2x35840x67_S2x573440x1_S2x573440x67_2_1_0_0_1_2_1167_wf : GatherDims.WF S2x35840x67 S2x573440x1 S2x573440x67 [2] [1] [0] [1] [0] 2 ![1, 1, 67]
  scatter_S128x1072_S1_S64x1072_01_n_0_0_wf : ScatterDims.WF S128x1072 S1 S64x1072 [0, 1] [] [0] 0
  scatter_S128_S1_S64_0_n_0_0_wf : ScatterDims.WF S128 S1 S64 [0] [] [0] 0
  dot_S2048x3_S3x8_S2048x8_1_0_0_1_n_n_wf : DotDims.WF S2048x3 S3x8 S2048x8 [1] [0] [0] [1] [] []
  dot_S2048x8_S8x16_S2048x16_1_0_0_1_n_n_wf : DotDims.WF S2048x8 S8x16 S2048x16 [1] [0] [0] [1] [] []
  dot_S128x1072_S1072x128_S128x128_1_0_0_1_n_n_wf : DotDims.WF S128x1072 S1072x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x67.size a ≤ S2x35840x16x67.size a
  hwx0_0 : ∀ i : grid0.Coords, EltTy.bits .f32 = 32 ∨ (Rect.block (s := S2x35840x16x67) S1x128x16x67.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S2x35840x3.size a
  hwx0_1 : ∀ i : grid0.Coords, EltTy.bits .f32 = 32 ∨ (Rect.block (s := S2x35840x3) S1x128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x8.size a ≤ S3x8.size a
  hwx0_2 : ∀ i : grid0.Coords, EltTy.bits .f32 = 32 ∨ (Rect.block (s := S3x8) S3x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S8x16.size a
  hwx0_4 : ∀ i : grid0.Coords, EltTy.bits .f32 = 32 ∨ (Rect.block (s := S8x16) S8x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1072x128.size a ≤ S1072x128.size a
  hwx0_6 : ∀ i : grid0.Coords, EltTy.bits .f32 = 32 ∨ (Rect.block (s := S1072x128) S1072x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x128.size a ≤ S2x35840x128.size a
  hwx0_8 : ∀ i : grid0.Coords, EltTy.bits .f32 = 32 ∨ (Rect.block (s := S2x35840x128) S1x128x128.size (cc0_transform_8 i) (hinb0_8 i)).WholeWords (EltTy.packing .f32)

variable [Facts₀]

def gather_S2x35840x67_S2x573440x1_S2x573440x67_2_1_0_0_1_2_1167 : GatherDims S2x35840x67 S2x573440x1 S2x573440x67 where
  offsetDims := [2]
  collapsedSliceDims := [1]
  operandBatchingDims := [0]
  startIndicesBatchingDims := [0]
  startIndexMap := [1]
  indexVectorDim := 2
  sliceSizes := ![1, 1, 67]
  wf := gather_S2x35840x67_S2x573440x1_S2x573440x67_2_1_0_0_1_2_1167_wf
def scatter_S128x1072_S1_S64x1072_01_n_0_0 : ScatterDims S128x1072 S1 S64x1072 where
  updateWindowDims := [0, 1]
  insertedWindowDims := []
  scatterDimsToOperandDims := [0]
  indexVectorDim := 0
  wf := scatter_S128x1072_S1_S64x1072_01_n_0_0_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf
def dot_S2048x3_S3x8_S2048x8_1_0_0_1_n_n : DotDims S2048x3 S3x8 S2048x8 where
  lhsContracting := [1]
  rhsContracting := [0]
  lhsNonContracting := [0]
  rhsNonContracting := [1]
  lhsBatch := []
  rhsBatch := []
  wf := dot_S2048x3_S3x8_S2048x8_1_0_0_1_n_n_wf
def dot_S2048x8_S8x16_S2048x16_1_0_0_1_n_n : DotDims S2048x8 S8x16 S2048x16 where
  lhsContracting := [1]
  rhsContracting := [0]
  lhsNonContracting := [0]
  rhsNonContracting := [1]
  lhsBatch := []
  rhsBatch := []
  wf := dot_S2048x8_S8x16_S2048x16_1_0_0_1_n_n_wf
def dot_S128x1072_S1072x128_S128x128_1_0_0_1_n_n : DotDims S128x1072 S1072x128 S128x128 where
  lhsContracting := [1]
  rhsContracting := [0]
  lhsNonContracting := [0]
  rhsNonContracting := [1]
  lhsBatch := []
  rhsBatch := []
  wf := dot_S128x1072_S1072x128_S128x128_1_0_0_1_n_n_wf

abbrev win0_0 : Pipeline.Window sig grid0 :=
  Pipeline.Window.ofSpec (Memref.whole main_v9) S1x128x16x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S3x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1072x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x3x160x224 : Shape := ⟨4, ![2, 3, 160, 224]⟩
abbrev S2x64x160x224 : Shape := ⟨4, ![2, 64, 160, 224]⟩
abbrev S2x35840x16 : Shape := ⟨3, ![2, 35840, 16]⟩
abbrev S8x3 : Shape := ⟨2, ![8, 3]⟩
abbrev S8 : Shape := ⟨1, ![8]⟩
abbrev S16x8 : Shape := ⟨2, ![16, 8]⟩
abbrev S16 : Shape := ⟨1, ![16]⟩
abbrev S64x1072 : Shape := ⟨2, ![64, 1072]⟩
abbrev S64 : Shape := ⟨1, ![64]⟩
abbrev S2x35840x16x1 : Shape := ⟨4, ![2, 35840, 16, 1]⟩
abbrev S2x573440x1 : Shape := ⟨3, ![2, 573440, 1]⟩
abbrev S2x67x160x224 : Shape := ⟨4, ![2, 67, 160, 224]⟩
abbrev S2x67x35840 : Shape := ⟨3, ![2, 67, 35840]⟩
abbrev S2x35840x67 : Shape := ⟨3, ![2, 35840, 67]⟩
abbrev S_ : Shape := ⟨0, ![]⟩
abbrev S1 : Shape := ⟨1, ![1]⟩
abbrev S1x1x1 : Shape := ⟨3, ![1, 1, 1]⟩
abbrev S2x573440 : Shape := ⟨2, ![2, 573440]⟩
abbrev S2x573440x67 : Shape := ⟨3, ![2, 573440, 67]⟩
abbrev S2x35840x16x67 : Shape := ⟨4, ![2, 35840, 16, 67]⟩
abbrev S2x3x35840 : Shape := ⟨3, ![2, 3, 35840]⟩
abbrev S2x35840x3 : Shape := ⟨3, ![2, 35840, 3]⟩
abbrev S2x573440x3 : Shape := ⟨3, ![2, 573440, 3]⟩
abbrev S2x35840x16x3 : Shape := ⟨4, ![2, 35840, 16, 3]⟩
abbrev S2x35840x1x3 : Shape := ⟨4, ![2, 35840, 1, 3]⟩
abbrev S2x35840x16x8 : Shape := ⟨4, ![2, 35840, 16, 8]⟩
abbrev S1x1x1x8 : Shape := ⟨4, ![1, 1, 1, 8]⟩
abbrev S2x35840x16x16 : Shape := ⟨4, ![2, 35840, 16, 16]⟩
abbrev S1x1x1x16 : Shape := ⟨4, ![1, 1, 1, 16]⟩
abbrev S2x35840x1072 : Shape := ⟨3, ![2, 35840, 1072]⟩
abbrev S2x35840x64 : Shape := ⟨3, ![2, 35840, 64]⟩
abbrev S1x1x64 : Shape := ⟨3, ![1, 1, 64]⟩
abbrev S2x64x35840 : Shape := ⟨3, ![2, 64, 35840]⟩

abbrev nBuf : Space → Nat
  | .hbm => 111
  | .vmem => 0
  | .smem => 0
  | _ => 0

abbrev bufTy : (tb : Table) → Fin (tcTables nBuf tb) → BufTy
  | .hbm, ⟨0, _⟩ => ⟨S2x3x160x224, .f32⟩
  | .hbm, ⟨1, _⟩ => ⟨S2x64x160x224, .f32⟩
  | .hbm, ⟨2, _⟩ => ⟨S2x3x160x224, .f32⟩
  | .hbm, ⟨3, _⟩ => ⟨S2x35840x16, .i32⟩
  | .hbm, ⟨4, _⟩ => ⟨S2x35840x16, .i1⟩
  | .hbm, ⟨5, _⟩ => ⟨S8x3, .f32⟩
  | .hbm, ⟨6, _⟩ => ⟨S8, .f32⟩
  | .hbm, ⟨7, _⟩ => ⟨S16x8, .f32⟩
  | .hbm, ⟨8, _⟩ => ⟨S16, .f32⟩
  | .hbm, ⟨9, _⟩ => ⟨S64x1072, .f32⟩
  | .hbm, ⟨10, _⟩ => ⟨S64, .f32⟩
  | .hbm, ⟨11, _⟩ => ⟨S2x35840x16x1, .i1⟩
  | .hbm, ⟨12, _⟩ => ⟨S2x35840x16x1, .f32⟩
  | .hbm, ⟨13, _⟩ => ⟨S2x573440x1, .i32⟩
  | .hbm, ⟨14, _⟩ => ⟨S2x67x160x224, .f32⟩
  | .hbm, ⟨15, _⟩ => ⟨S2x67x35840, .f32⟩
  | .hbm, ⟨16, _⟩ => ⟨S2x35840x67, .f32⟩
  | .hbm, ⟨17, _⟩ => ⟨S_, .i32⟩
  | .hbm, ⟨18, _⟩ => ⟨S2x573440x1, .i32⟩
  | .hbm, ⟨19, _⟩ => ⟨S2x573440x1, .i1⟩
  | .hbm, ⟨20, _⟩ => ⟨S_, .i32⟩
  | .hbm, ⟨21, _⟩ => ⟨S2x573440x1, .i32⟩
  | .hbm, ⟨22, _⟩ => ⟨S2x573440x1, .i32⟩
  | .hbm, ⟨23, _⟩ => ⟨S2x573440x1, .i32⟩
  | .hbm, ⟨24, _⟩ => ⟨S1, .i32⟩
  | .hbm, ⟨25, _⟩ => ⟨S_, .i32⟩
  | .hbm, ⟨26, _⟩ => ⟨S2x573440x1, .i32⟩
  | .hbm, ⟨27, _⟩ => ⟨S2x573440x1, .i1⟩
  | .hbm, ⟨28, _⟩ => ⟨S1x1x1, .i32⟩
  | .hbm, ⟨29, _⟩ => ⟨S2x573440x1, .i32⟩
  | .hbm, ⟨30, _⟩ => ⟨S2x573440x1, .i1⟩
  | .hbm, ⟨31, _⟩ => ⟨S2x573440x1, .i1⟩
  | .hbm, ⟨32, _⟩ => ⟨S_, .i1⟩
  | .hbm, ⟨33, _⟩ => ⟨S2x573440, .i1⟩
  | .hbm, ⟨34, _⟩ => ⟨S2x573440x67, .f32⟩
  | .hbm, ⟨35, _⟩ => ⟨S2x573440x67, .i1⟩
  | .hbm, ⟨36, _⟩ => ⟨S_, .f32⟩
  | .hbm, ⟨37, _⟩ => ⟨S2x573440x67, .f32⟩
  | .hbm, ⟨38, _⟩ => ⟨S2x573440x67, .f32⟩
  | .hbm, ⟨39, _⟩ => ⟨S2x35840x16x67, .f32⟩
  | .hbm, ⟨40, _⟩ => ⟨S2x35840x16x67, .f32⟩
  | .hbm, ⟨41, _⟩ => ⟨S2x35840x16x67, .f32⟩
  | .hbm, ⟨42, _⟩ => ⟨S2x3x35840, .f32⟩
  | .hbm, ⟨43, _⟩ => ⟨S2x35840x3, .f32⟩
  | .hbm, ⟨44, _⟩ => ⟨S_, .i32⟩
  | .hbm, ⟨45, _⟩ => ⟨S2x573440x1, .i32⟩
  | .hbm, ⟨46, _⟩ => ⟨S2x573440x1, .i1⟩
  | .hbm, ⟨47, _⟩ => ⟨S_, .i32⟩
  | .hbm, ⟨48, _⟩ => ⟨S2x573440x1, .i32⟩
  | .hbm, ⟨49, _⟩ => ⟨S2x573440x1, .i32⟩
  | .hbm, ⟨50, _⟩ => ⟨S2x573440x1, .i32⟩
  | .hbm, ⟨51, _⟩ => ⟨S1, .i32⟩
  | .hbm, ⟨52, _⟩ => ⟨S_, .i32⟩
  | .hbm, ⟨53, _⟩ => ⟨S2x573440x1, .i32⟩
  | .hbm, ⟨54, _⟩ => ⟨S2x573440x1, .i1⟩
  | .hbm, ⟨55, _⟩ => ⟨S1x1x1, .i32⟩
  | .hbm, ⟨56, _⟩ => ⟨S2x573440x1, .i32⟩
  | .hbm, ⟨57, _⟩ => ⟨S2x573440x1, .i1⟩
  | .hbm, ⟨58, _⟩ => ⟨S2x573440x1, .i1⟩
  | .hbm, ⟨59, _⟩ => ⟨S_, .i1⟩
  | .hbm, ⟨60, _⟩ => ⟨S2x573440, .i1⟩
  | .hbm, ⟨61, _⟩ => ⟨S2x573440x3, .f32⟩
  | .hbm, ⟨62, _⟩ => ⟨S2x573440x3, .i1⟩
  | .hbm, ⟨63, _⟩ => ⟨S_, .f32⟩
  | .hbm, ⟨64, _⟩ => ⟨S2x573440x3, .f32⟩
  | .hbm, ⟨65, _⟩ => ⟨S2x573440x3, .f32⟩
  | .hbm, ⟨66, _⟩ => ⟨S2x35840x16x3, .f32⟩
  | .hbm, ⟨67, _⟩ => ⟨S2x35840x16x3, .f32⟩
  | .hbm, ⟨68, _⟩ => ⟨S2x35840x16x3, .f32⟩
  | .hbm, ⟨69, _⟩ => ⟨S2x3x35840, .f32⟩
  | .hbm, ⟨70, _⟩ => ⟨S2x35840x3, .f32⟩
  | .hbm, ⟨71, _⟩ => ⟨S2x35840x1x3, .f32⟩
  | .hbm, ⟨72, _⟩ => ⟨S2x35840x16x3, .f32⟩
  | .hbm, ⟨73, _⟩ => ⟨S2x35840x16x3, .f32⟩
  | .hbm, ⟨74, _⟩ => ⟨S2x35840x16x8, .f32⟩
  | .hbm, ⟨75, _⟩ => ⟨S1x1x1x8, .f32⟩
  | .hbm, ⟨76, _⟩ => ⟨S2x35840x16x8, .f32⟩
  | .hbm, ⟨77, _⟩ => ⟨S2x35840x16x8, .f32⟩
  | .hbm, ⟨78, _⟩ => ⟨S_, .f32⟩
  | .hbm, ⟨79, _⟩ => ⟨S2x35840x16x8, .f32⟩
  | .hbm, ⟨80, _⟩ => ⟨S2x35840x16x8, .i1⟩
  | .hbm, ⟨81, _⟩ => ⟨S_, .f32⟩
  | .hbm, ⟨82, _⟩ => ⟨S2x35840x16x8, .f32⟩
  | .hbm, ⟨83, _⟩ => ⟨S2x35840x16x8, .f32⟩
  | .hbm, ⟨84, _⟩ => ⟨S2x35840x16x8, .f32⟩
  | .hbm, ⟨85, _⟩ => ⟨S2x35840x16x16, .f32⟩
  | .hbm, ⟨86, _⟩ => ⟨S1x1x1x16, .f32⟩
  | .hbm, ⟨87, _⟩ => ⟨S2x35840x16x16, .f32⟩
  | .hbm, ⟨88, _⟩ => ⟨S2x35840x16x16, .f32⟩
  | .hbm, ⟨89, _⟩ => ⟨S_, .f32⟩
  | .hbm, ⟨90, _⟩ => ⟨S2x35840x16x16, .f32⟩
  | .hbm, ⟨91, _⟩ => ⟨S2x35840x16x16, .i1⟩
  | .hbm, ⟨92, _⟩ => ⟨S_, .f32⟩
  | .hbm, ⟨93, _⟩ => ⟨S2x35840x16x16, .f32⟩
  | .hbm, ⟨94, _⟩ => ⟨S2x35840x16x16, .f32⟩
  | .hbm, ⟨95, _⟩ => ⟨S2x35840x16x16, .f32⟩
  | .hbm, ⟨96, _⟩ => ⟨S2x35840x16x67, .f32⟩
  | .hbm, ⟨97, _⟩ => ⟨S2x35840x1072, .f32⟩
  | .hbm, ⟨98, _⟩ => ⟨S2x35840x64, .f32⟩
  | .hbm, ⟨99, _⟩ => ⟨S1x1x64, .f32⟩
  | .hbm, ⟨100, _⟩ => ⟨S2x35840x64, .f32⟩
  | .hbm, ⟨101, _⟩ => ⟨S2x35840x64, .f32⟩
  | .hbm, ⟨102, _⟩ => ⟨S_, .f32⟩
  | .hbm, ⟨103, _⟩ => ⟨S2x35840x64, .f32⟩
  | .hbm, ⟨104, _⟩ => ⟨S2x35840x64, .i1⟩
  | .hbm, ⟨105, _⟩ => ⟨S_, .f32⟩
  | .hbm, ⟨106, _⟩ => ⟨S2x35840x64, .f32⟩
  | .hbm, ⟨107, _⟩ => ⟨S2x35840x64, .f32⟩
  | .hbm, ⟨108, _⟩ => ⟨S2x35840x64, .f32⟩
  | .hbm, ⟨109, _⟩ => ⟨S2x64x35840, .f32⟩
  | .hbm, ⟨110, _⟩ => ⟨S2x64x160x224, .f32⟩
  | _, _ => ⟨S2x3x160x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_c_2 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_c_3 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst : Ref sig .tc := ⟨.hbm, 78, rfl⟩
abbrev main_v25 : Ref sig .tc := ⟨.hbm, 79, rfl⟩
abbrev main_v26 : Ref sig .tc := ⟨.hbm, 80, rfl⟩
abbrev main_cst_0 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_1 : Ref sig .tc := ⟨.hbm, 89, rfl⟩
abbrev main_v34 : Ref sig .tc := ⟨.hbm, 90, rfl⟩
abbrev main_v35 : Ref sig .tc := ⟨.hbm, 91, rfl⟩
abbrev main_cst_2 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_3 : Ref sig .tc := ⟨.hbm, 102, rfl⟩
abbrev main_v45 : Ref sig .tc := ⟨.hbm, 103, rfl⟩
abbrev main_v46 : Ref sig .tc := ⟨.hbm, 104, rfl⟩
abbrev main_cst_4 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩

abbrev nD : Nat := 1
abbrev τ : Topo := Topo.v7x

variable {F : FTy → Type} [FloatOps F]

class Facts₀ : Prop where
  bcast_S2x35840x16_S2x35840x16x1_0_1_2 : S2x35840x16.BroadcastsInDim S2x35840x16x1 (![0, 1, 2] : Fin 3 → Fin S2x35840x16x1.rank)
  shapeCasts_S2x35840x16_S2x573440x1 : S2x35840x16.ShapeCasts S2x573440x1
  concatenates_S2x3x160x224_S2x64x160x224_S2x67x160x224_d1 : Shape.Concatenates [S2x3x160x224, S2x64x160x224] S2x67x160x224 1
  shapeCasts_S2x67x160x224_S2x67x35840 : S2x67x160x224.ShapeCasts S2x67x35840
  transposes_S2x67x35840_S2x35840x67_0_2_1 : S2x67x35840.Transposes [0, 2, 1] S2x35840x67
  bcast_S_S2x573440x1 : S_.BroadcastsInDim S2x573440x1 (![] : Fin 0 → Fin S2x573440x1.rank)
  bcast_S1_S1x1x1_2 : S1.BroadcastsInDim S1x1x1 (![2] : Fin 1 → Fin S1x1x1.rank)
  bcast_S1x1x1_S2x573440x1_0_1_2 : S1x1x1.BroadcastsInDim S2x573440x1 (![0, 1, 2] : Fin 3 → Fin S2x573440x1.rank)
  reducesTo_S2x573440x1_S2x573440_d2 : S2x573440x1.ReducesTo [2] S2x573440
  h_S_ : 0 < S_.numel
  bcast_S2x573440_S2x573440x67_0_1 : S2x573440.BroadcastsInDim S2x573440x67 (![0, 1] : Fin 2 → Fin S2x573440x67.rank)
  bcast_S_S2x573440x67 : S_.BroadcastsInDim S2x573440x67 (![] : Fin 0 → Fin S2x573440x67.rank)
  shapeCasts_S2x573440x67_S2x35840x16x67 : S2x573440x67.ShapeCasts S2x35840x16x67
  bcast_S2x35840x16x1_S2x35840x16x67_0_1_2_3 : S2x35840x16x1.BroadcastsInDim S2x35840x16x67 (![0, 1, 2, 3] : Fin 4 → Fin S2x35840x16x67.rank)
  shapeCasts_S2x3x160x224_S2x3x35840 : S2x3x160x224.ShapeCasts S2x3x35840
  transposes_S2x3x35840_S2x35840x3_0_2_1 : S2x3x35840.Transposes [0, 2, 1] S2x35840x3
  bcast_S2x573440_S2x573440x3_0_1 : S2x573440.BroadcastsInDim S2x573440x3 (![0, 1] : Fin 2 → Fin S2x573440x3.rank)
  bcast_S_S2x573440x3 : S_.BroadcastsInDim S2x573440x3 (![] : Fin 0 → Fin S2x573440x3.rank)
  shapeCasts_S2x573440x3_S2x35840x16x3 : S2x573440x3.ShapeCasts S2x35840x16x3
  bcast_S2x35840x16x1_S2x35840x16x3_0_1_2_3 : S2x35840x16x1.BroadcastsInDim S2x35840x16x3 (![0, 1, 2, 3] : Fin 4 → Fin S2x35840x16x3.rank)
  bcast_S2x35840x3_S2x35840x1x3_0_1_3 : S2x35840x3.BroadcastsInDim S2x35840x1x3 (![0, 1, 3] : Fin 3 → Fin S2x35840x1x3.rank)
  bcast_S2x35840x1x3_S2x35840x16x3_0_1_2_3 : S2x35840x1x3.BroadcastsInDim S2x35840x16x3 (![0, 1, 2, 3] : Fin 4 → Fin S2x35840x16x3.rank)
  bcast_S8_S1x1x1x8_3 : S8.BroadcastsInDim S1x1x1x8 (![3] : Fin 1 → Fin S1x1x1x8.rank)
  bcast_S1x1x1x8_S2x35840x16x8_0_1_2_3 : S1x1x1x8.BroadcastsInDim S2x35840x16x8 (![0, 1, 2, 3] : Fin 4 → Fin S2x35840x16x8.rank)
  bcast_S_S2x35840x16x8 : S_.BroadcastsInDim S2x35840x16x8 (![] : Fin 0 → Fin S2x35840x16x8.rank)
  bcast_S16_S1x1x1x16_3 : S16.BroadcastsInDim S1x1x1x16 (![3] : Fin 1 → Fin S1x1x1x16.rank)
  bcast_S1x1x1x16_S2x35840x16x16_0_1_2_3 : S1x1x1x16.BroadcastsInDim S2x35840x16x16 (![0, 1, 2, 3] : Fin 4 → Fin S2x35840x16x16.rank)
  bcast_S_S2x35840x16x16 : S_.BroadcastsInDim S2x35840x16x16 (![] : Fin 0 → Fin S2x35840x16x16.rank)
  shapeCasts_S2x35840x16x67_S2x35840x1072 : S2x35840x16x67.ShapeCasts S2x35840x1072
  bcast_S64_S1x1x64_2 : S64.BroadcastsInDim S1x1x64 (![2] : Fin 1 → Fin S1x1x64.rank)
  bcast_S1x1x64_S2x35840x64_0_1_2 : S1x1x64.BroadcastsInDim S2x35840x64 (![0, 1, 2] : Fin 3 → Fin S2x35840x64.rank)
  bcast_S_S2x35840x64 : S_.BroadcastsInDim S2x35840x64 (![] : Fin 0 → Fin S2x35840x64.rank)
  transposes_S2x35840x64_S2x64x35840_0_2_1 : S2x35840x64.Transposes [0, 2, 1] S2x64x35840
  shapeCasts_S2x64x35840_S2x64x160x224 : S2x64x35840.ShapeCasts S2x64x160x224
  gather_S2x35840x67_S2x573440x1_S2x573440x67_2_1_0_0_1_2_1167_wf : GatherDims.WF S2x35840x67 S2x573440x1 S2x573440x67 [2] [1] [0] [1] [0] 2 ![1, 1, 67]
  gather_S2x35840x3_S2x573440x1_S2x573440x3_2_1_0_0_1_2_113_wf : GatherDims.WF S2x35840x3 S2x573440x1 S2x573440x3 [2] [1] [0] [1] [0] 2 ![1, 1, 3]
  dot_S2x35840x16x3_S8x3_S2x35840x16x8_3_1_012_0_n_n_wf : DotDims.WF S2x35840x16x3 S8x3 S2x35840x16x8 [3] [1] [0, 1, 2] [0] [] []
  dot_S2x35840x16x8_S16x8_S2x35840x16x16_3_1_012_0_n_n_wf : DotDims.WF S2x35840x16x8 S16x8 S2x35840x16x16 [3] [1] [0, 1, 2] [0] [] []
  dot_S2x35840x16x16_S2x35840x16x67_S2x35840x16x67_2_2_3_3_01_01_wf : DotDims.WF S2x35840x16x16 S2x35840x16x67 S2x35840x16x67 [2] [2] [3] [3] [0, 1] [0, 1]
  dot_S2x35840x1072_S64x1072_S2x35840x64_2_1_01_0_n_n_wf : DotDims.WF S2x35840x1072 S64x1072 S2x35840x64 [2] [1] [0, 1] [0] [] []

variable [Facts₀]

def gather_S2x35840x67_S2x573440x1_S2x573440x67_2_1_0_0_1_2_1167 : GatherDims S2x35840x67 S2x573440x1 S2x573440x67 where
  offsetDims := [2]
  collapsedSliceDims := [1]
  operandBatchingDims := [0]
  startIndicesBatchingDims := [0]
  startIndexMap := [1]
  indexVectorDim := 2
  sliceSizes := ![1, 1, 67]
  wf := gather_S2x35840x67_S2x573440x1_S2x573440x67_2_1_0_0_1_2_1167_wf
def gather_S2x35840x3_S2x573440x1_S2x573440x3_2_1_0_0_1_2_113 : GatherDims S2x35840x3 S2x573440x1 S2x573440x3 where
  offsetDims := [2]
  collapsedSliceDims := [1]
  operandBatchingDims := [0]
  startIndicesBatchingDims := [0]
  startIndexMap := [1]
  indexVectorDim := 2
  sliceSizes := ![1, 1, 3]
  wf := gather_S2x35840x3_S2x573440x1_S2x573440x3_2_1_0_0_1_2_113_wf
def dot_S2x35840x16x3_S8x3_S2x35840x16x8_3_1_012_0_n_n : DotDims S2x35840x16x3 S8x3 S2x35840x16x8 where
  lhsContracting := [3]
  rhsContracting := [1]
  lhsNonContracting := [0, 1, 2]
  rhsNonContracting := [0]
  lhsBatch := []
  rhsBatch := []
  wf := dot_S2x35840x16x3_S8x3_S2x35840x16x8_3_1_012_0_n_n_wf
def dot_S2x35840x16x8_S16x8_S2x35840x16x16_3_1_012_0_n_n : DotDims S2x35840x16x8 S16x8 S2x35840x16x16 where
  lhsContracting := [3]
  rhsContracting := [1]
  lhsNonContracting := [0, 1, 2]
  rhsNonContracting := [0]
  lhsBatch := []
  rhsBatch := []
  wf := dot_S2x35840x16x8_S16x8_S2x35840x16x16_3_1_012_0_n_n_wf
def dot_S2x35840x16x16_S2x35840x16x67_S2x35840x16x67_2_2_3_3_01_01 : DotDims S2x35840x16x16 S2x35840x16x67 S2x35840x16x67 where
  lhsContracting := [2]
  rhsContracting := [2]
  lhsNonContracting := [3]
  rhsNonContracting := [3]
  lhsBatch := [0, 1]
  rhsBatch := [0, 1]
  wf := dot_S2x35840x16x16_S2x35840x16x67_S2x35840x16x67_2_2_3_3_01_01_wf
def dot_S2x35840x1072_S64x1072_S2x35840x64_2_1_01_0_n_n : DotDims S2x35840x1072 S64x1072 S2x35840x64 where
  lhsContracting := [2]
  rhsContracting := [1]
  lhsNonContracting := [0, 1]
  rhsNonContracting := [0]
  lhsBatch := []
  rhsBatch := []
  wf := dot_S2x35840x1072_S64x1072_S2x35840x64_2_1_01_0_n_n_wf

class Facts : Prop extends Facts₀ where

variable [Facts]
-- ==== Proof.BlockOps.lean ====
/-
  Layout operations of small arrays read at an index, for the shapes a body meets when it flattens two leading axes
  into one, splits them again, inserts a unit axis in the middle or at the end and broadcasts along it: each result
  element is ONE element of the operand, named here by its coordinates.
-/
import Idealize.ShloMosaic.Lib.Pipeline.Value
import Idealize.ShloMosaic.Lib.ValueIdx
import Idealize.ShloMosaic.Lib.ValueLayout

noncomputable section

namespace Cert.PointConv.Layout

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, k, b]` reads, at `(i, p, j)`, the operand at `(i, 0, j)`. -/
theorem broadcastTo_a1b_akb_apply {a k b : ℕ} (v : (⟨3, ![a, 1, b]⟩ : Shape).Idx → α)
    (h : (⟨3, ![a, 1, b]⟩ : Shape).Broadcasts ⟨3, ![a, k, b]⟩) (i : Fin a) (p : Fin k) (j : Fin b) :
    broadcastTo ⟨3, ![a, k, b]⟩ v h (ix3 i p j) = v (ix3 i (0 : Fin 1) j) := by
  refine broadcastTo_apply v h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- An `[a, b, 1]` array broadcast to `[a, b, k]` reads, at `(i, j, p)`, the operand at `(i, j, 0)`. -/
theorem broadcastTo_ab1_abk_apply {a b k : ℕ} (v : (⟨3, ![a, b, 1]⟩ : Shape).Idx → α)
    (h : (⟨3, ![a, b, 1]⟩ : Shape).Broadcasts ⟨3, ![a, b, k]⟩) (i : Fin a) (j : Fin b) (p : Fin k) :
    broadcastTo ⟨3, ![a, b, k]⟩ v h (ix3 i j p) = v (ix3 i j (0 : Fin 1)) := by
  refine broadcastTo_apply v h (ix3 i j p) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A rank-3 array cut along its last axis from `0` reads, at `(i, j, e)`, the source at `(i, j, e)`. -/
theorem slice3_axis2_zero_apply {n0 n1 n2 m : ℕ} (X : (⟨3, ![n0, n1, n2]⟩ : Shape).Idx → α)
    (h : (⟨3, ![n0, n1, n2]⟩ : Shape).Slices ![0, 0, 0] ⟨3, ![n0, n1, m]⟩) (i : Fin n0) (j : Fin n1) (e : Fin m) :
    extractStridedSlice ⟨3, ![n0, n1, m]⟩ ![0, 0, 0] X h (ix3 i j e)
      = X (ix3 i j ⟨e.val, Nat.lt_of_lt_of_le e.isLt (by have := h.2 2; simpa using this)⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- `[128, 16, 3]` flattened to `[2048, 3]`: row `r` is `(r / 16, r % 16)`. -/
theorem shapeCast_128x16x3_2048x3_apply (x : (⟨3, ![128, 16, 3]⟩ : Shape).Idx → α)
    (h : (⟨3, ![128, 16, 3]⟩ : Shape).ShapeCasts ⟨2, ![2048, 3]⟩) (r : Fin 2048) (c : Fin 3) :
    shapeCast ⟨2, ![2048, 3]⟩ x h (ix2 r c)
      = x (ix3 (⟨r.val / 16, by have := r.isLt; omega⟩ : Fin 128) (⟨r.val % 16, Nat.mod_lt _ (by decide)⟩ : Fin 16) c) :=
  shapeCast_apply x h _ _ (by
    rw [Shape.rowMajor_val_three, Shape.rowMajor_val_two]
    show (r.val / 16 * 16 + r.val % 16) * 3 + c.val = r.val * 3 + c.val
    have := r.isLt; omega)

/-- `[2048, 16]` split to `[128, 16, 16]`: `(n, k)` is row `n · 16 + k`. -/
theorem shapeCast_2048x16_128x16x16_apply (x : (⟨2, ![2048, 16]⟩ : Shape).Idx → α)
    (h : (⟨2, ![2048, 16]⟩ : Shape).ShapeCasts ⟨3, ![128, 16, 16]⟩) (n : Fin 128) (k : Fin 16) (f : Fin 16) :
    shapeCast ⟨3, ![128, 16, 16]⟩ x h (ix3 n k f)
      = x (ix2 (⟨n.val * 16 + k.val, by have := n.isLt; have := k.isLt; omega⟩ : Fin 2048) f) :=
  shapeCast_apply x h _ _ (by
    rw [Shape.rowMajor_val_three, Shape.rowMajor_val_two]
    rfl)

/-- `[128, 16, 67]` flattened to `[128, 1072]`: column `q` is `(q / 67, q % 67)`. -/
theorem shapeCast_128x16x67_128x1072_apply (x : (⟨3, ![128, 16, 67]⟩ : Shape).Idx → α)
    (h : (⟨3, ![128, 16, 67]⟩ : Shape).ShapeCasts ⟨2, ![128, 1072]⟩) (n : Fin 128) (q : Fin 1072) :
    shapeCast ⟨2, ![128, 1072]⟩ x h (ix2 n q)
      = x (ix3 n (⟨q.val / 67, by have := q.isLt; omega⟩ : Fin 16) (⟨q.val % 67, Nat.mod_lt _ (by decide)⟩ : Fin 67)) :=
  shapeCast_apply x h _ _ (by
    rw [Shape.rowMajor_val_three, Shape.rowMajor_val_two]
    show (n.val * 16 + q.val / 67) * 67 + q.val % 67 = n.val * 1072 + q.val
    have := q.isLt; omega)

end Cert.PointConv.Layout

end
-- ==== Proof.MatProducts.lean ====
/-
  The kernel body's three matrix products, each read at one element on the extended reals: a product of an `[m, k]` by
  a `[k, n]` matrix into a zero accumulator is, at `(r, o)`, the sum over the contracted index of the products of the
  row's and the column's entries — no rounding and no order of accumulation is left in it.
-/
import proofs.«141387_j90323162235005_1_alg».proof.Proof.Gen.KernelIdeal
import Idealize.ShloMosaic.Lib.ValueIdx
import Idealize.ShloMosaic.PureOps.Ideal.Laws

noncomputable section

open scoped BigOperators

namespace Cert.KernelIdeal.Pay

open Cert.KernelIdeal Idealize.ShloMosaic Idealize.ShloMosaic.ValueIdx

section MM1
/-- The dimension numbers of this product: contract the left's columns with the right's rows. -/
abbrev D1 : DotDims S2048x3 S3x8 S2048x8 := dot_S2048x3_S3x8_S2048x8_1_0_0_1_n_n

theorem mm1_lhs0 (i : S2048x8.Idx) (q : D1.contr.Idx) : (D1.lhsIdx i q 0).val = (i 0).val := by
  unfold DotDims.lhsIdx
  rw [dif_neg (show ¬(0 : Fin S2048x3.rank) ∈ dot_S2048x3_S3x8_S2048x8_1_0_0_1_n_n.lhsBatch by decide),
    dif_pos (show (0 : Fin S2048x3.rank) ∈ dot_S2048x3_S3x8_S2048x8_1_0_0_1_n_n.lhsNonContracting by decide)]
  rfl
theorem mm1_lhs1 (i : S2048x8.Idx) (q : D1.contr.Idx) : (D1.lhsIdx i q 1).val = (q ⟨0, by decide⟩).val :=
  dot_S2048x3_S3x8_S2048x8_1_0_0_1_n_n.lhsIdx_val_of_single rfl i q
theorem mm1_rhs0 (i : S2048x8.Idx) (q : D1.contr.Idx) : (D1.rhsIdx i q 0).val = (q ⟨0, by decide⟩).val :=
  dot_S2048x3_S3x8_S2048x8_1_0_0_1_n_n.rhsIdx_val_of_single rfl i q
theorem mm1_rhs1 (i : S2048x8.Idx) (q : D1.contr.Idx) : (D1.rhsIdx i q 1).val = (i 1).val := by
  unfold DotDims.rhsIdx
  rw [dif_neg (show ¬(1 : Fin S3x8.rank) ∈ dot_S2048x3_S3x8_S2048x8_1_0_0_1_n_n.rhsBatch by decide),
    dif_pos (show (1 : Fin S3x8.rank) ∈ dot_S2048x3_S3x8_S2048x8_1_0_0_1_n_n.rhsNonContracting by decide)]
  rfl

/-- The relative coordinates times the first weight matrix: at `(r, o)` the sum over the three coordinates. -/
theorem mm1_apply {φ₁ φ₂ : FTy} (a : FVec Ideal S2048x3 φ₁) (b : FVec Ideal S3x8 φ₂) (r : Fin 2048) (o : Fin 8) :
    FloatOps.matmul D1 none a b (constant S2048x8 .f32 0x00000000#32) (ix2 r o) = ∑ c : Fin 3, a (ix2 r c) * b (ix2 c o) := by
  rw [Ideal.matmul_constant_zero_apply, ← Equiv.sum_comp (contrEquiv1 D1 3 rfl rfl).symm]
  refine Finset.sum_congr rfl fun k _ => ?_
  have hk := contrEquiv1_symm_val D1 3 rfl rfl k
  have el : D1.lhsIdx (ix2 r o) ((contrEquiv1 D1 3 rfl rfl).symm k) = ix2 r k := funext fun ax => Fin.ext (by
    match ax with
    | ⟨0, _⟩ => exact mm1_lhs0 _ _
    | ⟨1, _⟩ => exact (mm1_lhs1 _ _).trans hk)
  have er : D1.rhsIdx (ix2 r o) ((contrEquiv1 D1 3 rfl rfl).symm k) = ix2 k o := funext fun ax => Fin.ext (by
    match ax with
    | ⟨0, _⟩ => exact (mm1_rhs0 _ _).trans hk
    | ⟨1, _⟩ => exact mm1_rhs1 _ _)
  rw [el, er]
end MM1

section MM2
/-- The dimension numbers of this product: contract the left's columns with the right's rows. -/
abbrev D2 : DotDims S2048x8 S8x16 S2048x16 := dot_S2048x8_S8x16_S2048x16_1_0_0_1_n_n

theorem mm2_lhs0 (i : S2048x16.Idx) (q : D2.contr.Idx) : (D2.lhsIdx i q 0).val = (i 0).val := by
  unfold DotDims.lhsIdx
  rw [dif_neg (show ¬(0 : Fin S2048x8.rank) ∈ dot_S2048x8_S8x16_S2048x16_1_0_0_1_n_n.lhsBatch by decide),
    dif_pos (show (0 : Fin S2048x8.rank) ∈ dot_S2048x8_S8x16_S2048x16_1_0_0_1_n_n.lhsNonContracting by decide)]
  rfl
theorem mm2_lhs1 (i : S2048x16.Idx) (q : D2.contr.Idx) : (D2.lhsIdx i q 1).val = (q ⟨0, by decide⟩).val :=
  dot_S2048x8_S8x16_S2048x16_1_0_0_1_n_n.lhsIdx_val_of_single rfl i q
theorem mm2_rhs0 (i : S2048x16.Idx) (q : D2.contr.Idx) : (D2.rhsIdx i q 0).val = (q ⟨0, by decide⟩).val :=
  dot_S2048x8_S8x16_S2048x16_1_0_0_1_n_n.rhsIdx_val_of_single rfl i q
theorem mm2_rhs1 (i : S2048x16.Idx) (q : D2.contr.Idx) : (D2.rhsIdx i q 1).val = (i 1).val := by
  unfold DotDims.rhsIdx
  rw [dif_neg (show ¬(1 : Fin S8x16.rank) ∈ dot_S2048x8_S8x16_S2048x16_1_0_0_1_n_n.rhsBatch by decide),
    dif_pos (show (1 : Fin S8x16.rank) ∈ dot_S2048x8_S8x16_S2048x16_1_0_0_1_n_n.rhsNonContracting by decide)]
  rfl

/-- The hidden layer times the second weight matrix: at `(r, f)` the sum over the eight hidden units. -/
theorem mm2_apply {φ₁ φ₂ : FTy} (a : FVec Ideal S2048x8 φ₁) (b : FVec Ideal S8x16 φ₂) (r : Fin 2048) (o : Fin 16) :
    FloatOps.matmul D2 none a b (constant S2048x16 .f32 0x00000000#32) (ix2 r o) = ∑ c : Fin 8, a (ix2 r c) * b (ix2 c o) := by
  rw [Ideal.matmul_constant_zero_apply, ← Equiv.sum_comp (contrEquiv1 D2 8 rfl rfl).symm]
  refine Finset.sum_congr rfl fun k _ => ?_
  have hk := contrEquiv1_symm_val D2 8 rfl rfl k
  have el : D2.lhsIdx (ix2 r o) ((contrEquiv1 D2 8 rfl rfl).symm k) = ix2 r k := funext fun ax => Fin.ext (by
    match ax with
    | ⟨0, _⟩ => exact mm2_lhs0 _ _
    | ⟨1, _⟩ => exact (mm2_lhs1 _ _).trans hk)
  have er : D2.rhsIdx (ix2 r o) ((contrEquiv1 D2 8 rfl rfl).symm k) = ix2 k o := funext fun ax => Fin.ext (by
    match ax with
    | ⟨0, _⟩ => exact (mm2_rhs0 _ _).trans hk
    | ⟨1, _⟩ => exact mm2_rhs1 _ _)
  rw [el, er]
end MM2

section MM3
/-- The dimension numbers of this product: contract the left's columns with the right's rows. -/
abbrev D3 : DotDims S128x1072 S1072x128 S128x128 := dot_S128x1072_S1072x128_S128x128_1_0_0_1_n_n

theorem mm3_lhs0 (i : S128x128.Idx) (q : D3.contr.Idx) : (D3.lhsIdx i q 0).val = (i 0).val := by
  unfold DotDims.lhsIdx
  rw [dif_neg (show ¬(0 : Fin S128x1072.rank) ∈ dot_S128x1072_S1072x128_S128x128_1_0_0_1_n_n.lhsBatch by decide),
    dif_pos (show (0 : Fin S128x1072.rank) ∈ dot_S128x1072_S1072x128_S128x128_1_0_0_1_n_n.lhsNonContracting by decide)]
  rfl
theorem mm3_lhs1 (i : S128x128.Idx) (q : D3.contr.Idx) : (D3.lhsIdx i q 1).val = (q ⟨0, by decide⟩).val :=
  dot_S128x1072_S1072x128_S128x128_1_0_0_1_n_n.lhsIdx_val_of_single rfl i q
theorem mm3_rhs0 (i : S128x128.Idx) (q : D3.contr.Idx) : (D3.rhsIdx i q 0).val = (q ⟨0, by decide⟩).val :=
  dot_S128x1072_S1072x128_S128x128_1_0_0_1_n_n.rhsIdx_val_of_single rfl i q
theorem mm3_rhs1 (i : S128x128.Idx) (q : D3.contr.Idx) : (D3.rhsIdx i q 1).val = (i 1).val := by
  unfold DotDims.rhsIdx
  rw [dif_neg (show ¬(1 : Fin S1072x128.rank) ∈ dot_S128x1072_S1072x128_S128x128_1_0_0_1_n_n.rhsBatch by decide),
    dif_pos (show (1 : Fin S1072x128.rank) ∈ dot_S128x1072_S1072x128_S128x128_1_0_0_1_n_n.rhsNonContracting by decide)]
  rfl

/-- The aggregated rows times the final weight matrix: at `(n, o)` the sum over the 1072 aggregated values. -/
theorem mm3_apply {φ₁ φ₂ : FTy} (a : FVec Ideal S128x1072 φ₁) (b : FVec Ideal S1072x128 φ₂) (r : Fin 128) (o : Fin 128) :
    FloatOps.matmul D3 none a b (constant S128x128 .f32 0x00000000#32) (ix2 r o) = ∑ c : Fin 1072, a (ix2 r c) * b (ix2 c o) := by
  rw [Ideal.matmul_constant_zero_apply, ← Equiv.sum_comp (contrEquiv1 D3 1072 rfl rfl).symm]
  refine Finset.sum_congr rfl fun k _ => ?_
  have hk := contrEquiv1_symm_val D3 1072 rfl rfl k
  have el : D3.lhsIdx (ix2 r o) ((contrEquiv1 D3 1072 rfl rfl).symm k) = ix2 r k := funext fun ax => Fin.ext (by
    match ax with
    | ⟨0, _⟩ => exact mm3_lhs0 _ _
    | ⟨1, _⟩ => exact (mm3_lhs1 _ _).trans hk)
  have er : D3.rhsIdx (ix2 r o) ((contrEquiv1 D3 1072 rfl rfl).symm k) = ix2 k o := funext fun ax => Fin.ext (by
    match ax with
    | ⟨0, _⟩ => exact (mm3_rhs0 _ _).trans hk
    | ⟨1, _⟩ => exact mm3_rhs1 _ _)
  rw [el, er]
end MM3

end Cert.KernelIdeal.Pay

end
-- ==== Proof.Spec.lean ====
/-
  The point convolution, as one function of a query point's data.

  For one query point the kernel and the reference both compute, from the point's sixteen gathered neighbour rows
  `kf k c` (67 channels each: three coordinates, then 64 features; already masked), the point's own coordinates
  `nx c`, and the weights:
    rel k c   = kf k c - nx c                                  (c < 3: neighbour coordinates relative to the point)
    hid k o   = leaky (∑ c, rel k c · w1 o c + b1 o)           (3 → 8)
    wt  k f   = leaky (∑ o, hid k o · w2 f o + b2 f)           (8 → 16)
    agg f c   = ∑ k, wt k f · kf k c                           (the sum over the sixteen neighbours)
    out       = leaky (∑ q < 1072, agg (q / 67) (q % 67) · wl q + bl)
  where `leaky x` is `x` when `x ≥ 0` and `0.1 · x` otherwise, with the two float literals kept as their
  binary words (the same words on both sides, never evaluated). Everything is on the extended reals; no law
  beyond the associativity and commutativity of `+` is used to join the two programs, so no finiteness is needed.
-/
import Idealize.ShloMosaic.PureOps.Ideal
import Idealize.ShloMosaic.Lib.ValueIdx

noncomputable section

open scoped BigOperators

namespace Cert.PointConv

open Idealize.ShloMosaic

/-- `x` where `x ≥ 0`, else `0.1 · x`: the comparison, the select and the two literals as both programs print them. -/
def leaky (x : EReal) : EReal :=
  Scalar.select (FloatOps.cmpf (F := Ideal) (φ := .f32) .oge x (Ideal.ofBits .f32 0x00000000#32)) x
    (Ideal.ofBits .f32 0x3DCCCCCD#32 * x)

section Point

variable (kf : Fin 16 → Fin 67 → EReal) (nx : Fin 3 → EReal) (w1 : Fin 8 → Fin 3 → EReal) (b1 : Fin 8 → EReal)
  (w2 : Fin 16 → Fin 8 → EReal) (b2 : Fin 16 → EReal)

/-- Neighbour `k`'s coordinate `c` relative to the query point (the coordinates are a row's first three channels). -/
def rel (k : Fin 16) (c : Fin 3) : EReal := kf k ⟨c.val, by omega⟩ - nx c

/-- The first layer of the weight net at neighbour `k`, unit `o`. -/
def hid (k : Fin 16) (o : Fin 8) : EReal := leaky (∑ c : Fin 3, rel kf nx k c * w1 o c + b1 o)

/-- The second layer: the weight of neighbour `k` in filter `f`. -/
def wt (k : Fin 16) (f : Fin 16) : EReal := leaky (∑ o : Fin 8, hid kf nx w1 b1 k o * w2 f o + b2 f)

/-- The neighbours' rows weighted and summed: filter `f`, channel `c`. -/
def agg (f : Fin 16) (c : Fin 67) : EReal := ∑ k : Fin 16, wt kf nx w1 b1 w2 b2 k f * kf k c

/-- One output channel of the point: the final linear layer over the 16 · 67 aggregated values, row-major. -/
def point (wl : Fin 1072 → EReal) (bl : EReal) : EReal :=
  leaky (∑ q : Fin 1072, agg kf nx w1 b1 w2 b2 ⟨q.val / 67, by have := q.isLt; omega⟩ ⟨q.val % 67, Nat.mod_lt _ (by decide)⟩ * wl q + bl)

end Point

end Cert.PointConv

end
-- ==== Proof.Payload.lean ====
/-
  The kernel body read at one element of its output block.

  The body is cut into payloads (the generated skeleton's `k0_pay…`); each is read here at an index as a plain
  expression of the blocks' entries. The weight net (payloads 5 and 7) gives, for row `r = n · 16 + k` of the
  flattened `[2048, ·]` arrays, the weight of neighbour `k` of point `n`; the unrolled neighbour sum (payloads 8, 10
  and the first half of 12) adds `weight n k f · row n k c` for `k = 0 … 15` onto a zero start; the final layer
  (payload 12) contracts the 1072 aggregated values of a point with a column of the last weight matrix, and payload 1
  applies the leaky rectifier. Format changes are the identity on the extended reals.
-/
import proofs.«141387_j90323162235005_1_alg».proof.Proof.Gen.KernelIdeal.Skeleton
import proofs.«141387_j90323162235005_1_alg».proof.Proof.BlockOps
import proofs.«141387_j90323162235005_1_alg».proof.Proof.MatProducts
import proofs.«141387_j90323162235005_1_alg».proof.Proof.Spec

noncomputable section

open scoped BigOperators

namespace Cert.KernelIdeal.Pay

open Cert.KernelIdeal Cert.KernelIdeal.Gen Cert.PointConv Cert.PointConv.Layout Idealize.ShloMosaic Idealize.ShloMosaic.ValueIdx

/-! ## One step of the neighbour sum -/

section Steps
variable {α : Type}

/-- The weights' cut at neighbour `k`, re-laid as `[128, 16]`: at `(n, f)` the weight of neighbour `k` in filter `f`. -/
theorem wslice_apply (k : ℕ) (W : (⟨3, ![128, 16, 16]⟩ : Shape).Idx → α)
    (hs : (⟨3, ![128, 16, 16]⟩ : Shape).Slices ![0, k, 0] ⟨3, ![128, 1, 16]⟩)
    (h1 : (⟨3, ![128, 1, 16]⟩ : Shape).ShapeCasts ⟨2, ![128, 16]⟩) (n : Fin 128) (f : Fin 16) :
    shapeCast ⟨2, ![128, 16]⟩ (extractStridedSlice ⟨3, ![128, 1, 16]⟩ ![0, k, 0] W hs) h1 (ix2 n f)
      = W (ix3 n ⟨k + (0 : Fin 1).val, Nat.lt_of_lt_of_le (Nat.add_lt_add_left (0 : Fin 1).isLt k) (hs.2 1)⟩ f) := by
  rw [shapeCast_a1b_ab_apply, slice3_axis1_eq]

/-- A `[128, 16]` array given a trailing unit axis and broadcast along the channels reads `(n, f)` at every channel. -/
theorem wbcast_apply (y : (⟨2, ![128, 16]⟩ : Shape).Idx → α) (h2 : (⟨2, ![128, 16]⟩ : Shape).ShapeCasts ⟨3, ![128, 16, 1]⟩)
    (h3 : (⟨3, ![128, 16, 1]⟩ : Shape).Broadcasts ⟨3, ![128, 16, 67]⟩) (n : Fin 128) (f : Fin 16) (c : Fin 67) :
    broadcastTo ⟨3, ![128, 16, 67]⟩ (shapeCast ⟨3, ![128, 16, 1]⟩ y h2) h3 (ix3 n f c) = y (ix2 n f) := by
  rw [broadcastTo_ab1_abk_apply, shapeCast_ab_ab1_apply]

/-- The rows' cut at neighbour `k`, broadcast along the filters: at `(n, f, c)` channel `c` of neighbour `k`'s row. -/
theorem fstep_apply (k : ℕ) (v1 : (⟨3, ![128, 16, 67]⟩ : Shape).Idx → α)
    (hs : (⟨3, ![128, 16, 67]⟩ : Shape).Slices ![0, k, 0] ⟨3, ![128, 1, 67]⟩)
    (h1 : (⟨3, ![128, 1, 67]⟩ : Shape).ShapeCasts ⟨2, ![128, 67]⟩) (h2 : (⟨2, ![128, 67]⟩ : Shape).ShapeCasts ⟨3, ![128, 1, 67]⟩)
    (h3 : (⟨3, ![128, 1, 67]⟩ : Shape).Broadcasts ⟨3, ![128, 16, 67]⟩) (n : Fin 128) (f : Fin 16) (c : Fin 67) :
    broadcastTo ⟨3, ![128, 16, 67]⟩ (shapeCast ⟨3, ![128, 1, 67]⟩ (shapeCast ⟨2, ![128, 67]⟩
        (extractStridedSlice ⟨3, ![128, 1, 67]⟩ ![0, k, 0] v1 hs) h1) h2) h3 (ix3 n f c)
      = v1 (ix3 n ⟨k + (0 : Fin 1).val, Nat.lt_of_lt_of_le (Nat.add_lt_add_left (0 : Fin 1).isLt k) (hs.2 1)⟩ c) := by
  rw [broadcastTo_a1b_akb_apply, shapeCast_ab_a1b_apply, shapeCast_a1b_ab_apply, slice3_axis1_eq]

end Steps

/-! ## The payloads at an index -/

/-- The rows' block without its leading unit axis. -/
theorem pay2_apply (v0 : Vec Ideal S1x128x16x67 .f32) (n : Fin 128) (k : Fin 16) (c : Fin 67) :
    k0_pay2 (F := Ideal) v0 (ix3 n k c) = v0 (ix4 (0 : Fin 1) n k c) := by
  unfold k0_pay2
  exact shapeCast_1abc_abc_apply _ _ n k c

/-- The leaky rectifier of the second layer's sums, re-laid per point and neighbour. -/
theorem pay7_apply (v35 : FVec Ideal S2048x16 .f32) (n : Fin 128) (k : Fin 16) (f : Fin 16) :
    k0_pay7 (F := Ideal) v35 (k0_pay6 (F := Ideal)) (ix3 n k f)
      = leaky (v35 (ix2 (⟨n.val * 16 + k.val, by have := n.isLt; have := k.isLt; omega⟩ : Fin 2048) f)) := by
  unfold k0_pay7 k0_pay6
  rw [shapeCast_2048x16_128x16x16_apply]
  rfl

/-- The second layer's sums before the rectifier: at row `r = n · 16 + k` and filter `f`, the sum over the eight hidden
    units of point `n`'s neighbour `k` times the second weight matrix, plus the bias. -/
theorem pay5_apply (v0 : Vec Ideal S1x128x16x67 .f32) (v2 : Vec Ideal S1x128x3 .f32) (v8 : Vec Ideal S3x8 .f32)
    (v10 : Vec Ideal S8 .f32) (v11 : Vec Ideal S8x16 .f32) (v13 : Vec Ideal S16 .f32)
    (r : Fin 2048) (n : Fin 128) (k : Fin 16) (hn : r.val / 16 = n.val) (hk : r.val % 16 = k.val) (f : Fin 16) :
    k0_pay5 (F := Ideal) v0 v2 v8 v10 v11 v13 (ix2 r f)
      = ∑ o : Fin 8, hid (fun k c => v0 (ix4 (0 : Fin 1) n k c)) (fun c => v2 (ix3 (0 : Fin 1) n c))
          (fun o c => v8 (ix2 c o)) (fun o => v10 (ix1 o)) k o * v11 (ix2 o f) + v13 (ix1 f) := by
  have en : n = ⟨r.val / 16, Nat.div_lt_of_lt_mul r.isLt⟩ := Fin.ext hn.symm
  have ek : k = ⟨r.val % 16, Nat.mod_lt _ (by decide)⟩ := Fin.ext hk.symm
  subst en ek
  unfold k0_pay5
  simp only [addf_apply, matmul, mm2_apply, mm1_apply, truncf_apply, select_apply, cmpf_apply, mulf_apply, subf_apply,
    broadcast_apply, broadcastTo_1b_ab_apply, shapeCast_a_1a_apply, shapeCast_self, shapeCast_128x16x3_2048x3_apply,
    slice3_axis2_zero_apply, pay2_apply, broadcastTo_a1b_akb_apply, shapeCast_ab_a1b_apply, shapeCast_1ab_ab_apply]
  rfl

/-- The neighbour sum after neighbours 0 … 4, from the zero start. -/
theorem pay8_apply (v1 : FVec Ideal S128x16x67 .f32) (v35 v36 : FVec Ideal S2048x16 .f32) (n : Fin 128) (f : Fin 16) (c : Fin 67) :
    k0_pay8 (F := Ideal) v1 v35 v36 (ix3 n f c)
      = (((((Ideal.ofBits .f32 0x00000000#32 + k0_pay7 (F := Ideal) v35 v36 (ix3 n (0 : Fin 16) f) * v1 (ix3 n (0 : Fin 16) c)) + k0_pay7 (F := Ideal) v35 v36 (ix3 n (1 : Fin 16) f) * v1 (ix3 n (1 : Fin 16) c)) + k0_pay7 (F := Ideal) v35 v36 (ix3 n (2 : Fin 16) f) * v1 (ix3 n (2 : Fin 16) c)) + k0_pay7 (F := Ideal) v35 v36 (ix3 n (3 : Fin 16) f) * v1 (ix3 n (3 : Fin 16) c)) + k0_pay7 (F := Ideal) v35 v36 (ix3 n (4 : Fin 16) f) * v1 (ix3 n (4 : Fin 16) c)) := by
  unfold k0_pay8
  simp only [addf_apply, mulf_apply, broadcast_apply, wbcast_apply, wslice_apply, fstep_apply]
  rfl

/-- Neighbour 5's weights, cut out for the next part of the body. -/
theorem pay9_apply (v35 v36 : FVec Ideal S2048x16 .f32) (n : Fin 128) (f : Fin 16) :
    k0_pay9 (F := Ideal) v35 v36 (ix2 n f) = k0_pay7 (F := Ideal) v35 v36 (ix3 n (5 : Fin 16) f) := by
  unfold k0_pay9
  simp only [wslice_apply]
  rfl

/-- The neighbour sum continued through neighbours 5 … 10. -/
theorem pay10_apply (v1 : FVec Ideal S128x16x67 .f32) (v41 : FVec Ideal S128x16x16 .f32) (v92 : FVec Ideal S128x16x67 .f32)
    (v94 : FVec Ideal S128x16 .f32) (n : Fin 128) (f : Fin 16) (c : Fin 67) :
    k0_pay10 (F := Ideal) v1 v41 v92 v94 (ix3 n f c)
      = ((((((v92 (ix3 n f c) + v94 (ix2 n f) * v1 (ix3 n (5 : Fin 16) c)) + v41 (ix3 n (6 : Fin 16) f) * v1 (ix3 n (6 : Fin 16) c)) + v41 (ix3 n (7 : Fin 16) f) * v1 (ix3 n (7 : Fin 16) c)) + v41 (ix3 n (8 : Fin 16) f) * v1 (ix3 n (8 : Fin 16) c)) + v41 (ix3 n (9 : Fin 16) f) * v1 (ix3 n (9 : Fin 16) c)) + v41 (ix3 n (10 : Fin 16) f) * v1 (ix3 n (10 : Fin 16) c)) := by
  unfold k0_pay10
  simp only [addf_apply, mulf_apply, broadcast_apply, wbcast_apply, wslice_apply, fstep_apply]
  rfl

/-- Neighbour 11's weights, cut out for the last part of the body. -/
theorem pay11_apply (v41 : FVec Ideal S128x16x16 .f32) (n : Fin 128) (f : Fin 16) :
    k0_pay11 (F := Ideal) v41 (ix2 n f) = v41 (ix3 n (11 : Fin 16) f) := by
  unfold k0_pay11
  simp only [wslice_apply]
  rfl

/-- The final layer before the rectifier: at `(n, o)` the sum over the 1072 aggregated values (the neighbour sum
    completed through neighbours 11 … 15, flattened row-major) times column `o` of the last weight matrix, plus the bias. -/
theorem pay12_apply (v1 : FVec Ideal S128x16x67 .f32) (v15 : FVec Ideal S1072x128 .f32) (v17 : FVec Ideal S128 .f32)
    (v41 : FVec Ideal S128x16x16 .f32) (v152 : FVec Ideal S128x16x67 .f32) (v154 : FVec Ideal S128x16 .f32) (n : Fin 128) (o : Fin 128) :
    k0_pay12 (F := Ideal) v1 v15 v17 v41 v152 v154 (ix2 n o)
      = ∑ q : Fin 1072,
          (fun (f : Fin 16) (c : Fin 67) => (((((v152 (ix3 n f c) + v154 (ix2 n f) * v1 (ix3 n (11 : Fin 16) c)) + v41 (ix3 n (12 : Fin 16) f) * v1 (ix3 n (12 : Fin 16) c)) + v41 (ix3 n (13 : Fin 16) f) * v1 (ix3 n (13 : Fin 16) c)) + v41 (ix3 n (14 : Fin 16) f) * v1 (ix3 n (14 : Fin 16) c)) + v41 (ix3 n (15 : Fin 16) f) * v1 (ix3 n (15 : Fin 16) c)))
            ⟨q.val / 67, by have := q.isLt; omega⟩ ⟨q.val % 67, Nat.mod_lt _ (by decide)⟩ * v15 (ix2 q o)
        + v17 (ix1 o) := by
  unfold k0_pay12
  simp only [addf_apply, matmul, mm3_apply, truncf_apply, shapeCast_128x16x67_128x1072_apply, broadcastTo_1b_ab_apply,
    shapeCast_a_1a_apply, addf_apply, mulf_apply, broadcast_apply, wbcast_apply, wslice_apply, fstep_apply]
  rfl

/-- The rectifier's condition. -/
theorem pay13_apply (v1 : FVec Ideal S128x16x67 .f32) (v15 : FVec Ideal S1072x128 .f32) (v17 : FVec Ideal S128 .f32)
    (v41 : FVec Ideal S128x16x16 .f32) (v152 : FVec Ideal S128x16x67 .f32) (v154 : FVec Ideal S128x16 .f32) (n : Fin 128) (o : Fin 128) :
    k0_pay13 (F := Ideal) v1 v15 v17 v41 v152 v154 (ix2 n o)
      = FloatOps.cmpf (F := Ideal) (φ := .f32) .oge (k0_pay12 (F := Ideal) v1 v15 v17 v41 v152 v154 (ix2 n o)) (Ideal.ofBits .f32 0x00000000#32) := by
  unfold k0_pay13
  rfl

/-- The stored block: the rectifier applied, under the block's leading unit axis. -/
theorem pay1_apply (v209 : FVec Ideal S128x128 .f32) (v211 : IVec S128x128 1) (cst : Ideal .f32) (u : Fin 1) (n : Fin 128) (o : Fin 128) :
    k0_pay1 (F := Ideal) v209 v211 cst (ix3 u n o) = Scalar.select (v211 (ix2 n o)) (v209 (ix2 n o)) (cst * v209 (ix2 n o)) := by
  unfold k0_pay1
  rw [shapeCast_ab_1ab_apply]
  rfl

end Cert.KernelIdeal.Pay

end
-- ==== Proof.Block.lean ====
/-
  What the kernel body leaves in its output block, element by element: the point convolution of the point's data.

  The body's stored value is the leaky rectifier of the final layer's sums; the final layer contracts the aggregated
  values, which the body builds by adding the sixteen neighbours' terms one after the other onto a zero start. Adding
  onto zero in that order is the sum over the sixteen neighbours, so each element of the block is the specification's
  `point` of row `n` of the blocks: the neighbours' rows, the point's coordinates, and the weight matrices as the
  block holds them (the first two transposed, the last with its output channels along the columns).
-/
import proofs.«141387_j90323162235005_1_alg».proof.Proof.Gen.KernelIdeal.Frame
import proofs.«141387_j90323162235005_1_alg».proof.Proof.Payload

noncomputable section

open scoped BigOperators

namespace Cert.KernelIdeal.Pay

open Cert.KernelIdeal Cert.KernelIdeal.Gen Cert.PointConv Cert.PointConv.Layout Idealize.ShloMosaic Idealize.ShloMosaic.ValueIdx

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl
theorem hz4 : (![0, 0, 0, 0] : Fin 4 → ℕ) = fun _ => 0 :=
  funext fun a => by match a with | ⟨0, _⟩ => rfl | ⟨1, _⟩ => rfl | ⟨2, _⟩ => rfl | ⟨3, _⟩ => rfl

/-- Sixteen terms added one after the other onto the zero word are their sum. -/
theorem sum16 (g : Fin 16 → EReal) :
    ((((((((((((((((Ideal.ofBits .f32 0x00000000#32 + g 0) + g 1) + g 2) + g 3) + g 4) + g 5) + g 6) + g 7) + g 8) + g 9) + g 10) + g 11) + g 12) + g 13) + g 14) + g 15) = ∑ k : Fin 16, g k := by
  rw [Ideal.ofBits_zero_f32]
  simp only [Fin.sum_univ_castSucc, Fin.sum_univ_zero]
  rfl

/-- The weight of neighbour `k` in filter `f`, as the body computes it for point `n` of the block. -/
theorem pay75_apply (v0 : Vec Ideal S1x128x16x67 .f32) (v2 : Vec Ideal S1x128x3 .f32) (v8 : Vec Ideal S3x8 .f32)
    (v10 : Vec Ideal S8 .f32) (v11 : Vec Ideal S8x16 .f32) (v13 : Vec Ideal S16 .f32) (n : Fin 128) (k : Fin 16) (f : Fin 16) :
    k0_pay7 (F := Ideal) (k0_pay5 (F := Ideal) v0 v2 v8 v10 v11 v13) (k0_pay6 (F := Ideal)) (ix3 n k f)
      = wt (fun k c => v0 (ix4 (0 : Fin 1) n k c)) (fun c => v2 (ix3 (0 : Fin 1) n c)) (fun o c => v8 (ix2 c o))
          (fun o => v10 (ix1 o)) (fun f o => v11 (ix2 o f)) (fun f => v13 (ix1 f)) k f := by
  have hk := k.isLt
  refine (pay7_apply _ n k f).trans ?_
  exact congrArg leaky (pay5_apply v0 v2 v8 v10 v11 v13 ⟨n.val * 16 + k.val, by have := n.isLt; omega⟩ n k
    (show (n.val * 16 + k.val) / 16 = n.val by omega) (show (n.val * 16 + k.val) % 16 = k.val by omega) f)

/-- THE BLOCK: element `(n, o)` of what the body stores is the point convolution of row `n` of the input blocks at
    output channel `o`. -/
theorem out_apply (x0 : Vec Ideal S1x128x16x67 .f32) (x1 : Vec Ideal S1x128x3 .f32) (x2 : Vec Ideal S3x8 .f32) (x3 : Vec Ideal S8 .f32)
    (x4 : Vec Ideal S8x16 .f32) (x5 : Vec Ideal S16 .f32) (x6 : Vec Ideal S1072x128 .f32) (x7 : Vec Ideal S128 .f32)
    (u : Fin 1) (n : Fin 128) (o : Fin 128) :
    out0_8 (F := Ideal) x0 x1 x2 x3 x4 x5 x6 x7 (ix3 u n o)
      = point (fun k c => x0 (ix4 (0 : Fin 1) n k c)) (fun c => x1 (ix3 (0 : Fin 1) n c)) (fun o c => x2 (ix2 c o))
          (fun o => x3 (ix1 o)) (fun f o => x4 (ix2 o f)) (fun f => x5 (ix1 f)) (fun q => x6 (ix2 q o)) (x7 (ix1 o)) := by
  unfold out0_8
  rw [View.canon_unit_zero hz3]
  simp only [View.ld_unit_zero (S := S1x128x16x67) hz4, View.ld_unit_zero (S := S1x128x3) hz3, View.ld_unit_zero (S := S3x8) hz2,
    View.ld_unit_zero (S := S8) hz1, View.ld_unit_zero (S := S8x16) hz2, View.ld_unit_zero (S := S16) hz1,
    View.ld_unit_zero (S := S1072x128) hz2, View.ld_unit_zero (S := S128) hz1]
  rw [pay1_apply, pay13_apply, pay12_apply]
  simp only [pay10_apply, pay8_apply, pay9_apply, pay11_apply, pay75_apply, pay2_apply, k0_pay3, k0_pay4, shapeCast_self]
  have key : ∀ q : Fin 1072, ((((((((((((((((Ideal.ofBits .f32 0x00000000#32 + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (0 : Fin 16) (⟨q.val / 67, by have := q.isLt; omega⟩ : Fin 16) * x0 (ix4 (0 : Fin 1) n (0 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (1 : Fin 16) (⟨q.val / 67, by have := q.isLt; omega⟩ : Fin 16) * x0 (ix4 (0 : Fin 1) n (1 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (2 : Fin 16) (⟨q.val / 67, by have := q.isLt; omega⟩ : Fin 16) * x0 (ix4 (0 : Fin 1) n (2 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (3 : Fin 16) (⟨q.val / 67, by have := q.isLt; omega⟩ : Fin 16) * x0 (ix4 (0 : Fin 1) n (3 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (4 : Fin 16) (⟨q.val / 67, by have := q.isLt; omega⟩ : Fin 16) * x0 (ix4 (0 : Fin 1) n (4 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (5 : Fin 16) (⟨q.val / 67, by have := q.isLt; omega⟩ : Fin 16) * x0 (ix4 (0 : Fin 1) n (5 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (6 : Fin 16) (⟨q.val / 67, by have := q.isLt; omega⟩ : Fin 16) * x0 (ix4 (0 : Fin 1) n (6 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (7 : Fin 16) (⟨q.val / 67, by have := q.isLt; omega⟩ : Fin 16) * x0 (ix4 (0 : Fin 1) n (7 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (8 : Fin 16) (⟨q.val / 67, by have := q.isLt; omega⟩ : Fin 16) * x0 (ix4 (0 : Fin 1) n (8 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (9 : Fin 16) (⟨q.val / 67, by have := q.isLt; omega⟩ : Fin 16) * x0 (ix4 (0 : Fin 1) n (9 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (10 : Fin 16) (⟨q.val / 67, by have := q.isLt; omega⟩ : Fin 16) * x0 (ix4 (0 : Fin 1) n (10 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (11 : Fin 16) (⟨q.val / 67, by have := q.isLt; omega⟩ : Fin 16) * x0 (ix4 (0 : Fin 1) n (11 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (12 : Fin 16) (⟨q.val / 67, by have := q.isLt; omega⟩ : Fin 16) * x0 (ix4 (0 : Fin 1) n (12 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (13 : Fin 16) (⟨q.val / 67, by have := q.isLt; omega⟩ : Fin 16) * x0 (ix4 (0 : Fin 1) n (13 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (14 : Fin 16) (⟨q.val / 67, by have := q.isLt; omega⟩ : Fin 16) * x0 (ix4 (0 : Fin 1) n (14 : Fin 16) (⟨q.val % 67, Nat.mod_lt _ (by decide)⟩ : Fin 67))) + wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) (15 : Fin 16) (⟨q.val / 67, by have := q.isLt; omega⟩ : Fin 16) * x0 (ix4 (0 : Fin 1) n (15 : Fin 16) (⟨q.val % 67, Nat.mod_lt _ (by decide)⟩ : Fin 67)))
      = ∑ k : Fin 16, wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) k (⟨q.val / 67, by have := q.isLt; omega⟩ : Fin 16) * x0 (ix4 (0 : Fin 1) n k (⟨q.val % 67, Nat.mod_lt _ (by decide)⟩ : Fin 67)) :=
    fun q => sum16 (fun k : Fin 16 => wt (fun k c => x0 (ix4 (0 : Fin 1) n k c)) (fun c => x1 (ix3 (0 : Fin 1) n c)) (fun o c => x2 (ix2 c o)) (fun o => x3 (ix1 o)) (fun f o => x4 (ix2 o f)) (fun f => x5 (ix1 f)) k (⟨q.val / 67, by have := q.isLt; omega⟩ : Fin 16) * x0 (ix4 (0 : Fin 1) n k (⟨q.val % 67, Nat.mod_lt _ (by decide)⟩ : Fin 67)))
  simp only [key]
  rfl

end Cert.KernelIdeal.Pay

end
-- ==== Proof.OutArray.lean ====
/-
  The kernel's output array as ONE function of the arrays the region reads, and the grid's index maps in closed form.

  The grid is `2 × 280`: point `t` is batch `t / 280`, row block `t % 280`; it reads rows `128 (t % 280) + ·` of that batch
  of the gathered rows and of the query coordinates, the whole of each weight array, and writes the same rows of the
  `[2, 35840, 128]` output. Each written element is the point convolution of its own row, so a block is the restriction
  of one whole-array function (`outArr`) of the arrays.
-/
import proofs.«141387_j90323162235005_1_alg».proof.Proof.Block

set_option maxRecDepth 16384

noncomputable section

open scoped BigOperators

namespace Cert.KernelIdeal.Arr

open Cert.KernelIdeal Cert.KernelIdeal.Gen Cert.KernelIdeal.Pay Cert.PointConv Idealize.ShloMosaic Idealize.ShloMosaic.TcCoe
open Idealize.ShloMosaic.ValueIdx Idealize.SL.Sem
open Idealize.ShloMosaic.Pipeline (Dat Cfg Window)

/-- The output array as one function of the arrays the region reads: element `(b, p, o)` is the point convolution of
    query point `p` of batch `b` at output channel `o` (the weight arrays as the kernel is handed them: the first two
    transposed, the last with the output channels along its columns). -/
def outArr (A0 : S2x35840x16x67.Idx → EReal) (A1 : S2x35840x3.Idx → EReal) (A2 : S3x8.Idx → EReal) (A3 : S8.Idx → EReal)
    (A4 : S8x16.Idx → EReal) (A5 : S16.Idx → EReal) (A6 : S1072x128.Idx → EReal) (A7 : S128.Idx → EReal) :
    S2x35840x128.Idx → EReal := fun i =>
  point (fun k ch => A0 (ix4 (⟨(i 0).val, (i 0).isLt⟩ : Fin 2) (⟨(i 1).val, (i 1).isLt⟩ : Fin 35840) k ch))
    (fun ch => A1 (ix3 (⟨(i 0).val, (i 0).isLt⟩ : Fin 2) (⟨(i 1).val, (i 1).isLt⟩ : Fin 35840) ch))
    (fun o ch => A2 (ix2 ch o)) (fun o => A3 (ix1 o)) (fun f o => A4 (ix2 o f)) (fun f => A5 (ix1 f))
    (fun q => A6 (ix2 q (⟨(i 2).val, (i 2).isLt⟩ : Fin 128))) (A7 (ix1 (⟨(i 2).val, (i 2).isLt⟩ : Fin 128)))

/-- A block of the output is the restriction of `outArr`, whenever the input blocks are the restrictions of the arrays
    to batch `b`, rows `128 i + ·`, and the weight blocks are the weight arrays. -/
theorem block_eq (x0 : Vec Ideal S1x128x16x67 .f32) (x1 : Vec Ideal S1x128x3 .f32) (x2 : Vec Ideal S3x8 .f32) (x3 : Vec Ideal S8 .f32)
    (x4 : Vec Ideal S8x16 .f32) (x5 : Vec Ideal S16 .f32) (x6 : Vec Ideal S1072x128 .f32) (x7 : Vec Ideal S128 .f32)
    (A0 : S2x35840x16x67.Idx → EReal) (A1 : S2x35840x3.Idx → EReal) (b : Fin 2) (i : Fin 280)
    (h0 : ∀ (n : Fin 128) (k : Fin 16) (ch : Fin 67),
      x0 (ix4 (0 : Fin 1) n k ch) = A0 (ix4 b (⟨i.val * 128 + n.val, by have := i.isLt; have := n.isLt; omega⟩ : Fin 35840) k ch))
    (h1 : ∀ (n : Fin 128) (ch : Fin 3),
      x1 (ix3 (0 : Fin 1) n ch) = A1 (ix3 b (⟨i.val * 128 + n.val, by have := i.isLt; have := n.isLt; omega⟩ : Fin 35840) ch))
    (u : Fin 1) (n : Fin 128) (o : Fin 128) :
    out0_8 (F := Ideal) x0 x1 x2 x3 x4 x5 x6 x7 (ix3 u n o)
      = outArr A0 A1 x2 x3 x4 x5 x6 x7 (ix3 b (⟨i.val * 128 + n.val, by have := i.isLt; have := n.isLt; omega⟩ : Fin 35840) o) := by
  rw [out_apply]
  unfold outArr
  simp only [h0, h1]

/-- `block_eq` at any index of the block. -/
theorem block_eq' (x0 : Vec Ideal S1x128x16x67 .f32) (x1 : Vec Ideal S1x128x3 .f32) (x2 : Vec Ideal S3x8 .f32) (x3 : Vec Ideal S8 .f32)
    (x4 : Vec Ideal S8x16 .f32) (x5 : Vec Ideal S16 .f32) (x6 : Vec Ideal S1072x128 .f32) (x7 : Vec Ideal S128 .f32)
    (A0 : S2x35840x16x67.Idx → EReal) (A1 : S2x35840x3.Idx → EReal) (b : Fin 2) (i : Fin 280)
    (h0 : ∀ (n : Fin 128) (k : Fin 16) (ch : Fin 67),
      x0 (ix4 (0 : Fin 1) n k ch) = A0 (ix4 b (⟨i.val * 128 + n.val, by have := i.isLt; have := n.isLt; omega⟩ : Fin 35840) k ch))
    (h1 : ∀ (n : Fin 128) (ch : Fin 3),
      x1 (ix3 (0 : Fin 1) n ch) = A1 (ix3 b (⟨i.val * 128 + n.val, by have := i.isLt; have := n.isLt; omega⟩ : Fin 35840) ch))
    (j : S1x128x128.Idx) :
    out0_8 (F := Ideal) x0 x1 x2 x3 x4 x5 x6 x7 j
      = outArr A0 A1 x2 x3 x4 x5 x6 x7
          (ix3 b (⟨i.val * 128 + (j 1).val, by have := i.isLt; have : (j 1).val < 128 := (j 1).isLt; omega⟩ : Fin 35840)
            (⟨(j 2).val, (j 2).isLt⟩ : Fin 128)) := by
  obtain ⟨u, n, o, rfl⟩ : ∃ (u : Fin 1) (n : Fin 128) (o : Fin 128), j = ix3 u n o := ⟨j 0, j 1, j 2, eq_ix3 j⟩
  exact block_eq x0 x1 x2 x3 x4 x5 x6 x7 A0 A1 b i h0 h1 u n o

/-! ## The index maps in closed form: grid point `t` is batch `t / 280`, row block `t % 280` -/

theorem coords_val0 (t : Fin grid0.N) : (grid0.coords t 0).val = t.val / 280 % 2 := rfl
theorem coords_val1 (t : Fin grid0.N) : (grid0.coords t 1).val = t.val / 1 % 280 := rfl

theorem index8_0 (t : Fin cfg0.N) : win0_8.index t (0 : Fin 3) = t.val / 280 % 2 := by
  show (BitVec.ofNat 32 (grid0.coords t 0).val).toNat = _
  rw [BitVec.toNat_ofNat, coords_val0]; exact Nat.mod_eq_of_lt (by omega)
theorem index8_1 (t : Fin cfg0.N) : win0_8.index t (1 : Fin 3) = t.val / 1 % 280 := by
  show (BitVec.ofNat 32 (grid0.coords t 1).val).toNat = _
  rw [BitVec.toNat_ofNat, coords_val1]; exact Nat.mod_eq_of_lt (by omega)
theorem index8_2 (t : Fin cfg0.N) : win0_8.index t (2 : Fin 3) = 0 := rfl
theorem index0_0 (t : Fin cfg0.N) : win0_0.index t (0 : Fin 4) = win0_8.index t (0 : Fin 3) := rfl
theorem index0_1 (t : Fin cfg0.N) : win0_0.index t (1 : Fin 4) = win0_8.index t (1 : Fin 3) := rfl
theorem index0_2 (t : Fin cfg0.N) : win0_0.index t (2 : Fin 4) = 0 := rfl
theorem index0_3 (t : Fin cfg0.N) : win0_0.index t (3 : Fin 4) = 0 := rfl
theorem index1_0 (t : Fin cfg0.N) : win0_1.index t (0 : Fin 3) = win0_8.index t (0 : Fin 3) := rfl
theorem index1_1 (t : Fin cfg0.N) : win0_1.index t (1 : Fin 3) = win0_8.index t (1 : Fin 3) := rfl
theorem index1_2 (t : Fin cfg0.N) : win0_1.index t (2 : Fin 3) = 0 := rfl
theorem index2 (t : Fin cfg0.N) : win0_2.index t (0 : Fin 2) = 0 ∧ win0_2.index t (1 : Fin 2) = 0 := ⟨rfl, rfl⟩
theorem index3 (t : Fin cfg0.N) : win0_3.index t (0 : Fin 1) = 0 := rfl
theorem index4 (t : Fin cfg0.N) : win0_4.index t (0 : Fin 2) = 0 ∧ win0_4.index t (1 : Fin 2) = 0 := ⟨rfl, rfl⟩
theorem index5 (t : Fin cfg0.N) : win0_5.index t (0 : Fin 1) = 0 := rfl
theorem index6 (t : Fin cfg0.N) : win0_6.index t (0 : Fin 2) = 0 ∧ win0_6.index t (1 : Fin 2) = 0 := ⟨rfl, rfl⟩
theorem index7 (t : Fin cfg0.N) : win0_7.index t (0 : Fin 1) = 0 := rfl
theorem N560 : cfg0.N = 560 := N_0

end Cert.KernelIdeal.Arr

end
-- ==== Proof.InBlocks.lean ====
/-
  The input windows' blocks read off their arrays, for ANY contents of the arrays: the weight windows are their whole
  arrays at every grid point; the two row-blocked windows at point `t` hold batch `t / 280`, rows `128 (t % 280) + ·`.
-/
import proofs.«141387_j90323162235005_1_alg».proof.Proof.OutArray

set_option maxRecDepth 16384

noncomputable section

open scoped BigOperators

namespace Cert.KernelIdeal.Arr

open Cert.KernelIdeal Cert.KernelIdeal.Gen Cert.KernelIdeal.Pay Cert.PointConv Idealize.ShloMosaic Idealize.ShloMosaic.TcCoe
open Idealize.ShloMosaic.ValueIdx Idealize.SL.Sem
open Idealize.ShloMosaic.Pipeline (Dat Cfg Window)

section Blocks

variable {c : Dev nD} (Vf : (b : Ref sig .tc) → Buf (Elt Ideal) ((c : Thread nD τ).loc b))

/-- Window `w`'s block at point `t`, read off the array's contents `Vf`. -/
def blkOf (w : Fin cfg0.W) (t : Fin cfg0.N) : ((cfg0.win w).xblock (cfg0.grid.coords t)).Idx → Elt Ideal (cfg0.win w).elt :=
  ((cfg0.win w).blk t).view.read (Elt Ideal) (Vf (Pipeline.arrRef spec0 w))

/-- Window 2's block is the whole of its array at every point. -/
theorem blk2_eq (t : Fin cfg0.N) : blkOf Vf 2 t = Vf main_v12 := funext fun y => by
  obtain ⟨e0, e1⟩ := index2 t
  show Vf main_v12 (((cfg0.win 2).blk t).view.emb y) = Vf main_v12 y
  refine congrArg _ (funext fun a => Fin.ext ?_)
  match a with
    | ⟨0, _⟩ => show win0_2.index t (0 : Fin 2) * 3 + 1 * (y 0).val = (y 0).val; omega
    | ⟨1, _⟩ => show win0_2.index t (1 : Fin 2) * 8 + 1 * (y 1).val = (y 1).val; omega

/-- Window 3's block is the whole of its array at every point. -/
theorem blk3_eq (t : Fin cfg0.N) : blkOf Vf 3 t = Vf main_arg6 := funext fun y => by
  have e0 := index3 t
  show Vf main_arg6 (((cfg0.win 3).blk t).view.emb y) = Vf main_arg6 y
  refine congrArg _ (funext fun a => Fin.ext ?_)
  match a with
    | ⟨0, _⟩ => show win0_3.index t (0 : Fin 1) * 8 + 1 * (y 0).val = (y 0).val; omega

/-- Window 4's block is the whole of its array at every point. -/
theorem blk4_eq (t : Fin cfg0.N) : blkOf Vf 4 t = Vf main_v13 := funext fun y => by
  obtain ⟨e0, e1⟩ := index4 t
  show Vf main_v13 (((cfg0.win 4).blk t).view.emb y) = Vf main_v13 y
  refine congrArg _ (funext fun a => Fin.ext ?_)
  match a with
    | ⟨0, _⟩ => show win0_4.index t (0 : Fin 2) * 8 + 1 * (y 0).val = (y 0).val; omega
    | ⟨1, _⟩ => show win0_4.index t (1 : Fin 2) * 16 + 1 * (y 1).val = (y 1).val; omega

/-- Window 5's block is the whole of its array at every point. -/
theorem blk5_eq (t : Fin cfg0.N) : blkOf Vf 5 t = Vf main_arg8 := funext fun y => by
  have e0 := index5 t
  show Vf main_arg8 (((cfg0.win 5).blk t).view.emb y) = Vf main_arg8 y
  refine congrArg _ (funext fun a => Fin.ext ?_)
  match a with
    | ⟨0, _⟩ => show win0_5.index t (0 : Fin 1) * 16 + 1 * (y 0).val = (y 0).val; omega

/-- Window 6's block is the whole of its array at every point. -/
theorem blk6_eq (t : Fin cfg0.N) : blkOf Vf 6 t = Vf main_v17 := funext fun y => by
  obtain ⟨e0, e1⟩ := index6 t
  show Vf main_v17 (((cfg0.win 6).blk t).view.emb y) = Vf main_v17 y
  refine congrArg _ (funext fun a => Fin.ext ?_)
  match a with
    | ⟨0, _⟩ => show win0_6.index t (0 : Fin 2) * 1072 + 1 * (y 0).val = (y 0).val; omega
    | ⟨1, _⟩ => show win0_6.index t (1 : Fin 2) * 128 + 1 * (y 1).val = (y 1).val; omega

/-- Window 7's block is the whole of its array at every point. -/
theorem blk7_eq (t : Fin cfg0.N) : blkOf Vf 7 t = Vf main_v20 := funext fun y => by
  have e0 := index7 t
  show Vf main_v20 (((cfg0.win 7).blk t).view.emb y) = Vf main_v20 y
  refine congrArg _ (funext fun a => Fin.ext ?_)
  match a with
    | ⟨0, _⟩ => show win0_7.index t (0 : Fin 1) * 128 + 1 * (y 0).val = (y 0).val; omega

/-- Window 0's block at point `t`: batch `t / 280`, rows `128 (t % 280) + ·` of the gathered rows. -/
theorem blk0_apply (t : Fin cfg0.N) (hb : win0_8.index t (0 : Fin 3) < 2) (hi : win0_8.index t (1 : Fin 3) < 280)
    (n : Fin 128) (k : Fin 16) (ch : Fin 67) :
    blkOf Vf 0 t (ix4 (0 : Fin 1) n k ch)
      = Vf main_v9 (ix4 (⟨win0_8.index t (0 : Fin 3), hb⟩ : Fin 2)
          (⟨win0_8.index t (1 : Fin 3) * 128 + n.val, by have := n.isLt; omega⟩ : Fin 35840) k ch) := by
  have e00 := index0_0 t; have e01 := index0_1 t; have e02 := index0_2 t; have e03 := index0_3 t
  show Vf main_v9 (((cfg0.win 0).blk t).view.emb (ix4 (0 : Fin 1) n k ch)) = Vf main_v9 _
  refine congrArg _ (funext fun a => Fin.ext ?_)
  match a with
  | ⟨0, _⟩ => show win0_0.index t (0 : Fin 4) * 1 + 1 * 0 = win0_8.index t (0 : Fin 3); omega
  | ⟨1, _⟩ => show win0_0.index t (1 : Fin 4) * 128 + 1 * n.val = win0_8.index t (1 : Fin 3) * 128 + n.val; omega
  | ⟨2, _⟩ => show win0_0.index t (2 : Fin 4) * 16 + 1 * k.val = k.val; omega
  | ⟨3, _⟩ => show win0_0.index t (3 : Fin 4) * 67 + 1 * ch.val = ch.val; omega

/-- Window 1's block at point `t`: the same rows of the query coordinates. -/
theorem blk1_apply (t : Fin cfg0.N) (hb : win0_8.index t (0 : Fin 3) < 2) (hi : win0_8.index t (1 : Fin 3) < 280)
    (n : Fin 128) (ch : Fin 3) :
    blkOf Vf 1 t (ix3 (0 : Fin 1) n ch)
      = Vf main_v11 (ix3 (⟨win0_8.index t (0 : Fin 3), hb⟩ : Fin 2)
          (⟨win0_8.index t (1 : Fin 3) * 128 + n.val, by have := n.isLt; omega⟩ : Fin 35840) ch) := by
  have e10 := index1_0 t; have e11 := index1_1 t; have e12 := index1_2 t
  show Vf main_v11 (((cfg0.win 1).blk t).view.emb (ix3 (0 : Fin 1) n ch)) = Vf main_v11 _
  refine congrArg _ (funext fun a => Fin.ext ?_)
  match a with
  | ⟨0, _⟩ => show win0_1.index t (0 : Fin 3) * 1 + 1 * 0 = win0_8.index t (0 : Fin 3); omega
  | ⟨1, _⟩ => show win0_1.index t (1 : Fin 3) * 128 + 1 * n.val = win0_8.index t (1 : Fin 3) * 128 + n.val; omega
  | ⟨2, _⟩ => show win0_1.index t (2 : Fin 3) * 3 + 1 * ch.val = ch.val; omega

end Blocks

end Cert.KernelIdeal.Arr

end
-- ==== Proof.Flushed.lean ====
/-
  What a grid point writes back is its block of the output array: the body's stored block, element by element the
  point convolution of the block's rows, is the restriction of `outArr` to batch `t / 280`, rows `128 (t % 280) + ·`.
-/
import proofs.«141387_j90323162235005_1_alg».proof.Proof.InBlocks

set_option maxRecDepth 16384

noncomputable section

open scoped BigOperators

namespace Cert.KernelIdeal.Arr

open Cert.KernelIdeal Cert.KernelIdeal.Gen Cert.KernelIdeal.Pay Cert.PointConv Idealize.ShloMosaic Idealize.ShloMosaic.TcCoe
open Idealize.ShloMosaic.ValueIdx Idealize.SL.Sem
open Idealize.ShloMosaic.Pipeline (Dat Cfg Window)

section Flushed

/-- For ANY contents `Vf` of the arrays: the body's block at point `t`, computed from the windows' blocks, is block `t`
    of `outArr` of the arrays. -/
theorem block_of {c : Dev nD} (Vf : (b : Ref sig .tc) → Buf (Elt Ideal) ((c : Thread nD τ).loc b)) (t : Fin cfg0.N) :
    (cfg0.win 8).cut (grid0.coords t)
        (out0_8 (F := Ideal) (blkOf Vf 0 t) (blkOf Vf 1 t) (blkOf Vf 2 t) (blkOf Vf 3 t) (blkOf Vf 4 t) (blkOf Vf 5 t) (blkOf Vf 6 t) (blkOf Vf 7 t))
      = ((cfg0.win 8).blk t).view.read (Elt Ideal)
          (outArr (Vf main_v9) (Vf main_v11) (Vf main_v12) (Vf main_arg6) (Vf main_v13) (Vf main_arg8) (Vf main_v17) (Vf main_v20)) := by
  rw [blk2_eq, blk3_eq, blk4_eq, blk5_eq, blk6_eq, blk7_eq]
  have hb : win0_8.index t (0 : Fin 3) < 2 := by rw [index8_0]; omega
  have hi : win0_8.index t (1 : Fin 3) < 280 := by rw [index8_1]; omega
  have e82 := index8_2 t
  funext j
  refine (block_eq' (blkOf Vf 0 t) (blkOf Vf 1 t) _ _ _ _ _ _ (Vf main_v9) (Vf main_v11)
    (⟨win0_8.index t (0 : Fin 3), hb⟩ : Fin 2) (⟨win0_8.index t (1 : Fin 3), hi⟩ : Fin 280)
    (blk0_apply Vf t hb hi) (blk1_apply Vf t hb hi) j).trans ?_
  show outArr (Vf main_v9) (Vf main_v11) (Vf main_v12) (Vf main_arg6) (Vf main_v13) (Vf main_arg8) (Vf main_v17) (Vf main_v20) _
    = outArr (Vf main_v9) (Vf main_v11) (Vf main_v12) (Vf main_arg6) (Vf main_v13) (Vf main_arg8) (Vf main_v17) (Vf main_v20)
        (((cfg0.win 8).blk t).view.emb j)
  refine congrArg _ (funext fun a => Fin.ext ?_)
  have hj0 : (j 0).val < 1 := (j 0).isLt
  match a with
  | ⟨0, _⟩ => show win0_8.index t (0 : Fin 3) = win0_8.index t (0 : Fin 3) * 1 + 1 * (j 0).val; omega
  | ⟨1, _⟩ => show win0_8.index t (1 : Fin 3) * 128 + (j 1).val = win0_8.index t (1 : Fin 3) * 128 + 1 * (j 1).val; omega
  | ⟨2, _⟩ => show (j 2).val = win0_8.index t (2 : Fin 3) * 128 + 1 * (j 2).val; omega

end Flushed

end Cert.KernelIdeal.Arr

end
-- ==== Proof.Cover.lean ====
/-
  The output's blocks tile the array: index `(b, p, o)` lies in the block of the grid point whose block indices are
  `(b, p / 128, 0)`, that is point `280 b + p / 128`.
-/
import proofs.«141387_j90323162235005_1_alg».proof.Proof.OutArray

set_option maxRecDepth 16384

noncomputable section

open scoped BigOperators

namespace Cert.KernelIdeal.Arr

open Cert.KernelIdeal Cert.KernelIdeal.Gen Cert.KernelIdeal.Pay Cert.PointConv Idealize.ShloMosaic Idealize.ShloMosaic.TcCoe
open Idealize.ShloMosaic.ValueIdx Idealize.SL.Sem
open Idealize.ShloMosaic.Pipeline (Dat Cfg Window)

section Cover

/-- An index of the array is in point `t`'s block iff each coordinate is in the block's range on its axis. -/
theorem mem_blk (t : Fin cfg0.N) (i : S2x35840x128.Idx) :
    i ∈ ((cfg0.win 8).blk t).view.set ↔ ∀ a : Fin 3, win0_8.index t a * S1x128x128.size a ≤ (i a).val
      ∧ (i a).val < win0_8.index t a * S1x128x128.size a + S1x128x128.size a := by
  show i ∈ ((View.whole main_v21).slice (win0_8.rect t)).set ↔ _
  rw [View.set_slice_whole, Rect.mem_set_unit]
  exact Iff.rfl

/-- The blocks tile the array: index `(b, p, o)` is in the block of the point whose block indices are `(b, p / 128, 0)`. -/
theorem cover (i : S2x35840x128.Idx) : ∃ t : Fin cfg0.N, (cfg0.win 8).flush t = true ∧ i ∈ ((cfg0.win 8).blk t).view.set := by
  have hi0 : (i 0).val < 2 := (i 0).isLt
  have hi1 : (i 1).val < 35840 := (i 1).isLt
  have hi2 : (i 2).val < 128 := (i 2).isLt
  have hN := N560
  let t : Fin cfg0.N := ⟨(i 0).val * 280 + (i 1).val / 128, by omega⟩
  have q0 : win0_8.index t (0 : Fin 3) = (i 0).val := by rw [index8_0]; show ((i 0).val * 280 + (i 1).val / 128) / 280 % 2 = (i 0).val; omega
  have q1 : win0_8.index t (1 : Fin 3) = (i 1).val / 128 := by rw [index8_1]; show ((i 0).val * 280 + (i 1).val / 128) / 1 % 280 = (i 1).val / 128; omega
  have q2 : win0_8.index t (2 : Fin 3) = 0 := index8_2 t
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

end Cover

end Cert.KernelIdeal.Arr

end
-- ==== Proof.Final.lean ====
/-
  The kernel's output array after the run: every grid point writes back its block of `outArr` of the arrays the region
  finds, and the blocks tile the array, so the array ends holding `outArr` of them — the point convolution of every
  query point at every (padded) output channel.
-/
import proofs.«141387_j90323162235005_1_alg».proof.Proof.Flushed
import proofs.«141387_j90323162235005_1_alg».proof.Proof.Cover

set_option maxRecDepth 16384

noncomputable section

open scoped BigOperators

namespace Cert.KernelIdeal.Arr

open Cert.KernelIdeal Cert.KernelIdeal.Gen Cert.KernelIdeal.Pay Cert.PointConv Idealize.ShloMosaic Idealize.ShloMosaic.TcCoe
open Idealize.ShloMosaic.ValueIdx Idealize.SL.Sem
open Idealize.ShloMosaic.Pipeline (Dat Cfg Window)

section Final

variable (m : (ℓ : Loc nD τ sig) → Buf (Elt Ideal) ℓ)

/-- WHAT POINT `t` WRITES BACK is block `t` of `outArr` of the arrays as the region finds them. -/
theorem flushed_eq (c : Dev nD) (t : Fin cfg0.N) :
    (dats m 0 c).flushed 8 t = ((cfg0.win 8).blk t).view.read (Elt Ideal)
      (outArr (V m c main_v9) (V m c main_v11) (V m c main_v12) (V m c main_arg6) (V m c main_v13) (V m c main_arg8) (V m c main_v17) (V m c main_v20)) := by
  show (cfg0.win 8).cut (grid0.coords t) ((dats m 0 c).after 8 t) = _
  rw [after0_8]
  exact block_of (V m c) t

/-- THE ARRAY after the run. -/
theorem final (c : Dev nD) :
    (dats m 0 c).arrAt 8 cfg0.N
      = outArr (V m c main_v9) (V m c main_v11) (V m c main_v12) (V m c main_arg6) (V m c main_v13) (V m c main_arg8) (V m c main_v17) (V m c main_v20) :=
  (dats m 0 c).arrAt_eq_of_cover 8 _ (fun t _ => flushed_eq m c t) cover

end Final

end Cert.KernelIdeal.Arr

end
-- ==== Proof.KernelRun.lean ====
/-
  The kernel's run with the host operations after the region read: the program's result is the output window's array
  after the run, sliced to its first 64 channels, transposed to channel-first and reshaped to the image; every argument
  array ends as launched.
-/
import proofs.«141387_j90323162235005_1_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ) (ρ : Dev nD → PrngReg)

/-- What the three host operations after the region leave in the result buffer: the slice, the transpose and the
    reshape of the output window's array after the run. -/
theorem tail_result (c : Dev nD) :
    Pipeline.afterTail₀ cfgs (Gen.dats m) 0 (Gen.V0 m) [Gen.hostOps1] c main_v24
      = shapeCast S2x64x160x224 (transpose S2x64x35840 [0, 2, 1] (extractStridedSlice S2x35840x64 ![0, 0, 0]
            ((Gen.dats m 0 c).arrAt 8 cfg0.N) slices_S2x35840x128_S2x35840x64_0_0_0) transposes_S2x35840x64_S2x64x35840_0_2_1) shapeCasts_S2x64x35840_S2x64x160x224 := by
  unfold Pipeline.afterTail₀
  show StableHlo.after Gen.hostOps1 _ (Proc.devRef .tc main_v24) = _
  after_results
  have hw : Pipeline.withArrays (cfgs 0).spec c (Gen.V0 m c) (fun w => (Gen.dats m 0 c).arrAt w (cfgs 0).N)
      (Proc.devRef .tc main_v21) = (Gen.dats m 0 c).arrAt 8 cfg0.N :=
    Pipeline.withArrays_arr spec0 Gen.launch0.win.arr_inj c _ _ 8
  rw [hw]
  rfl

/-- THE RUN: every weakly fair execution of the program terminates with the result buffer at the tail of the output
    window's array after the run and every argument array as launched. -/
theorem run :
    θ_run (Cert.KernelIdeal.defs (F := Ideal)) (onTc (τ := τ) (main (F := Ideal))) ⟨m, fun _ => 0, ρ⟩ fun r => ∀ c : Dev nD,
      r.2.mem ((c.tc : Thread nD τ).loc main_v24)
        = shapeCast S2x64x160x224 (transpose S2x64x35840 [0, 2, 1] (extractStridedSlice S2x35840x64 ![0, 0, 0]
            ((Gen.dats m 0 c).arrAt 8 cfg0.N) slices_S2x35840x128_S2x35840x64_0_0_0) transposes_S2x35840x64_S2x64x35840_0_2_1) shapeCasts_S2x64x35840_S2x64x160x224
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v24 (Pipeline.mem_restRefs_of main_v24 (by decide) (by decide))).trans (tail_result m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).1 3).trans (((Gen.dats m 0 c).arrAt_in 3 rfl _).trans ((Gen.A_eq m c 3).trans (Gen.V_main_arg6 m c))),
      ((h c).2 main_arg7 (Pipeline.mem_restRefs_of main_arg7 (by decide) (by decide))).trans (Gen.W_main_arg7 m (Gen.dats m) c),
      ((h c).1 5).trans (((Gen.dats m 0 c).arrAt_in 5 rfl _).trans ((Gen.A_eq m c 5).trans (Gen.V_main_arg8 m c))),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c)⟩) (Gen.run_main m ρ)

end Cert.KernelIdeal.Hand

end
-- ==== Proof.KernelRows.lean ====
/-
  The kernel's host side before the launch, read back: the gathered neighbour rows are the reference's.

  Before the region the kernel's host program joins the two feature arrays along the channel axis, flattens the image
  and moves the channels last; wraps the neighbour indices (a negative index counted from the end), tests them against
  the bounds, gathers the rows at the wrapped indices, puts NaN where the test fails, restores the neighbour axis and
  multiplies by the mask turned into a float. These are, operation for operation, the first operations of the
  reference. The operations are taken in consecutive runs; after each run the contents it has written are named by the
  reference's stage functions, so that no later step sees more than one operation over named operands.
-/
import proofs.«141387_j90323162235005_1_alg».proof.Proof.Gen.KernelIdeal.Frame
import proofs.«141387_j90323162235005_1_alg».proof.Proof.ReadP

noncomputable section

namespace Cert.KernelIdeal.Rows

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The inlined gather call cut into five consecutive runs: the wrapped index; the bounds test; its reduction over the
    unit axis; the gather; the masked result. -/
abbrev T1 : List (HloOp τ sig (Elt F)) := (hostOps0_1 (F := F)).take 7
abbrev T2 : List (HloOp τ sig (Elt F)) := ((hostOps0_1 (F := F)).drop 7).take 8
abbrev T3 : List (HloOp τ sig (Elt F)) := ((hostOps0_1 (F := F)).drop 15).take 2
abbrev T4 : List (HloOp τ sig (Elt F)) := ((hostOps0_1 (F := F)).drop 17).take 1
abbrev T5 : List (HloOp τ sig (Elt F)) := (hostOps0_1 (F := F)).drop 18

local notation "D" => Proc.devRef (sig := sig) (Proc.tc : Proc τ)

variable (V : Valuation τ sig (Elt F))
  (x0 : (⟨S2x3x160x224, .f32⟩ : BufTy).Contents (Elt F)) (x1 : (⟨S2x64x160x224, .f32⟩ : BufTy).Contents (Elt F))
  (x3 : (⟨S2x35840x16, .i32⟩ : BufTy).Contents (Elt F)) (x4 : (⟨S2x35840x16, .i1⟩ : BufTy).Contents (Elt F))

abbrev A1 : List (HloOp τ sig (Elt F)) := (hostOps0 (F := F)).take 3
abbrev A2 : List (HloOp τ sig (Elt F)) := (hostOps0 (F := F)).drop 3

set_option maxRecDepth 8192 in
theorem ops_split' : List.flatten [hostOps0 (F := F), hostOps0_1, hostOps0_2]
    = A1 ++ (A2 ++ (T1 ++ (T2 ++ (T3 ++ (T4 ++ (T5 ++ hostOps0_2)))))) := rfl

set_option maxRecDepth 8192 in
/-- After the first three layout operations: the mask as a float and the flattened indices; the features untouched. -/
theorem s0a (a3 : V (D main_arg3) = x3) (a4 : V (D main_arg4) = x4) :
    after A1 V (D main_v1) = val_main_v1 x4 ∧ after A1 V (D main_v2) = val_main_v2 x3
    ∧ after A1 V (D main_arg0) = V (D main_arg0) ∧ after A1 V (D main_arg1) = V (D main_arg1) := by
  simp only [A1, hostOps0, List.take_succ_cons, List.take_zero]
  after_results_simp
  simp only [a3, a4]
  exact ⟨rfl, rfl, trivial, trivial⟩

set_option maxRecDepth 8192 in
/-- After the next three: the joined features, flattened, channels last. -/
theorem s0b (h1 : V (D main_v1) = val_main_v1 x4) (h2 : V (D main_v2) = val_main_v2 x3) :
    after A2 V (D main_v1) = val_main_v1 x4 ∧ after A2 V (D main_v2) = val_main_v2 x3
    ∧ after A2 V (D main_v5) = val_main_v5 (V (D main_arg0)) (V (D main_arg1)) := by
  simp only [A2, hostOps0, List.drop_succ_cons, List.drop_zero]
  after_results_simp
  simp only [h1, h2]
  refine ⟨trivial, trivial, ?_⟩
  rfl

set_option maxRecDepth 8192 in
/-- After the first run of the call: the wrapped index. -/
theorem s1 (h1 : V (D main_v1) = val_main_v1 x4) (h2 : V (D main_v2) = val_main_v2 x3) (h5 : V (D main_v5) = val_main_v5 x0 x1) :
    after T1 V (D main_v1) = val_main_v1 x4 ∧ after T1 V (D main_v5) = val_main_v5 x0 x1
    ∧ after T1 V (D main_call0_v4) = val_main_call0_v4 x3 := by
  simp only [T1, hostOps0_1, List.take_succ_cons, List.take_zero]
  after_results_simp
  simp only [cast_cast, cast_eq]
  simp only [h1, h2, h5]
  refine ⟨trivial, trivial, ?_⟩
  unfold val_main_call0_v4 val_main_call0_v3 val_main_call0_v2 val_main_call0_c_0 val_main_call0_v1 val_main_call0_v0 val_main_call0_c
  generalize val_main_v2 x3 = A2
  rfl

set_option maxRecDepth 8192 in
/-- After the second run: the bounds test of the wrapped index. -/
theorem s2 (h1 : V (D main_v1) = val_main_v1 x4) (h5 : V (D main_v5) = val_main_v5 x0 x1)
    (h4 : V (D main_call0_v4) = val_main_call0_v4 x3) :
    after T2 V (D main_v1) = val_main_v1 x4 ∧ after T2 V (D main_v5) = val_main_v5 x0 x1
    ∧ after T2 V (D main_call0_v4) = val_main_call0_v4 x3 ∧ after T2 V (D main_call0_v10) = val_main_call0_v10 x3 := by
  simp only [T2, hostOps0_1, List.take_succ_cons, List.take_zero, List.drop_succ_cons, List.drop_zero]
  after_results_simp
  simp only [cast_cast, cast_eq]
  simp only [h1, h4, h5]
  refine ⟨trivial, trivial, trivial, ?_⟩
  unfold val_main_call0_v10 val_main_call0_v9 val_main_call0_v8 val_main_call0_v7 val_main_call0_c_1 val_main_call0_v6
    val_main_call0_v5 val_main_call0_c_2
  generalize val_main_call0_v4 x3 = A4
  rfl

set_option maxRecDepth 8192 in
/-- After the third run: the test reduced over its unit axis. -/
theorem s3 (h1 : V (D main_v1) = val_main_v1 x4) (h5 : V (D main_v5) = val_main_v5 x0 x1)
    (h4 : V (D main_call0_v4) = val_main_call0_v4 x3) (h10 : V (D main_call0_v10) = val_main_call0_v10 x3) :
    after T3 V (D main_v1) = val_main_v1 x4 ∧ after T3 V (D main_v5) = val_main_v5 x0 x1
    ∧ after T3 V (D main_call0_v4) = val_main_call0_v4 x3 ∧ after T3 V (D main_call0_v11) = val_main_call0_v11 x3 := by
  simp only [T3, hostOps0_1, List.take_succ_cons, List.take_zero, List.drop_succ_cons, List.drop_zero]
  after_results_simp
  try simp only [cast_cast, cast_eq]
  simp only [h1, h4, h5, h10]
  refine ⟨trivial, trivial, trivial, ?_⟩
  unfold val_main_call0_v11 val_main_call0_c_3
  generalize val_main_call0_v10 x3 = A10
  rfl

set_option maxRecDepth 8192 in
/-- After the gather: the rows of the joined features at the wrapped indices. -/
theorem s4 (h1 : V (D main_v1) = val_main_v1 x4) (h5 : V (D main_v5) = val_main_v5 x0 x1)
    (h4 : V (D main_call0_v4) = val_main_call0_v4 x3) (h11 : V (D main_call0_v11) = val_main_call0_v11 x3) :
    after T4 V (D main_v1) = val_main_v1 x4 ∧ after T4 V (D main_call0_v11) = val_main_call0_v11 x3
    ∧ after T4 V (D main_call0_v12) = val_main_call0_v12 x0 x1 x3 := by
  simp only [T4, hostOps0_1, List.take_succ_cons, List.take_zero, List.drop_succ_cons, List.drop_zero]
  after_results_simp
  try simp only [cast_cast, cast_eq]
  simp only [h1, h4, h5, h11]
  refine ⟨trivial, trivial, ?_⟩
  unfold val_main_call0_v12
  generalize val_main_v5 x0 x1 = A5
  generalize val_main_call0_v4 x3 = A4
  rfl

set_option maxRecDepth 8192 in
/-- After the last run of the call: the gathered rows, NaN where the test fails. -/
theorem s5 (h1 : V (D main_v1) = val_main_v1 x4) (h11 : V (D main_call0_v11) = val_main_call0_v11 x3)
    (h12 : V (D main_call0_v12) = val_main_call0_v12 x0 x1 x3) :
    after T5 V (D main_v1) = val_main_v1 x4 ∧ after T5 V (D main_v6) = val_main_v6 x0 x1 x3 := by
  simp only [T5, hostOps0_1, List.drop_succ_cons, List.drop_zero]
  after_results_simp
  try simp only [cast_cast, cast_eq]
  simp only [h1, h11, h12]
  refine ⟨trivial, ?_⟩
  unfold val_main_v6 val_main_call0_v14 val_main_call0_cst val_main_call0_v13
  generalize val_main_call0_v11 x3 = A11
  generalize val_main_call0_v12 x0 x1 x3 = A12
  rfl

set_option maxRecDepth 8192 in
/-- After the host operations that follow the call: the rows with the neighbour axis restored, times the mask. -/
theorem s6 (h1 : V (D main_v1) = val_main_v1 x4) (h6 : V (D main_v6) = val_main_v6 x0 x1 x3) :
    after hostOps0_2 V (D main_v9) = val_main_v9 x0 x1 x3 x4 := by
  simp only [hostOps0_2]
  after_results_simp
  simp only [h1, h6]
  unfold val_main_v9 val_main_v8 val_main_v7
  generalize val_main_v6 x0 x1 x3 = A6
  generalize val_main_v1 x4 = A1
  rfl

/-- THE GATHERED ROWS: core `c`'s contents of the masked gathered rows when the region is entered are the reference's
    stage of the same name, as a function of the four argument arrays it reads. -/
theorem V_main_v9_gen (m : (ℓ : Loc nD τ sig) → Buf (Elt F) ℓ) (c : Dev nD) :
    Gen.V m c main_v9 = val_main_v9 (F := F) (m ((c : Thread nD τ).loc main_arg0)) (m ((c : Thread nD τ).loc main_arg1))
      (m ((c : Thread nD τ).loc main_arg3)) (m ((c : Thread nD τ).loc main_arg4)) := by
  show after (List.flatten [hostOps0, hostOps0_1, hostOps0_2]) (fun b => m (c, b)) (D main_v9) = _
  rw [ops_split']
  simp only [after_append]
  obtain ⟨p1, p2, p0a, p1a⟩ := s0a (fun b => m (c, b)) (m ((c : Thread nD τ).loc main_arg3)) (m ((c : Thread nD τ).loc main_arg4)) rfl rfl
  obtain ⟨q1, q2, q5⟩ := s0b (after A1 (fun b => m (c, b))) _ _ p1 p2
  rw [p0a, p1a] at q5
  obtain ⟨r1, r5, r4⟩ := s1 _ _ _ _ _ q1 q2 q5
  obtain ⟨t1, t5, t4, t10⟩ := s2 _ _ _ _ _ r1 r5 r4
  obtain ⟨u1, u5, u4, u11⟩ := s3 _ _ _ _ _ t1 t5 t4 t10
  obtain ⟨v1, v11, v12⟩ := s4 _ _ _ _ _ u1 u5 u4 u11
  obtain ⟨w1, w6⟩ := s5 _ _ _ _ _ v1 v11 v12
  exact s6 _ _ _ _ _ w1 w6

/-- The same at the extended reals. -/
theorem V_main_v9 (m : (ℓ : Loc nD τ sig) → Buf (Elt Ideal) ℓ) (c : Dev nD) :
    (Gen.V m c main_v9 : S2x35840x16x67.Idx → EReal)
      = val_main_v9 (F := Ideal) (m ((c : Thread nD τ).loc main_arg0)) (m ((c : Thread nD τ).loc main_arg1))
          (m ((c : Thread nD τ).loc main_arg3)) (m ((c : Thread nD τ).loc main_arg4)) :=
  V_main_v9_gen m c

end Cert.KernelIdeal.Rows

end
-- ==== Proof.HostPre.lean ====
/-
  The arrays the kernel's windows find at the region's entry, as the host operations before it leave them:
  the query coordinates re-laid channel-last, the two small weight matrices transposed, and the last weight matrix and
  its bias padded to 128 output channels (the matrix then transposed).
-/
import proofs.«141387_j90323162235005_1_alg».proof.Proof.Gen.KernelIdeal.Frame
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.StableHlo
open Idealize.ShloMosaic.ValueIdx Idealize.SL.Sem

variable (m : (ℓ : Loc nD τ sig) → Buf (Elt Ideal) ℓ)

/-- The query coordinates, channel-last. -/
theorem V_main_v11 (c : Dev nD) :
    (V m c main_v11 : S2x35840x3.Idx → EReal)
      = transpose S2x35840x3 [0, 2, 1] (shapeCast S2x3x35840 (m ((c : Thread nD τ).loc main_arg2)) shapeCasts_S2x3x160x224_S2x3x35840)
          transposes_S2x3x35840_S2x35840x3_0_2_1 := by
  dsimp only [V, V0]
  simp only [hostOps0, hostOps0_1, hostOps0_2, List.flatten_cons, List.flatten_nil, List.append_nil, List.cons_append, List.nil_append]
  after_results_simp
  rfl

/-- The first weight matrix, transposed. -/
theorem V_main_v12 (c : Dev nD) :
    (V m c main_v12 : S3x8.Idx → EReal) = transpose S3x8 [1, 0] (m ((c : Thread nD τ).loc main_arg5)) transposes_S8x3_S3x8_1_0 := by
  dsimp only [V, V0]
  simp only [hostOps0, hostOps0_1, hostOps0_2, List.flatten_cons, List.flatten_nil, List.append_nil, List.cons_append, List.nil_append]
  after_results_simp

/-- The second weight matrix, transposed. -/
theorem V_main_v13 (c : Dev nD) :
    (V m c main_v13 : S8x16.Idx → EReal) = transpose S8x16 [1, 0] (m ((c : Thread nD τ).loc main_arg7)) transposes_S16x8_S8x16_1_0 := by
  dsimp only [V, V0]
  simp only [hostOps0, hostOps0_1, hostOps0_2, List.flatten_cons, List.flatten_nil, List.append_nil, List.cons_append, List.nil_append]
  after_results_simp

/-- The last weight matrix: padded with zero rows to 128 output channels, then transposed. -/
theorem V_main_v17 (c : Dev nD) :
    (V m c main_v17 : S1072x128.Idx → EReal)
      = transpose S1072x128 [1, 0]
          (Host.scatter scatter_S128x1072_S1_S64x1072_01_n_0_0 (fun _ b => b)
            (broadcastInDim S128x1072 ![] bcast_S_S128x1072 (constant (F := Ideal) S_ .f32 0x00000000#32))
            (broadcastInDim S1 ![] bcast_S_S1 (constantI S_ 32 0#32)) (m ((c : Thread nD τ).loc main_arg9)))
          transposes_S128x1072_S1072x128_1_0 := by
  dsimp only [V, V0]
  simp only [hostOps0, hostOps0_1, hostOps0_2, List.flatten_cons, List.flatten_nil, List.append_nil, List.cons_append, List.nil_append]
  after_results_simp

/-- The last bias: padded with zeros to 128 output channels. -/
theorem V_main_v20 (c : Dev nD) :
    (V m c main_v20 : S128.Idx → EReal)
      = Host.scatter scatter_S128_S1_S64_0_n_0_0 (fun _ b => b)
          (broadcastInDim S128 ![] bcast_S_S128 (constant (F := Ideal) S_ .f32 0x00000000#32))
          (broadcastInDim S1 ![] bcast_S_S1 (constantI S_ 32 0#32)) (m ((c : Thread nD τ).loc main_arg10)) := by
  dsimp only [V, V0]
  simp only [hostOps0, hostOps0_1, hostOps0_2, List.flatten_cons, List.flatten_nil, List.append_nil, List.cons_append, List.nil_append]
  after_results_simp

end Cert.KernelIdeal.Host

end
-- ==== Proof.LibScatterRows.lean ====
/-
  `x.at[:M].set(u)` read at an index.

  StableHLO's scatter whose body returns the update is a left fold, over the update's indices in row-major order,
  of "overwrite the result at the update index's landing place". This file reads that fold at an index:
  first for any list of writes with pairwise distinct landing places (a written place holds its write, an unwritten
  place keeps the start value), then for any scatter all of whose landing places are inside the operand and pairwise
  distinct, and last for the two scatters that `zeros.at[:M, :].set(u)` and `zeros.at[:M].set(u)` print as: one scatter
  index `0`, every update axis a window axis, so that update row `r` lands on operand row `r`.
-/
import Idealize.ShloMosaic.Lib.ValueIdx

namespace Idealize.ShloMosaic.ScatterRows

open Idealize.ShloMosaic Idealize.ShloMosaic.ValueIdx

/-! ## A fold of overwrites, read at a place -/

section Fold
variable {ι κ α : Type} [DecidableEq κ]

/-- A place `k` that none of the writes in `l` lands on keeps the start value: folding "overwrite place `key n` by
    `val n`" over `l` from `r0` leaves `r0 k` at `k`. -/
theorem foldl_set_apply_of_forall_ne (key : ι → κ) (val : ι → α) (l : List ι) (r0 : κ → α) (k : κ)
    (h : ∀ n ∈ l, key n ≠ k) :
    l.foldl (fun r n => fun k' => if k' = key n then val n else r k') r0 k = r0 k := by
  induction l generalizing r0 with
  | nil => rfl
  | cons a t ih =>
    rw [List.foldl_cons, ih _ (fun n hn => h n (List.mem_cons_of_mem a hn))]
    exact if_neg (fun e => h a (List.mem_cons.2 (Or.inl rfl)) e.symm)

/-- A place that exactly one write of `l` lands on holds that write: if `i0` is in `l` and every element of `l` with
    `i0`'s landing place is `i0` itself, then folding "overwrite place `key n` by `val n`" over `l` leaves `val i0` at
    `key i0`, whatever the start value. -/
theorem foldl_set_apply_of_mem (key : ι → κ) (val : ι → α) (l : List ι) (r0 : κ → α) (i0 : ι)
    (hmem : i0 ∈ l) (huniq : ∀ n ∈ l, key n = key i0 → n = i0) :
    l.foldl (fun r n => fun k' => if k' = key n then val n else r k') r0 (key i0) = val i0 := by
  induction l generalizing r0 with
  | nil => exact absurd hmem List.not_mem_nil
  | cons a t ih =>
    rw [List.foldl_cons]
    by_cases ht : i0 ∈ t
    · exact ih _ ht (fun n hn => huniq n (List.mem_cons_of_mem a hn))
    · have ha : i0 = a := by
        rcases List.mem_cons.1 hmem with e | e
        · exact e
        · exact absurd e ht
      rw [foldl_set_apply_of_forall_ne key val t _ (key i0)
        (fun n hn e => ht ((huniq n (List.mem_cons_of_mem a hn) e) ▸ hn)), ha]
      exact if_pos rfl

end Fold

/-! ## A scatter of overwrites, read at an index -/

section Scatter
variable {s si u : Shape} {α : Type} {w : Nat}

/-- When every update index `j` lands inside the operand, at `g j`, the scatter whose body returns the update is the
    fold of "overwrite index `g j` by the update's element at `j`" over the update indices in row-major order. -/
theorem scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl
          (fun r n => fun k' => if k' = g (u.rowMajor.symm n) then upd (u.rowMajor.symm n) else r k') x := by
  unfold Host.scatter
  congr 1
  funext r n
  rw [hg]

/-- A scatter of overwrites whose landing places are all inside the operand and pairwise distinct, read at the landing
    place of update index `j`: the update's element at `j`. -/
theorem scatter_set_apply (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_foldl d x idx upd g hg]
  have h := foldl_set_apply_of_mem (fun n => g (u.rowMajor.symm n)) (fun n => upd (u.rowMajor.symm n))
    (List.finRange u.numel) x (u.rowMajor j) (List.mem_finRange _)
    (fun n _ e => u.rowMajor.symm.injective (hinj e))
  rw [Equiv.symm_apply_apply] at h
  exact h

/-- A scatter of overwrites whose landing places are all inside the operand, read at an index no update lands on: the
    operand's element there. -/
theorem scatter_set_apply_of_forall_ne (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  rw [scatter_set_eq_foldl d x idx upd g hg]
  exact foldl_set_apply_of_forall_ne (fun n => g (u.rowMajor.symm n)) (fun n => upd (u.rowMajor.symm n))
    (List.finRange u.numel) x i (fun n _ => hi _)

/-- An update index lands at the operand index `i` when, on every operand axis, the window's start plus the window
    coordinate is `i`'s coordinate (which is inside the operand, being a coordinate). -/
theorem resultIdx?_eq_some (d : ScatterDims s si u) (j : u.Idx) (idx : IVec si w) (i : s.Idx)
    (h : ∀ a, d.start j idx a + d.window j a = ((i a).val : Int)) : d.resultIdx? j idx = some i := by
  unfold ScatterDims.resultIdx?
  rw [dif_pos (fun a => by rw [h a]; exact ⟨Int.natCast_nonneg _, by exact_mod_cast (i a).isLt⟩)]
  congr 1
  funext a
  apply Fin.ext
  show (d.start j idx a + d.window j a).toNat = (i a).val
  rw [h a]
  exact Int.toNat_natCast _

end Scatter

/-! ## Writing the leading rows: one scatter index, every update axis a window axis -/

section Rows
variable {α : Type} {w : Nat}

/-- The dimension numbers `zeros.at[:M, :].set(u)` prints with, for an operand `[N, C]`, one scatter index `[1]` and an update
    `[M, C]`: both update axes are window axes, the index's one component is a start on operand axis 0. Their
    conditions `wf` are decided on a program's literal shapes. -/
abbrev rowsDims (N M C : Nat) (wf : ScatterDims.WF ⟨2, ![N, C]⟩ ⟨1, ![1]⟩ ⟨2, ![M, C]⟩ [0, 1] [] [0] 0) :
    ScatterDims ⟨2, ![N, C]⟩ ⟨1, ![1]⟩ ⟨2, ![M, C]⟩ where
  updateWindowDims := [0, 1]
  insertedWindowDims := []
  scatterDimsToOperandDims := [0]
  indexVectorDim := 0
  wf := wf

/-- The same for a flat operand `[N]` and update `[M]` (`zeros.at[:M].set(u)`). -/
abbrev vecDims (N M : Nat) (wf : ScatterDims.WF ⟨1, ![N]⟩ ⟨1, ![1]⟩ ⟨1, ![M]⟩ [0] [] [0] 0) :
    ScatterDims ⟨1, ![N]⟩ ⟨1, ![1]⟩ ⟨1, ![M]⟩ where
  updateWindowDims := [0]
  insertedWindowDims := []
  scatterDimsToOperandDims := [0]
  indexVectorDim := 0
  wf := wf

/-- A rank-1 index's coordinate is below the extent, written as `n` itself. -/
theorem idx1_lt0 {n : Nat} (j : (⟨1, ![n]⟩ : Shape).Idx) : (j 0).val < n := (j 0).isLt

/-- Update index `(r, c)` of the two-axis scatter lands on operand index `(r, c)` when the scatter index is `0`: the
    start is `0` on axis 0 (the index, read signed) and on axis 1 (no start), and the window coordinates are `r` and `c`. -/
theorem rowsDims_resultIdx? {N M C : Nat} (hMN : M ≤ N)
    (wf : ScatterDims.WF ⟨2, ![N, C]⟩ ⟨1, ![1]⟩ ⟨2, ![M, C]⟩ [0, 1] [] [0] 0)
    (idx : IVec ⟨1, ![1]⟩ w) (h0 : idx (ix1 (0 : Fin 1)) = 0#w) (j : (⟨2, ![M, C]⟩ : Shape).Idx) :
    (rowsDims N M C wf).resultIdx? j idx
      = some (ix2 (⟨(j 0).val, Nat.lt_of_lt_of_le (idx2_lt0 j) hMN⟩ : Fin N) (⟨(j 1).val, idx2_lt1 j⟩ : Fin C)) := by
  have hsi : (rowsDims N M C wf).siIdx j ⟨List.idxOf (0 : Fin 2) (rowsDims N M C wf).scatterDimsToOperandDims,
      List.idxOf_lt_length_iff.2 (List.mem_singleton.mpr rfl)⟩ = ix1 (0 : Fin 1) := by
    funext b; refine Fin.ext ?_
    match b with
    | ⟨0, _⟩ => rfl
  have e0 : (rowsDims N M C wf).start j idx 0 + (rowsDims N M C wf).window j 0 = ((j 0).val : Int) := by
    unfold ScatterDims.start ScatterDims.window
    rw [dif_pos (show (0 : Fin 2) ∈ (rowsDims N M C wf).scatterDimsToOperandDims from List.mem_singleton.mpr rfl),
      dif_pos (show (0 : Fin 2) ∈ (rowsDims N M C wf).sKept from
        (by decide : (0 : Fin 2) ∈ (List.finRange 2).filter (fun a => a ∉ ([] : List (Fin 2))))),
      hsi, h0, BitVec.toInt_zero, Int.zero_add]
    rfl
  have e1 : (rowsDims N M C wf).start j idx 1 + (rowsDims N M C wf).window j 1 = ((j 1).val : Int) := by
    unfold ScatterDims.start ScatterDims.window
    rw [dif_neg (show (1 : Fin 2) ∉ (rowsDims N M C wf).scatterDimsToOperandDims from
        (by decide : (1 : Fin 2) ∉ ([0] : List (Fin 2)))),
      dif_pos (show (1 : Fin 2) ∈ (rowsDims N M C wf).sKept from
        (by decide : (1 : Fin 2) ∈ (List.finRange 2).filter (fun a => a ∉ ([] : List (Fin 2))))),
      Int.zero_add]
    rfl
  refine resultIdx?_eq_some _ j idx _ (fun a => ?_)
  match a with
  | ⟨0, _⟩ => exact e0
  | ⟨1, _⟩ => exact e1

/-- Update index `r` of the flat scatter lands on operand index `r` when the scatter index is `0`. -/
theorem vecDims_resultIdx? {N M : Nat} (hMN : M ≤ N)
    (wf : ScatterDims.WF ⟨1, ![N]⟩ ⟨1, ![1]⟩ ⟨1, ![M]⟩ [0] [] [0] 0)
    (idx : IVec ⟨1, ![1]⟩ w) (h0 : idx (ix1 (0 : Fin 1)) = 0#w) (j : (⟨1, ![M]⟩ : Shape).Idx) :
    (vecDims N M wf).resultIdx? j idx = some (ix1 (⟨(j 0).val, Nat.lt_of_lt_of_le (idx1_lt0 j) hMN⟩ : Fin N)) := by
  have hsi : (vecDims N M wf).siIdx j ⟨List.idxOf (0 : Fin 1) (vecDims N M wf).scatterDimsToOperandDims,
      List.idxOf_lt_length_iff.2 (List.mem_singleton.mpr rfl)⟩ = ix1 (0 : Fin 1) := by
    funext b; refine Fin.ext ?_
    match b with
    | ⟨0, _⟩ => rfl
  have e0 : (vecDims N M wf).start j idx 0 + (vecDims N M wf).window j 0 = ((j 0).val : Int) := by
    unfold ScatterDims.start ScatterDims.window
    rw [dif_pos (show (0 : Fin 1) ∈ (vecDims N M wf).scatterDimsToOperandDims from List.mem_singleton.mpr rfl),
      dif_pos (show (0 : Fin 1) ∈ (vecDims N M wf).sKept from
        (by decide : (0 : Fin 1) ∈ (List.finRange 1).filter (fun a => a ∉ ([] : List (Fin 1))))),
      hsi, h0, BitVec.toInt_zero, Int.zero_add]
    rfl
  refine resultIdx?_eq_some _ j idx _ (fun a => ?_)
  match a with
  | ⟨0, _⟩ => exact e0

/-- The landing place of update index `(r, c)`: operand index `(r, c)`. -/
abbrev rowsLand {N M C : Nat} (hMN : M ≤ N) (j : (⟨2, ![M, C]⟩ : Shape).Idx) : (⟨2, ![N, C]⟩ : Shape).Idx :=
  ix2 (⟨(j 0).val, Nat.lt_of_lt_of_le (idx2_lt0 j) hMN⟩ : Fin N) (⟨(j 1).val, idx2_lt1 j⟩ : Fin C)

/-- Distinct update indices land on distinct operand indices. -/
theorem rowsLand_injective {N M C : Nat} (hMN : M ≤ N) : Function.Injective (rowsLand (C := C) hMN) := by
  intro j j' e
  funext a
  match a with
  | ⟨0, _⟩ =>
    have h : (rowsLand hMN j 0).val = (rowsLand hMN j' 0).val := congrArg (fun k => (k 0).val) e
    exact Fin.ext h
  | ⟨1, _⟩ =>
    have h : (rowsLand hMN j 1).val = (rowsLand hMN j' 1).val := congrArg (fun k => (k 1).val) e
    exact Fin.ext h

/-- The landing place of update index `r` of the flat scatter: operand index `r`. -/
abbrev vecLand {N M : Nat} (hMN : M ≤ N) (j : (⟨1, ![M]⟩ : Shape).Idx) : (⟨1, ![N]⟩ : Shape).Idx :=
  ix1 (⟨(j 0).val, Nat.lt_of_lt_of_le (idx1_lt0 j) hMN⟩ : Fin N)

/-- Distinct update indices land on distinct operand indices. -/
theorem vecLand_injective {N M : Nat} (hMN : M ≤ N) : Function.Injective (vecLand hMN) := by
  intro j j' e
  funext a
  match a with
  | ⟨0, _⟩ =>
    have h : (vecLand hMN j 0).val = (vecLand hMN j' 0).val := congrArg (fun k => (k 0).val) e
    exact Fin.ext h

/-- `x.at[:M, :].set(u)` READ AT `(o, q)` WITH `o < M`: the update's element `u[o, q]`, whatever the operand. -/
theorem scatter_rows_apply {N M C : Nat} (hMN : M ≤ N)
    (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (h0 : idx (ix1 (0 : Fin 1)) = 0#w)
    (upd : (⟨2, ![M, C]⟩ : Shape).Idx → α) (o : Fin M) (q : Fin C) :
    Host.scatter (rowsDims N M C wf) (fun _ b => b) x idx upd
        (ix2 (⟨o.val, Nat.lt_of_lt_of_le o.isLt hMN⟩ : Fin N) q) = upd (ix2 o q) :=
  scatter_set_apply (rowsDims N M C wf) x idx upd (rowsLand hMN) (rowsDims_resultIdx? hMN wf idx h0)
    (rowsLand_injective hMN) (ix2 o q)

/-- `x.at[:M, :].set(u)` read at a row `p ≥ M`: the operand's element, no update landing there. -/
theorem scatter_rows_apply_of_le {N M C : Nat} (hMN : M ≤ N)
    (wf : ScatterDims.WF ⟨2, ![N, C]⟩ ⟨1, ![1]⟩ ⟨2, ![M, C]⟩ [0, 1] [] [0] 0)
    (x : (⟨2, ![N, C]⟩ : Shape).Idx → α) (idx : IVec ⟨1, ![1]⟩ w) (h0 : idx (ix1 (0 : Fin 1)) = 0#w)
    (upd : (⟨2, ![M, C]⟩ : Shape).Idx → α) (p : Fin N) (hp : M ≤ p.val) (q : Fin C) :
    Host.scatter (rowsDims N M C wf) (fun _ b => b) x idx upd (ix2 p q) = x (ix2 p q) :=
  scatter_set_apply_of_forall_ne (rowsDims N M C wf) x idx upd (rowsLand hMN) (rowsDims_resultIdx? hMN wf idx h0)
    (ix2 p q) (fun j e => by
      have h : (rowsLand hMN j 0).val = (ix2 p q 0).val := congrArg (fun k => (k 0).val) e
      have h' : (j 0).val = p.val := h
      have := idx2_lt0 j
      omega)

/-- `x.at[:M].set(u)` READ AT `o < M`: the update's element `u[o]`, whatever the operand. -/
theorem scatter_vec_apply {N M : Nat} (hMN : M ≤ N)
    (wf : ScatterDims.WF ⟨1, ![N]⟩ ⟨1, ![1]⟩ ⟨1, ![M]⟩ [0] [] [0] 0)
    (x : (⟨1, ![N]⟩ : Shape).Idx → α) (idx : IVec ⟨1, ![1]⟩ w) (h0 : idx (ix1 (0 : Fin 1)) = 0#w)
    (upd : (⟨1, ![M]⟩ : Shape).Idx → α) (o : Fin M) :
    Host.scatter (vecDims N M wf) (fun _ b => b) x idx upd (ix1 (⟨o.val, Nat.lt_of_lt_of_le o.isLt hMN⟩ : Fin N))
      = upd (ix1 o) :=
  scatter_set_apply (vecDims N M wf) x idx upd (vecLand hMN) (vecDims_resultIdx? hMN wf idx h0)
    (vecLand_injective hMN) (ix1 o)

/-- `x.at[:M].set(u)` read at a place `p ≥ M`: the operand's element, no update landing there. -/
theorem scatter_vec_apply_of_le {N M : Nat} (hMN : M ≤ N)
    (wf : ScatterDims.WF ⟨1, ![N]⟩ ⟨1, ![1]⟩ ⟨1, ![M]⟩ [0] [] [0] 0)
    (x : (⟨1, ![N]⟩ : Shape).Idx → α) (idx : IVec ⟨1, ![1]⟩ w) (h0 : idx (ix1 (0 : Fin 1)) = 0#w)
    (upd : (⟨1, ![M]⟩ : Shape).Idx → α) (p : Fin N) (hp : M ≤ p.val) :
    Host.scatter (vecDims N M wf) (fun _ b => b) x idx upd (ix1 p) = x (ix1 p) :=
  scatter_set_apply_of_forall_ne (vecDims N M wf) x idx upd (vecLand hMN) (vecDims_resultIdx? hMN wf idx h0)
    (ix1 p) (fun j e => by
      have h : (vecLand hMN j 0).val = (ix1 p 0).val := congrArg (fun k => (k 0).val) e
      have h' : (j 0).val = p.val := h
      have := idx1_lt0 j
      omega)

end Rows

end Idealize.ShloMosaic.ScatterRows
-- ==== Proof.PadWeights.lean ====
/-
  The two weight paddings of the kernel's host side, read at an index.

  Before the launch the host writes the final layer's weight matrix `[64, 1072]` into the leading 64 rows of a zero
  `[128, 1072]` array and its bias `[64]` into the leading 64 places of a zero `[128]` array, each as a scatter of
  overwrites at the one scatter index `0`. Row `o < 64` of either result is row `o` of what was written; a row from 64 on
  is the padded array's own.
-/
import proofs.«141387_j90323162235005_1_alg».proof.Proof.LibScatterRows
import proofs.«141387_j90323162235005_1_alg».proof.Proof.Gen.KernelIdeal

namespace Cert.KernelIdeal.PadWeights

open Cert.KernelIdeal Cert.KernelIdeal.Gen Idealize.ShloMosaic Idealize.ShloMosaic.ValueIdx Idealize.ShloMosaic.ScatterRows

variable {α : Type} {w : Nat}

/-- The padded weight matrix at `(o, q)` with `o < 64`: the weight matrix's element `(o, q)`. -/
theorem pad_rows_apply (x : S128x1072.Idx → α) (idx : IVec S1 w) (h0 : idx (ix1 (0 : Fin 1)) = 0#w)
    (u : S64x1072.Idx → α) (o : Fin 64) (q : Fin 1072) :
    Host.scatter scatter_S128x1072_S1_S64x1072_01_n_0_0 (fun _ b => b) x idx u
        (ix2 (⟨o.val, by omega⟩ : Fin 128) q) = u (ix2 o q) :=
  scatter_rows_apply (N := 128) (M := 64) (C := 1072) (by decide) Facts₀.scatter_S128x1072_S1_S64x1072_01_n_0_0_wf
    x idx h0 u o q

/-- The padded weight matrix at a row `p ≥ 64`: the padded array's own element. -/
theorem pad_rows_apply_of_le (x : S128x1072.Idx → α) (idx : IVec S1 w) (h0 : idx (ix1 (0 : Fin 1)) = 0#w)
    (u : S64x1072.Idx → α) (p : Fin 128) (hp : 64 ≤ p.val) (q : Fin 1072) :
    Host.scatter scatter_S128x1072_S1_S64x1072_01_n_0_0 (fun _ b => b) x idx u (ix2 p q) = x (ix2 p q) :=
  scatter_rows_apply_of_le (N := 128) (M := 64) (C := 1072) (by decide)
    Facts₀.scatter_S128x1072_S1_S64x1072_01_n_0_0_wf x idx h0 u p hp q

/-- The padded bias at `o < 64`: the bias's element `o`. -/
theorem pad_vec_apply (x : S128.Idx → α) (idx : IVec S1 w) (h0 : idx (ix1 (0 : Fin 1)) = 0#w)
    (u : S64.Idx → α) (o : Fin 64) :
    Host.scatter scatter_S128_S1_S64_0_n_0_0 (fun _ b => b) x idx u (ix1 (⟨o.val, by omega⟩ : Fin 128)) = u (ix1 o) :=
  scatter_vec_apply (N := 128) (M := 64) (by decide) Facts₀.scatter_S128_S1_S64_0_n_0_0_wf x idx h0 u o

/-- The padded bias at a place `p ≥ 64`: the padded array's own element. -/
theorem pad_vec_apply_of_le (x : S128.Idx → α) (idx : IVec S1 w) (h0 : idx (ix1 (0 : Fin 1)) = 0#w)
    (u : S64.Idx → α) (p : Fin 128) (hp : 64 ≤ p.val) :
    Host.scatter scatter_S128_S1_S64_0_n_0_0 (fun _ b => b) x idx u (ix1 p) = x (ix1 p) :=
  scatter_vec_apply_of_le (N := 128) (M := 64) (by decide) Facts₀.scatter_S128_S1_S64_0_n_0_0_wf x idx h0 u p hp

end Cert.KernelIdeal.PadWeights
-- ==== Proof.RefGather.lean ====
/-
  The reference gathers twice with the same indices: the neighbours' 67-channel rows out of [xyz ; features] and the
  neighbours' coordinates out of xyz alone. This file shows the second gather is the first three channels of the first.
-/
import proofs.«141387_j90323162235005_1_alg».proof.Proof.ReadP

noncomputable section

open scoped BigOperators

namespace Cert.ReferenceIdeal.Point

open Cert.ReferenceIdeal Cert.ReferenceIdeal.Gen Idealize.ShloMosaic Idealize.ShloMosaic.TcCoe Idealize.SL.Sem Idealize.ShloMosaic.StableHlo
open Idealize.ShloMosaic.ValueIdx

variable (x0 : (⟨S2x3x160x224, .f32⟩ : BufTy).Contents (Elt Ideal)) (x1 : (⟨S2x64x160x224, .f32⟩ : BufTy).Contents (Elt Ideal))

/-- Channel-last source rows: the first three channels of concatenate(xyz, features), flattened and transposed,
    are xyz flattened and transposed. -/
theorem feats_xyz (b : Fin 2) (P : Fin 35840) (c : Fin 3) :
    ReadP.val_main_v5 (F := Ideal) x0 x1 (ix3 b P ⟨c.val, by omega⟩) = ReadP.val_main_v11 (F := Ideal) x0 (ix3 b P c) := by
  rw [ReadP.val_main_v5_apply, ReadP.val_main_v4_apply, ReadP.val_main_v11_apply, ReadP.val_main_v10_apply]
  unfold ReadP.val_main_v3
  have hb := b.isLt; have hP := P.isLt; have hc := c.isLt
  refine concatenate_pair_apply_left (t := S2x67x160x224) (s₁ := S2x3x160x224) (s₂ := S2x64x160x224) (1 : Fin 4) x0 x1
    concatenates_S2x3x160x224_S2x64x160x224_S2x67x160x224_d1 _ rfl _ (fun a => ?_)
  match a with
  | ⟨0, _⟩ =>
    show ((b.val * 3 + c.val) * 35840 + P.val) / 107520 = ((b.val * 67 + c.val) * 35840 + P.val) / 2401280
    omega
  | ⟨1, _⟩ =>
    show ((b.val * 3 + c.val) * 35840 + P.val) / 35840 % 3 = ((b.val * 67 + c.val) * 35840 + P.val) / 35840 % 67
    omega
  | ⟨2, _⟩ =>
    show ((b.val * 3 + c.val) * 35840 + P.val) / 224 % 160 = ((b.val * 67 + c.val) * 35840 + P.val) / 224 % 160
    omega
  | ⟨3, _⟩ =>
    show ((b.val * 3 + c.val) * 35840 + P.val) % 224 = ((b.val * 67 + c.val) * 35840 + P.val) % 224
    omega

/-- The gather along axis 1 with batch axis 0, read at result index `(b, r, c)`: the operand's row at the start
    index `idx[b, r, 0]`, read signed and clamped into `[0, 35839]`, in batch `b`, at channel `c`. -/
theorem gather67_apply {α : Type} (x : S2x35840x67.Idx → α) (idx : IVec S2x573440x1 32) (b : Fin 2) (r : Fin 573440) (c : Fin 67) :
    Host.gather gather_S2x35840x67_S2x573440x1_S2x573440x67_2_1_0_0_1_2_1167 x idx (ix3 b r c)
      = x (ix3 b ⟨min (idx (ix3 b r (0 : Fin 1))).toInt.toNat 35839, by omega⟩ c) := by
  unfold Host.gather
  congr 1
  funext a
  refine Fin.ext ?_
  match a with
  | ⟨0, _⟩ =>
    show (gather_S2x35840x67_S2x573440x1_S2x573440x67_2_1_0_0_1_2_1167).start (ix3 b r c) idx (0 : Fin 3) + (gather_S2x35840x67_S2x573440x1_S2x573440x67_2_1_0_0_1_2_1167).batchCoord (ix3 b r c) (0 : Fin 3)
      + (gather_S2x35840x67_S2x573440x1_S2x573440x67_2_1_0_0_1_2_1167).offCoord (ix3 b r c) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (gather_S2x35840x67_S2x573440x1_S2x573440x67_2_1_0_0_1_2_1167).start (ix3 b r c) idx (1 : Fin 3) + (gather_S2x35840x67_S2x573440x1_S2x573440x67_2_1_0_0_1_2_1167).batchCoord (ix3 b r c) (1 : Fin 3)
      + (gather_S2x35840x67_S2x573440x1_S2x573440x67_2_1_0_0_1_2_1167).offCoord (ix3 b r c) (1 : Fin 3) = min (idx (ix3 b r (0 : Fin 1))).toInt.toNat 35839
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S2x35840x67_S2x573440x1_S2x573440x67_2_1_0_0_1_2_1167).startIndexMap from List.mem_singleton.mpr rfl)]
    have hsi : (gather_S2x35840x67_S2x573440x1_S2x573440x67_2_1_0_0_1_2_1167).siIdx (ix3 b r c) ⟨List.idxOf (1 : Fin 3) (gather_S2x35840x67_S2x573440x1_S2x573440x67_2_1_0_0_1_2_1167).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi]
    rfl
  | ⟨2, _⟩ =>
    show (gather_S2x35840x67_S2x573440x1_S2x573440x67_2_1_0_0_1_2_1167).start (ix3 b r c) idx (2 : Fin 3) + (gather_S2x35840x67_S2x573440x1_S2x573440x67_2_1_0_0_1_2_1167).batchCoord (ix3 b r c) (2 : Fin 3)
      + (gather_S2x35840x67_S2x573440x1_S2x573440x67_2_1_0_0_1_2_1167).offCoord (ix3 b r c) (2 : Fin 3) = c.val
    rw [GatherDims.batchCoord_eq_zero _ _ _ (fun h => absurd (List.mem_singleton.mp h) (by decide))]
    unfold GatherDims.start
    rw [dif_neg (show ¬ (2 : Fin 3) ∈ (gather_S2x35840x67_S2x573440x1_S2x573440x67_2_1_0_0_1_2_1167).startIndexMap from
      fun h => absurd (List.mem_singleton.mp h) (by decide))]
    simp only [Nat.zero_add, Nat.add_zero]
    unfold GatherDims.offCoord
    rw [dif_pos ((GatherDims.mem_sKept _ _).mpr ⟨fun h => absurd (List.mem_singleton.mp h) (by decide),
      fun h => absurd (List.mem_singleton.mp h) (by decide)⟩)]
    rfl

/-- The gather along axis 1 with batch axis 0, read at result index `(b, r, c)`: the operand's row at the start
    index `idx[b, r, 0]`, read signed and clamped into `[0, 35839]`, in batch `b`, at channel `c`. -/
theorem gather3_apply {α : Type} (x : S2x35840x3.Idx → α) (idx : IVec S2x573440x1 32) (b : Fin 2) (r : Fin 573440) (c : Fin 3) :
    Host.gather gather_S2x35840x3_S2x573440x1_S2x573440x3_2_1_0_0_1_2_113 x idx (ix3 b r c)
      = x (ix3 b ⟨min (idx (ix3 b r (0 : Fin 1))).toInt.toNat 35839, by omega⟩ c) := by
  unfold Host.gather
  congr 1
  funext a
  refine Fin.ext ?_
  match a with
  | ⟨0, _⟩ =>
    show (gather_S2x35840x3_S2x573440x1_S2x573440x3_2_1_0_0_1_2_113).start (ix3 b r c) idx (0 : Fin 3) + (gather_S2x35840x3_S2x573440x1_S2x573440x3_2_1_0_0_1_2_113).batchCoord (ix3 b r c) (0 : Fin 3)
      + (gather_S2x35840x3_S2x573440x1_S2x573440x3_2_1_0_0_1_2_113).offCoord (ix3 b r c) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (gather_S2x35840x3_S2x573440x1_S2x573440x3_2_1_0_0_1_2_113).start (ix3 b r c) idx (1 : Fin 3) + (gather_S2x35840x3_S2x573440x1_S2x573440x3_2_1_0_0_1_2_113).batchCoord (ix3 b r c) (1 : Fin 3)
      + (gather_S2x35840x3_S2x573440x1_S2x573440x3_2_1_0_0_1_2_113).offCoord (ix3 b r c) (1 : Fin 3) = min (idx (ix3 b r (0 : Fin 1))).toInt.toNat 35839
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S2x35840x3_S2x573440x1_S2x573440x3_2_1_0_0_1_2_113).startIndexMap from List.mem_singleton.mpr rfl)]
    have hsi : (gather_S2x35840x3_S2x573440x1_S2x573440x3_2_1_0_0_1_2_113).siIdx (ix3 b r c) ⟨List.idxOf (1 : Fin 3) (gather_S2x35840x3_S2x573440x1_S2x573440x3_2_1_0_0_1_2_113).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi]
    rfl
  | ⟨2, _⟩ =>
    show (gather_S2x35840x3_S2x573440x1_S2x573440x3_2_1_0_0_1_2_113).start (ix3 b r c) idx (2 : Fin 3) + (gather_S2x35840x3_S2x573440x1_S2x573440x3_2_1_0_0_1_2_113).batchCoord (ix3 b r c) (2 : Fin 3)
      + (gather_S2x35840x3_S2x573440x1_S2x573440x3_2_1_0_0_1_2_113).offCoord (ix3 b r c) (2 : Fin 3) = c.val
    rw [GatherDims.batchCoord_eq_zero _ _ _ (fun h => absurd (List.mem_singleton.mp h) (by decide))]
    unfold GatherDims.start
    rw [dif_neg (show ¬ (2 : Fin 3) ∈ (gather_S2x35840x3_S2x573440x1_S2x573440x3_2_1_0_0_1_2_113).startIndexMap from
      fun h => absurd (List.mem_singleton.mp h) (by decide))]
    simp only [Nat.zero_add, Nat.add_zero]
    unfold GatherDims.offCoord
    rw [dif_pos ((GatherDims.mem_sKept _ _).mpr ⟨fun h => absurd (List.mem_singleton.mp h) (by decide),
      fun h => absurd (List.mem_singleton.mp h) (by decide)⟩)]
    rfl

variable (x3 : (⟨S2x35840x16, .i32⟩ : BufTy).Contents (Elt Ideal)) (x4 : (⟨S2x35840x16, .i1⟩ : BufTy).Contents (Elt Ideal))

/-- The two take-along-axis calls agree on the coordinate channels: same start indices, same in-bounds test,
    same fill value, and the rows they read agree there (`feats_xyz`). -/
theorem take_eq (b : Fin 2) (r : Fin 573440) (c : Fin 3) :
    ReadP.val_main_v12 (F := Ideal) x0 x3 (ix3 b r c) = ReadP.val_main_v6 (F := Ideal) x0 x1 x3 (ix3 b r ⟨c.val, by omega⟩) := by
  rw [ReadP.val_main_v12_apply, ReadP.val_main_v6_apply]
  have h13 : ReadP.val_main_call1_v13 (F := Ideal) x3 (ix3 b r c)
      = ReadP.val_main_call0_v13 (F := Ideal) x3 (ix3 b r ⟨c.val, by omega⟩) := by
    rw [ReadP.val_main_call1_v13_apply, ReadP.val_main_call0_v13_apply]
    have e : ReadP.idx_main_call1_v13 (ix3 b r c) = ReadP.idx_main_call0_v13 (ix3 b r (⟨c.val, by omega⟩ : Fin 67)) :=
      funext fun a => match a with | ⟨0, _⟩ => rfl | ⟨1, _⟩ => rfl
    have e11 : ReadP.val_main_call1_v11 (F := Ideal) x3 = ReadP.val_main_call0_v11 (F := Ideal) x3 := rfl
    rw [e, e11]
  have h14 : ReadP.val_main_call1_v14 (F := Ideal) (ix3 b r c)
      = ReadP.val_main_call0_v14 (F := Ideal) (ix3 b r (⟨c.val, by omega⟩ : Fin 67)) := by
    rw [ReadP.val_main_call1_v14_apply, ReadP.val_main_call0_v14_apply, ReadP.val_main_call1_cst_apply,
      ReadP.val_main_call0_cst_apply]
  have h12 : ReadP.val_main_call1_v12 (F := Ideal) x0 x3 (ix3 b r c)
      = ReadP.val_main_call0_v12 (F := Ideal) x0 x1 x3 (ix3 b r ⟨c.val, by omega⟩) := by
    unfold ReadP.val_main_call1_v12 ReadP.val_main_call0_v12
    have e4 : ReadP.val_main_call1_v4 (F := Ideal) x3 = ReadP.val_main_call0_v4 (F := Ideal) x3 := rfl
    rw [gather3_apply, gather67_apply, e4]
    exact (feats_xyz x0 x1 b _ c).symm
  rw [h13, h14, h12]

/-- THE GATHERED COORDINATES ARE THE GATHERED ROWS' FIRST THREE CHANNELS: the masked neighbour coordinates
    (gathered from xyz alone) are channels 0, 1, 2 of the masked neighbour rows (gathered from [xyz ; features]). -/
theorem knn_xyz_eq (b : Fin 2) (p : Fin 35840) (k : Fin 16) (c : Fin 3) :
    ReadP.val_main_v15 (F := Ideal) x0 x3 x4 (ix4 b p k c)
      = ReadP.val_main_v9 (F := Ideal) x0 x1 x3 x4 (ix4 b p k ⟨c.val, by omega⟩) := by
  have hb := b.isLt; have hp := p.isLt; have hk := k.isLt; have hc := c.isLt
  rw [ReadP.val_main_v15_apply, ReadP.val_main_v9_apply, ReadP.val_main_v13_apply, ReadP.val_main_v7_apply,
    ReadP.val_main_v14_apply, ReadP.val_main_v8_apply]
  have e13 : ReadP.idx_main_v13 (ix4 b p k c) = ix3 b (⟨p.val * 16 + k.val, by omega⟩ : Fin 573440) c :=
    funext fun a => Fin.ext (by
      match a with
      | ⟨0, _⟩ => show (((b.val * 35840 + p.val) * 16 + k.val) * 3 + c.val) / 1720320 = b.val; omega
      | ⟨1, _⟩ => show (((b.val * 35840 + p.val) * 16 + k.val) * 3 + c.val) / 3 % 573440 = p.val * 16 + k.val; omega
      | ⟨2, _⟩ => show (((b.val * 35840 + p.val) * 16 + k.val) * 3 + c.val) % 3 = c.val; omega)
  have e7 : ReadP.idx_main_v7 (ix4 b p k (⟨c.val, by omega⟩ : Fin 67))
      = ix3 b (⟨p.val * 16 + k.val, by omega⟩ : Fin 573440) (⟨c.val, by omega⟩ : Fin 67) :=
    funext fun a => Fin.ext (by
      match a with
      | ⟨0, _⟩ => show (((b.val * 35840 + p.val) * 16 + k.val) * 67 + c.val) / 38420480 = b.val; omega
      | ⟨1, _⟩ => show (((b.val * 35840 + p.val) * 16 + k.val) * 67 + c.val) / 67 % 573440 = p.val * 16 + k.val; omega
      | ⟨2, _⟩ => show (((b.val * 35840 + p.val) * 16 + k.val) * 67 + c.val) % 67 = c.val; omega)
  have e14 : ReadP.idx_main_v14 (ix4 b p k c) = ReadP.idx_main_v8 (ix4 b p k (⟨c.val, by omega⟩ : Fin 67)) :=
    funext fun a => match a with | ⟨0, _⟩ => rfl | ⟨1, _⟩ => rfl | ⟨2, _⟩ => rfl | ⟨3, _⟩ => rfl
  rw [e13, e7, e14, take_eq x0 x1 x3 b _ c]

end Cert.ReferenceIdeal.Point

end
-- ==== Proof.RefPoint.lean ====
/-
  The reference program, read at one output element, is the point convolution of Spec.lean.

  From the last stage down: the final `where` is `leaky` of the final linear layer plus its bias; the final linear layer
  contracts the 16 · 67 aggregated values, reshaped row-major, against one row of its weights; the aggregated values are
  the batched contraction over the sixteen neighbours of the second layer's weights with the gathered rows; the two
  layers of the weight net are contractions over 3 and 8 followed by bias and `leaky`; and the relative coordinates are
  the gathered coordinates minus the query point's, where the gathered coordinates are the gathered rows' first three
  channels (RefGather.lean). Every contraction is kept in the reference's own order, so each step is an index
  computation followed by a definitional unfolding.
-/
import proofs.«141387_j90323162235005_1_alg».proof.Proof.ReadP
import proofs.«141387_j90323162235005_1_alg».proof.Proof.Spec
import proofs.«141387_j90323162235005_1_alg».proof.Proof.RefGather

noncomputable section

open scoped BigOperators

namespace Cert.ReferenceIdeal.Point

open Cert.ReferenceIdeal Cert.ReferenceIdeal.Gen Idealize.ShloMosaic Idealize.ShloMosaic.TcCoe Idealize.SL.Sem Idealize.ShloMosaic.StableHlo
open Idealize.ShloMosaic.ValueIdx

open Cert.PointConv

variable (x0 : (⟨S2x3x160x224, .f32⟩ : BufTy).Contents (Elt Ideal))
  (x1 : (⟨S2x64x160x224, .f32⟩ : BufTy).Contents (Elt Ideal))
  (x2 : (⟨S2x3x160x224, .f32⟩ : BufTy).Contents (Elt Ideal))
  (x3 : (⟨S2x35840x16, .i32⟩ : BufTy).Contents (Elt Ideal))
  (x4 : (⟨S2x35840x16, .i1⟩ : BufTy).Contents (Elt Ideal))
  (x5 : (⟨S8x3, .f32⟩ : BufTy).Contents (Elt Ideal))
  (x6 : (⟨S8, .f32⟩ : BufTy).Contents (Elt Ideal))
  (x7 : (⟨S16x8, .f32⟩ : BufTy).Contents (Elt Ideal))
  (x8 : (⟨S16, .f32⟩ : BufTy).Contents (Elt Ideal))
  (x9 : (⟨S64x1072, .f32⟩ : BufTy).Contents (Elt Ideal))
  (x10 : (⟨S64, .f32⟩ : BufTy).Contents (Elt Ideal))
variable (b : Fin 2) (p : Fin 35840)

/-- The leaky rectifier as the reference spells it at one element: compare with the literal 0, select, multiply by the
    literal 0.1. -/
theorem leaky_eq (x : Ideal .f32) :
    Scalar.select (FloatOps.cmpf (F := Ideal) (φ := .f32) .oge x (FloatOps.ofBits (F := Ideal) .f32 0x00000000#32)) x
      (FloatOps.mulf (F := Ideal) (φ := .f32) (FloatOps.ofBits (F := Ideal) .f32 0x3DCCCCCD#32) x) = leaky x := rfl

/-- The sixteen gathered (masked) neighbour rows of query point `(b, p)`. -/
abbrev kfAt : Fin 16 → Fin 67 → EReal := fun k ch => ReadP.val_main_v9 (F := Ideal) x0 x1 x3 x4 (ix4 b p k ch)
/-- The query point's own coordinates. -/
abbrev nxAt : Fin 3 → EReal := fun c => ReadP.val_main_v17 (F := Ideal) x2 (ix3 b p c)

/-- Relative coordinates: the subtract stage at `(b, p, k, c)`. -/
theorem rel_eq (k : Fin 16) (c : Fin 3) :
    ReadP.val_main_v20 (F := Ideal) x0 x2 x3 x4 (ix4 b p k c) = rel (kfAt x0 x1 x3 x4 b p) (nxAt x2 b p) k c := by
  rw [ReadP.val_main_v20_apply, knn_xyz_eq x0 x1 x3 x4 b p k c, ReadP.val_main_v19_apply, ReadP.val_main_v18_apply]
  have e : ReadP.idx_main_v18 (ReadP.idx_main_v19 (ix4 b p k c)) = ix3 b p c :=
    funext fun a => match a with | ⟨0, _⟩ => rfl | ⟨1, _⟩ => rfl | ⟨2, _⟩ => rfl
  rw [e]
  rfl

/-- The first layer of the weight net: the first `where` at `(b, p, k, o)`. -/
theorem hid_eq (k : Fin 16) (o : Fin 8) :
    ReadP.val_main_v29 (F := Ideal) x0 x2 x3 x4 x5 x6 (ix4 b p k o) = hid (kfAt x0 x1 x3 x4 b p) (nxAt x2 b p) (fun o c => x5 (ix2 o c)) (fun o => x6 (ix1 o)) k o := by
  rw [ReadP.val_main_v29_apply, ReadP.val_main_v26_apply, ReadP.val_main_v28_apply, ReadP.val_main_v25_apply,
    ReadP.val_main_v27_apply, ReadP.val_main_cst_apply, ReadP.val_main_cst_0_apply]
  have h24 : ReadP.val_main_v24 (F := Ideal) x0 x2 x3 x4 x5 x6 (ix4 b p k o)
      = ∑ c : Fin 3, rel (kfAt x0 x1 x3 x4 b p) (nxAt x2 b p) k c * x5 (ix2 o c) + x6 (ix1 o) := by
    rw [ReadP.val_main_v24_apply, ReadP.val_main_v21_apply, ReadP.val_main_v23_apply, ReadP.val_main_v22_apply]
    have el : ∀ c : Fin 3, ReadP.lidx_main_v21 (ix4 b p k o) c = ix4 b p k c :=
      fun c => funext fun a => match a with | ⟨0, _⟩ => rfl | ⟨1, _⟩ => rfl | ⟨2, _⟩ => rfl | ⟨3, _⟩ => rfl
    have er : ∀ c : Fin 3, ReadP.ridx_main_v21 (ix4 b p k o) c = ix2 o c :=
      fun c => funext fun a => match a with | ⟨0, _⟩ => rfl | ⟨1, _⟩ => rfl
    have e23 : ReadP.idx_main_v22 (ReadP.idx_main_v23 (ix4 b p k o)) = ix1 o :=
      funext fun a => match a with | ⟨0, _⟩ => rfl
    refine congrArg₂ (fun s t : EReal => s + t) (Finset.sum_congr rfl fun c _ => ?_) ?_
    · rw [el c, er c, rel_eq x0 x1 x2 x3 x4 b p k c]
    · rw [e23]
  rw [h24]
  rfl

/-- The second layer: the second `where` at `(b, p, k, f)`. -/
theorem wt_eq (k f : Fin 16) :
    ReadP.val_main_v38 (F := Ideal) x0 x2 x3 x4 x5 x6 x7 x8 (ix4 b p k f)
      = wt (kfAt x0 x1 x3 x4 b p) (nxAt x2 b p) (fun o c => x5 (ix2 o c)) (fun o => x6 (ix1 o)) (fun f o => x7 (ix2 f o)) (fun f => x8 (ix1 f)) k f := by
  rw [ReadP.val_main_v38_apply, ReadP.val_main_v35_apply, ReadP.val_main_v37_apply, ReadP.val_main_v34_apply,
    ReadP.val_main_v36_apply, ReadP.val_main_cst_1_apply, ReadP.val_main_cst_2_apply]
  have h33 : ReadP.val_main_v33 (F := Ideal) x0 x2 x3 x4 x5 x6 x7 x8 (ix4 b p k f)
      = ∑ o : Fin 8, hid (kfAt x0 x1 x3 x4 b p) (nxAt x2 b p) (fun o c => x5 (ix2 o c)) (fun o => x6 (ix1 o)) k o * x7 (ix2 f o) + x8 (ix1 f) := by
    rw [ReadP.val_main_v33_apply, ReadP.val_main_v30_apply, ReadP.val_main_v32_apply, ReadP.val_main_v31_apply]
    have el : ∀ o : Fin 8, ReadP.lidx_main_v30 (ix4 b p k f) o = ix4 b p k o :=
      fun o => funext fun a => match a with | ⟨0, _⟩ => rfl | ⟨1, _⟩ => rfl | ⟨2, _⟩ => rfl | ⟨3, _⟩ => rfl
    have er : ∀ o : Fin 8, ReadP.ridx_main_v30 (ix4 b p k f) o = ix2 f o :=
      fun o => funext fun a => match a with | ⟨0, _⟩ => rfl | ⟨1, _⟩ => rfl
    have e32 : ReadP.idx_main_v31 (ReadP.idx_main_v32 (ix4 b p k f)) = ix1 f :=
      funext fun a => match a with | ⟨0, _⟩ => rfl
    refine congrArg₂ (fun s t : EReal => s + t) (Finset.sum_congr rfl fun o _ => ?_) ?_
    · rw [el o, er o, hid_eq x0 x1 x2 x3 x4 x5 x6 b p k o]
    · rw [e32]
  rw [h33]
  rfl

/-- The aggregation over the sixteen neighbours: the batched dot_general at `(b, p, f, c)`. -/
theorem agg_eq (f : Fin 16) (c : Fin 67) :
    ReadP.val_main_v39 (F := Ideal) x0 x1 x2 x3 x4 x5 x6 x7 x8 (ix4 b p f c)
      = agg (kfAt x0 x1 x3 x4 b p) (nxAt x2 b p) (fun o c => x5 (ix2 o c)) (fun o => x6 (ix1 o)) (fun f o => x7 (ix2 f o)) (fun f => x8 (ix1 f)) f c := by
  rw [ReadP.val_main_v39_apply]
  have el : ∀ k : Fin 16, ReadP.lidx_main_v39 (ix4 b p f c) k = ix4 b p k f :=
    fun k => funext fun a => match a with | ⟨0, _⟩ => rfl | ⟨1, _⟩ => rfl | ⟨2, _⟩ => rfl | ⟨3, _⟩ => rfl
  have er : ∀ k : Fin 16, ReadP.ridx_main_v39 (ix4 b p f c) k = ix4 b p k c :=
    fun k => funext fun a => match a with | ⟨0, _⟩ => rfl | ⟨1, _⟩ => rfl | ⟨2, _⟩ => rfl | ⟨3, _⟩ => rfl
  refine Finset.sum_congr rfl fun k _ => ?_
  rw [el k, er k, wt_eq x0 x1 x2 x3 x4 x5 x6 x7 x8 b p k f]

/-- The reshape of the aggregated values to one row of 16 · 67: entry `q` is filter `q / 67`, channel `q % 67`. -/
theorem flat_eq (q : Fin 1072) :
    ReadP.idx_main_v40 (ix3 b p q)
      = ix4 b p (⟨q.val / 67, by have := q.isLt; omega⟩ : Fin 16) (⟨q.val % 67, Nat.mod_lt _ (by decide)⟩ : Fin 67) := by
  have hb := b.isLt; have hp := p.isLt; have hq := q.isLt
  refine funext fun a => Fin.ext ?_
  match a with
  | ⟨0, _⟩ => show ((b.val * 35840 + p.val) * 1072 + q.val) / 38420480 = b.val; omega
  | ⟨1, _⟩ => show ((b.val * 35840 + p.val) * 1072 + q.val) / 1072 % 35840 = p.val; omega
  | ⟨2, _⟩ => show ((b.val * 35840 + p.val) * 1072 + q.val) / 67 % 16 = q.val / 67; omega
  | ⟨3, _⟩ => show ((b.val * 35840 + p.val) * 1072 + q.val) % 67 = q.val % 67; omega

/-- THE REFERENCE IS THE POINT CONVOLUTION: its last `where` at `(b, p, o)` is `point` of the query point's gathered
    rows, its own coordinates and the weights. -/
theorem ref_point (o : Fin 64) :
    ReadP.val_main_v49 (F := Ideal) x0 x1 x2 x3 x4 x5 x6 x7 x8 x9 x10 (ix3 b p o)
      = Cert.PointConv.point (fun k ch => ReadP.val_main_v9 (F := Ideal) x0 x1 x3 x4 (ix4 b p k ch))
          (fun ch => ReadP.val_main_v17 (F := Ideal) x2 (ix3 b p ch))
          (fun o ch => x5 (ix2 o ch)) (fun o => x6 (ix1 o)) (fun f o => x7 (ix2 f o)) (fun f => x8 (ix1 f))
          (fun q => x9 (ix2 o q)) (x10 (ix1 o)) := by
  rw [ReadP.val_main_v49_apply, ReadP.val_main_v46_apply, ReadP.val_main_v48_apply, ReadP.val_main_v45_apply,
    ReadP.val_main_v47_apply, ReadP.val_main_cst_3_apply, ReadP.val_main_cst_4_apply]
  have h44 : ReadP.val_main_v44 (F := Ideal) x0 x1 x2 x3 x4 x5 x6 x7 x8 x9 x10 (ix3 b p o)
      = ∑ q : Fin 1072, agg (kfAt x0 x1 x3 x4 b p) (nxAt x2 b p) (fun o c => x5 (ix2 o c)) (fun o => x6 (ix1 o)) (fun f o => x7 (ix2 f o)) (fun f => x8 (ix1 f))
          ⟨q.val / 67, by have := q.isLt; omega⟩ ⟨q.val % 67, Nat.mod_lt _ (by decide)⟩ * x9 (ix2 o q) + x10 (ix1 o) := by
    rw [ReadP.val_main_v44_apply, ReadP.val_main_v41_apply, ReadP.val_main_v43_apply, ReadP.val_main_v42_apply]
    have el : ∀ q : Fin 1072, ReadP.lidx_main_v41 (ix3 b p o) q = ix3 b p q :=
      fun q => funext fun a => match a with | ⟨0, _⟩ => rfl | ⟨1, _⟩ => rfl | ⟨2, _⟩ => rfl
    have er : ∀ q : Fin 1072, ReadP.ridx_main_v41 (ix3 b p o) q = ix2 o q :=
      fun q => funext fun a => match a with | ⟨0, _⟩ => rfl | ⟨1, _⟩ => rfl
    have e43 : ReadP.idx_main_v42 (ReadP.idx_main_v43 (ix3 b p o)) = ix1 o :=
      funext fun a => match a with | ⟨0, _⟩ => rfl
    refine congrArg₂ (fun s t : EReal => s + t) (Finset.sum_congr rfl fun q _ => ?_) ?_
    · rw [el q, er q, ReadP.val_main_v40_apply, flat_eq b p q, agg_eq x0 x1 x2 x3 x4 x5 x6 x7 x8 b p]
    · rw [e43]
  rw [h44]
  rfl

end Cert.ReferenceIdeal.Point

end
-- ==== Proof.Bridge.lean ====
/-
  The bridge between the two programs at one element: the kernel's output array, cut to its first 64 channels, is the
  reference's last `where`.

  Both are the point convolution of Spec.lean of the same data: the gathered rows are the same array (a hypothesis
  here), the query coordinates are the same re-laying of the same argument, the two small weight matrices reach the
  kernel transposed and are read transposed, and the last weight matrix and its bias reach it padded with zeros to 128
  output channels, of which the cut keeps the first 64.
-/
import proofs.«141387_j90323162235005_1_alg».proof.Proof.OutArray
import proofs.«141387_j90323162235005_1_alg».proof.Proof.HostPre
import proofs.«141387_j90323162235005_1_alg».proof.Proof.PadWeights
import proofs.«141387_j90323162235005_1_alg».proof.Proof.RefPoint
import proofs.«141387_j90323162235005_1_alg».proof.Proof.ReadP
import Idealize.ShloMosaic.Lib.ValueLayout

set_option maxRecDepth 16384

noncomputable section

open scoped BigOperators

namespace Cert.Proof.Bridge

open Cert.KernelIdeal Cert.KernelIdeal.Gen Cert.PointConv Idealize.ShloMosaic Idealize.ShloMosaic.TcCoe
open Idealize.ShloMosaic.ValueIdx Idealize.SL.Sem

/-- The output array at `(b, p, o)`, its coordinates read off. -/
theorem outArr_ix3 (A0 : S2x35840x16x67.Idx → EReal) (A1 : S2x35840x3.Idx → EReal) (A2 : S3x8.Idx → EReal) (A3 : S8.Idx → EReal)
    (A4 : S8x16.Idx → EReal) (A5 : S16.Idx → EReal) (A6 : S1072x128.Idx → EReal) (A7 : S128.Idx → EReal)
    (b : Fin 2) (p : Fin 35840) (o : Fin 128) :
    Cert.KernelIdeal.Arr.outArr A0 A1 A2 A3 A4 A5 A6 A7 (ix3 b p o)
      = point (fun k ch => A0 (ix4 b p k ch)) (fun ch => A1 (ix3 b p ch)) (fun o ch => A2 (ix2 ch o)) (fun o => A3 (ix1 o))
          (fun f o => A4 (ix2 o f)) (fun f => A5 (ix1 f)) (fun q => A6 (ix2 q o)) (A7 (ix1 o)) := rfl

/-- The bridge over arbitrary arrays: if the eight arrays the region reads are the reference's gathered rows, the
    re-laid query coordinates, the transposed weight matrices, the biases, and the padded last layer, then the output
    array cut to 64 channels is the reference's last stage. -/
theorem slice_eq_of
    (a0 : (⟨S2x3x160x224, .f32⟩ : BufTy).Contents (Elt Ideal))
    (a1 : (⟨S2x64x160x224, .f32⟩ : BufTy).Contents (Elt Ideal))
    (a2 : (⟨S2x3x160x224, .f32⟩ : BufTy).Contents (Elt Ideal))
    (a3 : (⟨S2x35840x16, .i32⟩ : BufTy).Contents (Elt Ideal))
    (a4 : (⟨S2x35840x16, .i1⟩ : BufTy).Contents (Elt Ideal))
    (a5 : (⟨S8x3, .f32⟩ : BufTy).Contents (Elt Ideal))
    (a6 : (⟨S8, .f32⟩ : BufTy).Contents (Elt Ideal))
    (a7 : (⟨S16x8, .f32⟩ : BufTy).Contents (Elt Ideal))
    (a8 : (⟨S16, .f32⟩ : BufTy).Contents (Elt Ideal))
    (a9 : (⟨S64x1072, .f32⟩ : BufTy).Contents (Elt Ideal))
    (a10 : (⟨S64, .f32⟩ : BufTy).Contents (Elt Ideal))
    (A0 : S2x35840x16x67.Idx → EReal) (A1 : S2x35840x3.Idx → EReal) (A2 : S3x8.Idx → EReal) (A3 : S8.Idx → EReal)
    (A4 : S8x16.Idx → EReal) (A5 : S16.Idx → EReal) (A6 : S1072x128.Idx → EReal) (A7 : S128.Idx → EReal)
    (h0 : A0 = Cert.ReferenceIdeal.ReadP.val_main_v9 (F := Ideal) a0 a1 a3 a4)
    (h1 : A1 = transpose S2x35840x3 [0, 2, 1] (shapeCast S2x3x35840 a2 shapeCasts_S2x3x160x224_S2x3x35840)
          transposes_S2x3x35840_S2x35840x3_0_2_1)
    (h2 : A2 = transpose S3x8 [1, 0] a5 transposes_S8x3_S3x8_1_0)
    (h3 : A3 = a6)
    (h4 : A4 = transpose S8x16 [1, 0] a7 transposes_S16x8_S8x16_1_0)
    (h5 : A5 = a8)
    (h6 : A6 = transpose S1072x128 [1, 0]
          (Host.scatter scatter_S128x1072_S1_S64x1072_01_n_0_0 (fun _ b => b)
            (broadcastInDim S128x1072 ![] bcast_S_S128x1072 (constant (F := Ideal) S_ .f32 0x00000000#32))
            (broadcastInDim S1 ![] bcast_S_S1 (constantI S_ 32 0#32)) a9)
          transposes_S128x1072_S1072x128_1_0)
    (h7 : A7 = Host.scatter scatter_S128_S1_S64_0_n_0_0 (fun _ b => b)
          (broadcastInDim S128 ![] bcast_S_S128 (constant (F := Ideal) S_ .f32 0x00000000#32))
          (broadcastInDim S1 ![] bcast_S_S1 (constantI S_ 32 0#32)) a10) :
    extractStridedSlice S2x35840x64 ![0, 0, 0] (Cert.KernelIdeal.Arr.outArr A0 A1 A2 A3 A4 A5 A6 A7)
        slices_S2x35840x128_S2x35840x64_0_0_0
      = Cert.ReferenceIdeal.ReadP.val_main_v49 (F := Ideal) a0 a1 a2 a3 a4 a5 a6 a7 a8 a9 a10 := by
  subst h0 h1 h2 h3 h4 h5 h6 h7
  funext i
  obtain ⟨b, p, o, rfl⟩ : ∃ (b : Fin 2) (p : Fin 35840) (o : Fin 64), i = ix3 b p o := ⟨i 0, i 1, i 2, eq_ix3 i⟩
  rw [Cert.PointConv.Layout.slice3_axis2_zero_apply, outArr_ix3, Cert.ReferenceIdeal.Point.ref_point]
  unfold Cert.ReferenceIdeal.ReadP.val_main_v17 Cert.ReferenceIdeal.ReadP.val_main_v16
  have e2 : ∀ (u : Fin 8) (ch : Fin 3), transpose S3x8 [1, 0] a5 transposes_S8x3_S3x8_1_0 (ix2 ch u) = a5 (ix2 u ch) :=
    fun u ch => transpose_ix2_apply (a := 8) (b := 3) a5 transposes_S8x3_S3x8_1_0 ch u
  have e4 : ∀ (f : Fin 16) (u : Fin 8), transpose S8x16 [1, 0] a7 transposes_S16x8_S8x16_1_0 (ix2 u f) = a7 (ix2 f u) :=
    fun f u => transpose_ix2_apply (a := 16) (b := 8) a7 transposes_S16x8_S8x16_1_0 u f
  have e6 : ∀ q : Fin 1072, transpose S1072x128 [1, 0]
          (Host.scatter scatter_S128x1072_S1_S64x1072_01_n_0_0 (fun _ b => b)
            (broadcastInDim S128x1072 ![] bcast_S_S128x1072 (constant (F := Ideal) S_ .f32 0x00000000#32))
            (broadcastInDim S1 ![] bcast_S_S1 (constantI S_ 32 0#32)) a9)
          transposes_S128x1072_S1072x128_1_0 (ix2 q (⟨o.val, by omega⟩ : Fin 128)) = a9 (ix2 o q) :=
    fun q => (transpose_ix2_apply (a := 128) (b := 1072) _ transposes_S128x1072_S1072x128_1_0 q _).trans
      (Cert.KernelIdeal.PadWeights.pad_rows_apply _ _ rfl a9 o q)
  have e7 : Host.scatter scatter_S128_S1_S64_0_n_0_0 (fun _ b => b)
          (broadcastInDim S128 ![] bcast_S_S128 (constant (F := Ideal) S_ .f32 0x00000000#32))
          (broadcastInDim S1 ![] bcast_S_S1 (constantI S_ 32 0#32)) a10 (ix1 (⟨o.val, by omega⟩ : Fin 128)) = a10 (ix1 o) :=
    Cert.KernelIdeal.PadWeights.pad_vec_apply _ _ rfl a10 o
  simp only [e2, e4, e6, e7]

variable (m : (ℓ : Loc nD τ sig) → Buf (Elt Ideal) ℓ) (c : Dev nD)

/-- THE BRIDGE: the kernel's output array as the region's arrays give it, cut to its first 64 channels, is the
    reference's last stage at the same arguments — given that the gathered rows the region finds are the reference's. -/
theorem slice_eq
    (h9 : (V m c main_v9 : S2x35840x16x67.Idx → EReal)
      = Cert.ReferenceIdeal.ReadP.val_main_v9 (F := Ideal) (m ((c : Thread nD τ).loc main_arg0)) (m ((c : Thread nD τ).loc main_arg1))
          (m ((c : Thread nD τ).loc main_arg3)) (m ((c : Thread nD τ).loc main_arg4))) :
    extractStridedSlice S2x35840x64 ![0, 0, 0]
        (Cert.KernelIdeal.Arr.outArr (V m c main_v9) (V m c main_v11) (V m c main_v12) (V m c main_arg6) (V m c main_v13) (V m c main_arg8) (V m c main_v17) (V m c main_v20))
        slices_S2x35840x128_S2x35840x64_0_0_0
      = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) :=
  slice_eq_of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (V m c main_v9) (V m c main_v11) (V m c main_v12) (V m c main_arg6) (V m c main_v13) (V m c main_arg8) (V m c main_v17) (V m c main_v20)
    h9 (Cert.KernelIdeal.Host.V_main_v11 m c) (Cert.KernelIdeal.Host.V_main_v12 m c) (V_main_arg6 m c)
    (Cert.KernelIdeal.Host.V_main_v13 m c) (V_main_arg8 m c) (Cert.KernelIdeal.Host.V_main_v17 m c)
    (Cert.KernelIdeal.Host.V_main_v20 m c)

end Cert.Proof.Bridge

end
-- ==== Proof.RefRun.lean ====
/-
  The reference's run, read back as its last stage function.

  The reference program is a straight line of one hundred host operations. What a buffer holds after the line is the
  fold of the operations' results over the launch contents. Here that fold, at the result buffer, is shown equal to the
  last stage function of the eleven argument arrays. The line is cut into seventeen consecutive runs. Each run is taken
  over ARBITRARY contents V of which only this is assumed: the buffers the run (or a later run) reads hold the values the
  stage functions name. The run's conclusion names, in the same way, what it has written and what later runs still read.
  No step therefore compares more than a few operations over named operands; in particular each and-reduction over the
  unit axis and each gather of the two inlined calls is compared alone, over variables. Chaining the seventeen
  conclusions from the launch contents gives the result buffer; the argument buffers are written by no operation.
-/
import proofs.«141387_j90323162235005_1_alg».proof.Proof.RunP
import proofs.«141387_j90323162235005_1_alg».proof.Proof.ReadP

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The reference's operations cut into consecutive runs, each short enough that its composed value is one or a few
    operations over named operands: the layout operations, the two inlined gather calls (each in five runs: the wrapped
    index, the bounds test, its reduction, the gather, the masked result), what lies between them, and the layers after. -/
abbrev A1 : List (HloOp τ sig (Elt F)) := (ops (F := F)).take 3
abbrev A2 : List (HloOp τ sig (Elt F)) := ((ops (F := F)).drop 3).take 3
abbrev T1 : List (HloOp τ sig (Elt F)) := ((ops (F := F)).drop 6).take 7
abbrev T2 : List (HloOp τ sig (Elt F)) := ((ops (F := F)).drop 13).take 8
abbrev T3 : List (HloOp τ sig (Elt F)) := ((ops (F := F)).drop 21).take 2
abbrev T4 : List (HloOp τ sig (Elt F)) := ((ops (F := F)).drop 23).take 1
abbrev T5 : List (HloOp τ sig (Elt F)) := ((ops (F := F)).drop 24).take 4
abbrev M : List (HloOp τ sig (Elt F)) := ((ops (F := F)).drop 28).take 5
abbrev U1 : List (HloOp τ sig (Elt F)) := ((ops (F := F)).drop 33).take 7
abbrev U2 : List (HloOp τ sig (Elt F)) := ((ops (F := F)).drop 40).take 8
abbrev U3 : List (HloOp τ sig (Elt F)) := ((ops (F := F)).drop 48).take 2
abbrev U4 : List (HloOp τ sig (Elt F)) := ((ops (F := F)).drop 50).take 1
abbrev U5 : List (HloOp τ sig (Elt F)) := ((ops (F := F)).drop 51).take 4
abbrev R1 : List (HloOp τ sig (Elt F)) := ((ops (F := F)).drop 55).take 8
abbrev R2 : List (HloOp τ sig (Elt F)) := ((ops (F := F)).drop 63).take 11
abbrev R3 : List (HloOp τ sig (Elt F)) := ((ops (F := F)).drop 74).take 11
abbrev R4 : List (HloOp τ sig (Elt F)) := ((ops (F := F)).drop 85)

set_option maxRecDepth 16384 in
theorem ops_split : (ops (F := F)) = A1 ++ (A2 ++ (T1 ++ (T2 ++ (T3 ++ (T4 ++ (T5 ++ (M ++ (U1 ++ (U2 ++ (U3 ++ (U4 ++ (U5 ++ (R1 ++ (R2 ++ (R3 ++ (R4)))))))))))))))) := rfl

local notation "D" => Proc.devRef (sig := sig) (Proc.tc : Proc τ)

variable {V : Valuation τ sig (Elt F)}
  {x0 : (⟨S2x3x160x224, .f32⟩ : BufTy).Contents (Elt F)} {x1 : (⟨S2x64x160x224, .f32⟩ : BufTy).Contents (Elt F)}
  {x2 : (⟨S2x3x160x224, .f32⟩ : BufTy).Contents (Elt F)} {x3 : (⟨S2x35840x16, .i32⟩ : BufTy).Contents (Elt F)}
  {x4 : (⟨S2x35840x16, .i1⟩ : BufTy).Contents (Elt F)} {x5 : (⟨S8x3, .f32⟩ : BufTy).Contents (Elt F)}
  {x6 : (⟨S8, .f32⟩ : BufTy).Contents (Elt F)} {x7 : (⟨S16x8, .f32⟩ : BufTy).Contents (Elt F)}
  {x8 : (⟨S16, .f32⟩ : BufTy).Contents (Elt F)} {x9 : (⟨S64x1072, .f32⟩ : BufTy).Contents (Elt F)}
  {x10 : (⟨S64, .f32⟩ : BufTy).Contents (Elt F)}

set_option maxRecDepth 8192 in
set_option maxHeartbeats 2000000 in
/-- After the run A1 (the mask as a float and the neighbour indices flattened): what it has written, and what later runs still read, by the stage functions. -/
theorem sA1 (a0 : V (D main_arg0) = x0)
    (a1 : V (D main_arg1) = x1)
    (a2 : V (D main_arg2) = x2)
    (a3 : V (D main_arg3) = x3)
    (a4 : V (D main_arg4) = x4)
    (a5 : V (D main_arg5) = x5)
    (a6 : V (D main_arg6) = x6)
    (a7 : V (D main_arg7) = x7)
    (a8 : V (D main_arg8) = x8)
    (a9 : V (D main_arg9) = x9)
    (a10 : V (D main_arg10) = x10) :
    after A1 V (D main_arg0) = x0
    ∧ after A1 V (D main_arg1) = x1
    ∧ after A1 V (D main_arg2) = x2
    ∧ after A1 V (D main_arg5) = x5
    ∧ after A1 V (D main_arg6) = x6
    ∧ after A1 V (D main_arg7) = x7
    ∧ after A1 V (D main_arg8) = x8
    ∧ after A1 V (D main_arg9) = x9
    ∧ after A1 V (D main_arg10) = x10
    ∧ after A1 V (D main_v1) = val_main_v1 x4
    ∧ after A1 V (D main_v2) = val_main_v2 x3 := by
  simp only [A1, ops, List.take_succ_cons, List.take_zero]
  after_results_simp
  try simp only [cast_cast, cast_eq]
  simp only [a0, a1, a2, a3, a4, a5, a6, a7, a8, a9, a10]
  refine ⟨trivial, trivial, trivial, trivial, trivial, trivial, trivial, trivial, trivial, ?_, ?_⟩
  · unfold val_main_v1 val_main_v0
    rfl
  · unfold val_main_v2
    rfl

set_option maxRecDepth 8192 in
set_option maxHeartbeats 2000000 in
/-- After the run A2 (the two feature arrays joined along the channel axis, the image flattened, channels last): what it has written, and what later runs still read, by the stage functions. -/
theorem sA2 (a0 : V (D main_arg0) = x0)
    (a1 : V (D main_arg1) = x1)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3) :
    after A2 V (D main_arg0) = x0
    ∧ after A2 V (D main_arg2) = x2
    ∧ after A2 V (D main_arg5) = x5
    ∧ after A2 V (D main_arg6) = x6
    ∧ after A2 V (D main_arg7) = x7
    ∧ after A2 V (D main_arg8) = x8
    ∧ after A2 V (D main_arg9) = x9
    ∧ after A2 V (D main_arg10) = x10
    ∧ after A2 V (D main_v1) = val_main_v1 x4
    ∧ after A2 V (D main_v2) = val_main_v2 x3
    ∧ after A2 V (D main_v5) = val_main_v5 x0 x1 := by
  subst a0 a1
  simp only [A2, ops, List.take_succ_cons, List.take_zero, List.drop_succ_cons, List.drop_zero]
  after_results_simp
  try simp only [cast_cast, cast_eq]
  simp only [a2, a5, a6, a7, a8, a9, a10, h_v1, h_v2]
  refine ⟨trivial, trivial, trivial, trivial, trivial, trivial, trivial, trivial, trivial, trivial, ?_⟩
  · rfl

set_option maxRecDepth 8192 in
set_option maxHeartbeats 2000000 in
/-- After the run T1 (first call: the index wrapped (a negative index counts from the end)): what it has written, and what later runs still read, by the stage functions. -/
theorem sT1 (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v5 : V (D main_v5) = val_main_v5 x0 x1) :
    after T1 V (D main_arg0) = x0
    ∧ after T1 V (D main_arg2) = x2
    ∧ after T1 V (D main_arg5) = x5
    ∧ after T1 V (D main_arg6) = x6
    ∧ after T1 V (D main_arg7) = x7
    ∧ after T1 V (D main_arg8) = x8
    ∧ after T1 V (D main_arg9) = x9
    ∧ after T1 V (D main_arg10) = x10
    ∧ after T1 V (D main_v1) = val_main_v1 x4
    ∧ after T1 V (D main_v2) = val_main_v2 x3
    ∧ after T1 V (D main_v5) = val_main_v5 x0 x1
    ∧ after T1 V (D main_call0_v4) = val_main_call0_v4 x3 := by
  simp only [T1, ops, List.take_succ_cons, List.take_zero, List.drop_succ_cons, List.drop_zero]
  after_results_simp
  try simp only [cast_cast, cast_eq]
  simp only [a0, a2, a5, a6, a7, a8, a9, a10, h_v1, h_v2, h_v5]
  refine ⟨trivial, trivial, trivial, trivial, trivial, trivial, trivial, trivial, trivial, trivial, trivial, ?_⟩
  · unfold val_main_call0_v4 val_main_call0_v3 val_main_call0_v2 val_main_call0_c_0 val_main_call0_v1 val_main_call0_v0 val_main_call0_c
    generalize val_main_v2 x3 = A_v2
    rfl

set_option maxRecDepth 8192 in
set_option maxHeartbeats 2000000 in
/-- After the run T2 (first call: the wrapped index tested against the bounds): what it has written, and what later runs still read, by the stage functions. -/
theorem sT2 (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v5 : V (D main_v5) = val_main_v5 x0 x1)
    (h_call0_v4 : V (D main_call0_v4) = val_main_call0_v4 x3) :
    after T2 V (D main_arg0) = x0
    ∧ after T2 V (D main_arg2) = x2
    ∧ after T2 V (D main_arg5) = x5
    ∧ after T2 V (D main_arg6) = x6
    ∧ after T2 V (D main_arg7) = x7
    ∧ after T2 V (D main_arg8) = x8
    ∧ after T2 V (D main_arg9) = x9
    ∧ after T2 V (D main_arg10) = x10
    ∧ after T2 V (D main_v1) = val_main_v1 x4
    ∧ after T2 V (D main_v2) = val_main_v2 x3
    ∧ after T2 V (D main_v5) = val_main_v5 x0 x1
    ∧ after T2 V (D main_call0_v4) = val_main_call0_v4 x3
    ∧ after T2 V (D main_call0_v10) = val_main_call0_v10 x3 := by
  simp only [T2, ops, List.take_succ_cons, List.take_zero, List.drop_succ_cons, List.drop_zero]
  after_results_simp
  try simp only [cast_cast, cast_eq]
  simp only [a0, a2, a5, a6, a7, a8, a9, a10, h_v1, h_v2, h_v5, h_call0_v4]
  refine ⟨trivial, trivial, trivial, trivial, trivial, trivial, trivial, trivial, trivial, trivial, trivial, trivial, ?_⟩
  · unfold val_main_call0_v10 val_main_call0_v9 val_main_call0_v8 val_main_call0_v7 val_main_call0_v6 val_main_call0_v5 val_main_call0_c_2 val_main_call0_c_1
    generalize val_main_call0_v4 x3 = A_call0_v4
    rfl

set_option maxRecDepth 8192 in
set_option maxHeartbeats 2000000 in
/-- After the run T3 (first call: the test reduced by `and` over its unit axis): what it has written, and what later runs still read, by the stage functions. -/
theorem sT3 (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v5 : V (D main_v5) = val_main_v5 x0 x1)
    (h_call0_v4 : V (D main_call0_v4) = val_main_call0_v4 x3)
    (h_call0_v10 : V (D main_call0_v10) = val_main_call0_v10 x3) :
    after T3 V (D main_arg0) = x0
    ∧ after T3 V (D main_arg2) = x2
    ∧ after T3 V (D main_arg5) = x5
    ∧ after T3 V (D main_arg6) = x6
    ∧ after T3 V (D main_arg7) = x7
    ∧ after T3 V (D main_arg8) = x8
    ∧ after T3 V (D main_arg9) = x9
    ∧ after T3 V (D main_arg10) = x10
    ∧ after T3 V (D main_v1) = val_main_v1 x4
    ∧ after T3 V (D main_v2) = val_main_v2 x3
    ∧ after T3 V (D main_v5) = val_main_v5 x0 x1
    ∧ after T3 V (D main_call0_v4) = val_main_call0_v4 x3
    ∧ after T3 V (D main_call0_v11) = val_main_call0_v11 x3 := by
  simp only [T3, ops, List.take_succ_cons, List.take_zero, List.drop_succ_cons, List.drop_zero]
  after_results_simp
  try simp only [cast_cast, cast_eq]
  simp only [a0, a2, a5, a6, a7, a8, a9, a10, h_v1, h_v2, h_v5, h_call0_v4, h_call0_v10]
  refine ⟨trivial, trivial, trivial, trivial, trivial, trivial, trivial, trivial, trivial, trivial, trivial, trivial, ?_⟩
  · unfold val_main_call0_v11 val_main_call0_c_3
    generalize val_main_call0_v10 x3 = A_call0_v10
    rfl

set_option maxRecDepth 8192 in
set_option maxHeartbeats 2000000 in
/-- After the run T4 (first call: the rows gathered at the wrapped indices): what it has written, and what later runs still read, by the stage functions. -/
theorem sT4 (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v5 : V (D main_v5) = val_main_v5 x0 x1)
    (h_call0_v4 : V (D main_call0_v4) = val_main_call0_v4 x3)
    (h_call0_v11 : V (D main_call0_v11) = val_main_call0_v11 x3) :
    after T4 V (D main_arg0) = x0
    ∧ after T4 V (D main_arg2) = x2
    ∧ after T4 V (D main_arg5) = x5
    ∧ after T4 V (D main_arg6) = x6
    ∧ after T4 V (D main_arg7) = x7
    ∧ after T4 V (D main_arg8) = x8
    ∧ after T4 V (D main_arg9) = x9
    ∧ after T4 V (D main_arg10) = x10
    ∧ after T4 V (D main_v1) = val_main_v1 x4
    ∧ after T4 V (D main_v2) = val_main_v2 x3
    ∧ after T4 V (D main_call0_v11) = val_main_call0_v11 x3
    ∧ after T4 V (D main_call0_v12) = val_main_call0_v12 x0 x1 x3 := by
  simp only [T4, ops, List.take_succ_cons, List.take_zero, List.drop_succ_cons, List.drop_zero]
  after_results_simp
  try simp only [cast_cast, cast_eq]
  simp only [a0, a2, a5, a6, a7, a8, a9, a10, h_v1, h_v2, h_v5, h_call0_v4, h_call0_v11]
  refine ⟨trivial, trivial, trivial, trivial, trivial, trivial, trivial, trivial, trivial, trivial, trivial, ?_⟩
  · unfold val_main_call0_v12
    generalize val_main_v5 x0 x1 = A_v5
    generalize val_main_call0_v4 x3 = A_call0_v4
    rfl

set_option maxRecDepth 8192 in
set_option maxHeartbeats 2000000 in
/-- After the run T5 (first call: NaN put where the test fails): what it has written, and what later runs still read, by the stage functions. -/
theorem sT5 (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_call0_v11 : V (D main_call0_v11) = val_main_call0_v11 x3)
    (h_call0_v12 : V (D main_call0_v12) = val_main_call0_v12 x0 x1 x3) :
    after T5 V (D main_arg0) = x0
    ∧ after T5 V (D main_arg2) = x2
    ∧ after T5 V (D main_arg5) = x5
    ∧ after T5 V (D main_arg6) = x6
    ∧ after T5 V (D main_arg7) = x7
    ∧ after T5 V (D main_arg8) = x8
    ∧ after T5 V (D main_arg9) = x9
    ∧ after T5 V (D main_arg10) = x10
    ∧ after T5 V (D main_v1) = val_main_v1 x4
    ∧ after T5 V (D main_v2) = val_main_v2 x3
    ∧ after T5 V (D main_v6) = val_main_v6 x0 x1 x3 := by
  simp only [T5, ops, List.take_succ_cons, List.take_zero, List.drop_succ_cons, List.drop_zero]
  after_results_simp
  try simp only [cast_cast, cast_eq]
  simp only [a0, a2, a5, a6, a7, a8, a9, a10, h_v1, h_v2, h_call0_v11, h_call0_v12]
  refine ⟨trivial, trivial, trivial, trivial, trivial, trivial, trivial, trivial, trivial, trivial, ?_⟩
  · unfold val_main_v6 val_main_call0_v14 val_main_call0_cst val_main_call0_v13
    generalize val_main_call0_v12 x0 x1 x3 = A_call0_v12
    generalize val_main_call0_v11 x3 = A_call0_v11
    rfl

set_option maxRecDepth 8192 in
set_option maxHeartbeats 2000000 in
/-- After the run M (the gathered features with the neighbour axis restored, times the mask; the positions flattened, coordinates last): what it has written, and what later runs still read, by the stage functions. -/
theorem sM (a0 : V (D main_arg0) = x0)
    (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v6 : V (D main_v6) = val_main_v6 x0 x1 x3) :
    after M V (D main_arg2) = x2
    ∧ after M V (D main_arg5) = x5
    ∧ after M V (D main_arg6) = x6
    ∧ after M V (D main_arg7) = x7
    ∧ after M V (D main_arg8) = x8
    ∧ after M V (D main_arg9) = x9
    ∧ after M V (D main_arg10) = x10
    ∧ after M V (D main_v1) = val_main_v1 x4
    ∧ after M V (D main_v2) = val_main_v2 x3
    ∧ after M V (D main_v9) = val_main_v9 x0 x1 x3 x4
    ∧ after M V (D main_v11) = val_main_v11 x0 := by
  simp only [M, ops, List.take_succ_cons, List.take_zero, List.drop_succ_cons, List.drop_zero]
  after_results_simp
  try simp only [cast_cast, cast_eq]
  simp only [a0, a2, a5, a6, a7, a8, a9, a10, h_v1, h_v2, h_v6]
  refine ⟨trivial, trivial, trivial, trivial, trivial, trivial, trivial, trivial, trivial, ?_, ?_⟩
  · unfold val_main_v9 val_main_v8 val_main_v7
    generalize val_main_v1 x4 = A_v1
    generalize val_main_v6 x0 x1 x3 = A_v6
    rfl
  · unfold val_main_v11 val_main_v10
    rfl

set_option maxRecDepth 8192 in
set_option maxHeartbeats 2000000 in
/-- After the run U1 (second call: the index wrapped): what it has written, and what later runs still read, by the stage functions. -/
theorem sU1 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v2 : V (D main_v2) = val_main_v2 x3)
    (h_v9 : V (D main_v9) = val_main_v9 x0 x1 x3 x4)
    (h_v11 : V (D main_v11) = val_main_v11 x0) :
    after U1 V (D main_arg2) = x2
    ∧ after U1 V (D main_arg5) = x5
    ∧ after U1 V (D main_arg6) = x6
    ∧ after U1 V (D main_arg7) = x7
    ∧ after U1 V (D main_arg8) = x8
    ∧ after U1 V (D main_arg9) = x9
    ∧ after U1 V (D main_arg10) = x10
    ∧ after U1 V (D main_v1) = val_main_v1 x4
    ∧ after U1 V (D main_v9) = val_main_v9 x0 x1 x3 x4
    ∧ after U1 V (D main_v11) = val_main_v11 x0
    ∧ after U1 V (D main_call1_v4) = val_main_call1_v4 x3 := by
  simp only [U1, ops, List.take_succ_cons, List.take_zero, List.drop_succ_cons, List.drop_zero]
  after_results_simp
  try simp only [cast_cast, cast_eq]
  simp only [a2, a5, a6, a7, a8, a9, a10, h_v1, h_v2, h_v9, h_v11]
  refine ⟨trivial, trivial, trivial, trivial, trivial, trivial, trivial, trivial, trivial, trivial, ?_⟩
  · unfold val_main_call1_v4 val_main_call1_v3 val_main_call1_v2 val_main_call1_c_0 val_main_call1_v1 val_main_call1_v0 val_main_call1_c
    generalize val_main_v2 x3 = A_v2
    rfl

set_option maxRecDepth 8192 in
set_option maxHeartbeats 2000000 in
/-- After the run U2 (second call: the wrapped index tested against the bounds): what it has written, and what later runs still read, by the stage functions. -/
theorem sU2 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v9 : V (D main_v9) = val_main_v9 x0 x1 x3 x4)
    (h_v11 : V (D main_v11) = val_main_v11 x0)
    (h_call1_v4 : V (D main_call1_v4) = val_main_call1_v4 x3) :
    after U2 V (D main_arg2) = x2
    ∧ after U2 V (D main_arg5) = x5
    ∧ after U2 V (D main_arg6) = x6
    ∧ after U2 V (D main_arg7) = x7
    ∧ after U2 V (D main_arg8) = x8
    ∧ after U2 V (D main_arg9) = x9
    ∧ after U2 V (D main_arg10) = x10
    ∧ after U2 V (D main_v1) = val_main_v1 x4
    ∧ after U2 V (D main_v9) = val_main_v9 x0 x1 x3 x4
    ∧ after U2 V (D main_v11) = val_main_v11 x0
    ∧ after U2 V (D main_call1_v4) = val_main_call1_v4 x3
    ∧ after U2 V (D main_call1_v10) = val_main_call1_v10 x3 := by
  simp only [U2, ops, List.take_succ_cons, List.take_zero, List.drop_succ_cons, List.drop_zero]
  after_results_simp
  try simp only [cast_cast, cast_eq]
  simp only [a2, a5, a6, a7, a8, a9, a10, h_v1, h_v9, h_v11, h_call1_v4]
  refine ⟨trivial, trivial, trivial, trivial, trivial, trivial, trivial, trivial, trivial, trivial, trivial, ?_⟩
  · unfold val_main_call1_v10 val_main_call1_v9 val_main_call1_v8 val_main_call1_v7 val_main_call1_v6 val_main_call1_v5 val_main_call1_c_2 val_main_call1_c_1
    generalize val_main_call1_v4 x3 = A_call1_v4
    rfl

set_option maxRecDepth 8192 in
set_option maxHeartbeats 2000000 in
/-- After the run U3 (second call: the test reduced by `and` over its unit axis): what it has written, and what later runs still read, by the stage functions. -/
theorem sU3 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v9 : V (D main_v9) = val_main_v9 x0 x1 x3 x4)
    (h_v11 : V (D main_v11) = val_main_v11 x0)
    (h_call1_v4 : V (D main_call1_v4) = val_main_call1_v4 x3)
    (h_call1_v10 : V (D main_call1_v10) = val_main_call1_v10 x3) :
    after U3 V (D main_arg2) = x2
    ∧ after U3 V (D main_arg5) = x5
    ∧ after U3 V (D main_arg6) = x6
    ∧ after U3 V (D main_arg7) = x7
    ∧ after U3 V (D main_arg8) = x8
    ∧ after U3 V (D main_arg9) = x9
    ∧ after U3 V (D main_arg10) = x10
    ∧ after U3 V (D main_v1) = val_main_v1 x4
    ∧ after U3 V (D main_v9) = val_main_v9 x0 x1 x3 x4
    ∧ after U3 V (D main_v11) = val_main_v11 x0
    ∧ after U3 V (D main_call1_v4) = val_main_call1_v4 x3
    ∧ after U3 V (D main_call1_v11) = val_main_call1_v11 x3 := by
  simp only [U3, ops, List.take_succ_cons, List.take_zero, List.drop_succ_cons, List.drop_zero]
  after_results_simp
  try simp only [cast_cast, cast_eq]
  simp only [a2, a5, a6, a7, a8, a9, a10, h_v1, h_v9, h_v11, h_call1_v4, h_call1_v10]
  refine ⟨trivial, trivial, trivial, trivial, trivial, trivial, trivial, trivial, trivial, trivial, trivial, ?_⟩
  · unfold val_main_call1_v11 val_main_call1_c_3
    generalize val_main_call1_v10 x3 = A_call1_v10
    rfl

set_option maxRecDepth 8192 in
set_option maxHeartbeats 2000000 in
/-- After the run U4 (second call: the positions gathered at the wrapped indices): what it has written, and what later runs still read, by the stage functions. -/
theorem sU4 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v9 : V (D main_v9) = val_main_v9 x0 x1 x3 x4)
    (h_v11 : V (D main_v11) = val_main_v11 x0)
    (h_call1_v4 : V (D main_call1_v4) = val_main_call1_v4 x3)
    (h_call1_v11 : V (D main_call1_v11) = val_main_call1_v11 x3) :
    after U4 V (D main_arg2) = x2
    ∧ after U4 V (D main_arg5) = x5
    ∧ after U4 V (D main_arg6) = x6
    ∧ after U4 V (D main_arg7) = x7
    ∧ after U4 V (D main_arg8) = x8
    ∧ after U4 V (D main_arg9) = x9
    ∧ after U4 V (D main_arg10) = x10
    ∧ after U4 V (D main_v1) = val_main_v1 x4
    ∧ after U4 V (D main_v9) = val_main_v9 x0 x1 x3 x4
    ∧ after U4 V (D main_call1_v11) = val_main_call1_v11 x3
    ∧ after U4 V (D main_call1_v12) = val_main_call1_v12 x0 x3 := by
  simp only [U4, ops, List.take_succ_cons, List.take_zero, List.drop_succ_cons, List.drop_zero]
  after_results_simp
  try simp only [cast_cast, cast_eq]
  simp only [a2, a5, a6, a7, a8, a9, a10, h_v1, h_v9, h_v11, h_call1_v4, h_call1_v11]
  refine ⟨trivial, trivial, trivial, trivial, trivial, trivial, trivial, trivial, trivial, trivial, ?_⟩
  · unfold val_main_call1_v12
    generalize val_main_v11 x0 = A_v11
    generalize val_main_call1_v4 x3 = A_call1_v4
    rfl

set_option maxRecDepth 8192 in
set_option maxHeartbeats 2000000 in
/-- After the run U5 (second call: NaN put where the test fails): what it has written, and what later runs still read, by the stage functions. -/
theorem sU5 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v9 : V (D main_v9) = val_main_v9 x0 x1 x3 x4)
    (h_call1_v11 : V (D main_call1_v11) = val_main_call1_v11 x3)
    (h_call1_v12 : V (D main_call1_v12) = val_main_call1_v12 x0 x3) :
    after U5 V (D main_arg2) = x2
    ∧ after U5 V (D main_arg5) = x5
    ∧ after U5 V (D main_arg6) = x6
    ∧ after U5 V (D main_arg7) = x7
    ∧ after U5 V (D main_arg8) = x8
    ∧ after U5 V (D main_arg9) = x9
    ∧ after U5 V (D main_arg10) = x10
    ∧ after U5 V (D main_v1) = val_main_v1 x4
    ∧ after U5 V (D main_v9) = val_main_v9 x0 x1 x3 x4
    ∧ after U5 V (D main_v12) = val_main_v12 x0 x3 := by
  simp only [U5, ops, List.take_succ_cons, List.take_zero, List.drop_succ_cons, List.drop_zero]
  after_results_simp
  try simp only [cast_cast, cast_eq]
  simp only [a2, a5, a6, a7, a8, a9, a10, h_v1, h_v9, h_call1_v11, h_call1_v12]
  refine ⟨trivial, trivial, trivial, trivial, trivial, trivial, trivial, trivial, trivial, ?_⟩
  · unfold val_main_v12 val_main_call1_v14 val_main_call1_cst val_main_call1_v13
    generalize val_main_call1_v12 x0 x3 = A_call1_v12
    generalize val_main_call1_v11 x3 = A_call1_v11
    rfl

set_option maxRecDepth 8192 in
set_option maxHeartbeats 2000000 in
/-- After the run R1 (the masked neighbour positions minus the centre positions): what it has written, and what later runs still read, by the stage functions. -/
theorem sR1 (a2 : V (D main_arg2) = x2)
    (a5 : V (D main_arg5) = x5)
    (a6 : V (D main_arg6) = x6)
    (a7 : V (D main_arg7) = x7)
    (a8 : V (D main_arg8) = x8)
    (a9 : V (D main_arg9) = x9)
    (a10 : V (D main_arg10) = x10)
    (h_v1 : V (D main_v1) = val_main_v1 x4)
    (h_v9 : V (D main_v9) = val_main_v9 x0 x1 x3 x4)
    (h_v12 : V (D main_v12) = val_main_v12 x0 x3) :
    after R1 V (D main_arg5) = x5
    ∧ after R1 V (D main_arg6) = x6
    ∧ after R1 V (D main_arg7) = x7
    ∧ after R1 V (D main_arg8) = x8
    ∧ after R1 V (D main_arg9) = x9
    ∧ after R1 V (D main_arg10) = x10
    ∧ after R1 V (D main_v9) = val_main_v9 x0 x1 x3 x4
    ∧ after R1 V (D main_v20) = val_main_v20 x0 x2 x3 x4 := by
  simp only [R1, ops, List.take_succ_cons, List.take_zero, List.drop_succ_cons, List.drop_zero]
  after_results_simp
  try simp only [cast_cast, cast_eq]
  simp only [a2, a5, a6, a7, a8, a9, a10, h_v1, h_v9, h_v12]
  refine ⟨trivial, trivial, trivial, trivial, trivial, trivial, trivial, ?_⟩
  · unfold val_main_v20 val_main_v19 val_main_v18 val_main_v17 val_main_v16 val_main_v15 val_main_v14 val_main_v13
    generalize val_main_v1 x4 = A_v1
    generalize val_main_v12 x0 x3 = A_v12
    rfl

set_option maxRecDepth 8192 in
set_option maxHeartbeats 2000000 in
/-- After the run R2 (the first layer: product with the weights, bias, leaky rectifier): what it has written, and what later runs still read, by the stage functions. -/
theorem sR2 (a5 : V (D main_arg5) = x5)
    (a6 : V (D main_arg6) = x6)
    (a7 : V (D main_arg7) = x7)
    (a8 : V (D main_arg8) = x8)
    (a9 : V (D main_arg9) = x9)
    (a10 : V (D main_arg10) = x10)
    (h_v9 : V (D main_v9) = val_main_v9 x0 x1 x3 x4)
    (h_v20 : V (D main_v20) = val_main_v20 x0 x2 x3 x4) :
    after R2 V (D main_arg7) = x7
    ∧ after R2 V (D main_arg8) = x8
    ∧ after R2 V (D main_arg9) = x9
    ∧ after R2 V (D main_arg10) = x10
    ∧ after R2 V (D main_v9) = val_main_v9 x0 x1 x3 x4
    ∧ after R2 V (D main_v29) = val_main_v29 x0 x2 x3 x4 x5 x6 := by
  simp only [R2, ops, List.take_succ_cons, List.take_zero, List.drop_succ_cons, List.drop_zero]
  after_results_simp
  try simp only [cast_cast, cast_eq]
  simp only [a5, a6, a7, a8, a9, a10, h_v9, h_v20]
  refine ⟨trivial, trivial, trivial, trivial, trivial, ?_⟩
  · unfold val_main_v29 val_main_v28 val_main_v27 val_main_cst_0 val_main_v26 val_main_v25 val_main_cst val_main_v24 val_main_v23 val_main_v22 val_main_v21
    generalize val_main_v20 x0 x2 x3 x4 = A_v20
    rfl

set_option maxRecDepth 8192 in
set_option maxHeartbeats 2000000 in
/-- After the run R3 (the second layer: product with the weights, bias, leaky rectifier): what it has written, and what later runs still read, by the stage functions. -/
theorem sR3 (a7 : V (D main_arg7) = x7)
    (a8 : V (D main_arg8) = x8)
    (a9 : V (D main_arg9) = x9)
    (a10 : V (D main_arg10) = x10)
    (h_v9 : V (D main_v9) = val_main_v9 x0 x1 x3 x4)
    (h_v29 : V (D main_v29) = val_main_v29 x0 x2 x3 x4 x5 x6) :
    after R3 V (D main_arg9) = x9
    ∧ after R3 V (D main_arg10) = x10
    ∧ after R3 V (D main_v9) = val_main_v9 x0 x1 x3 x4
    ∧ after R3 V (D main_v38) = val_main_v38 x0 x2 x3 x4 x5 x6 x7 x8 := by
  simp only [R3, ops, List.take_succ_cons, List.take_zero, List.drop_succ_cons, List.drop_zero]
  after_results_simp
  try simp only [cast_cast, cast_eq]
  simp only [a7, a8, a9, a10, h_v9, h_v29]
  refine ⟨trivial, trivial, trivial, ?_⟩
  · unfold val_main_v38 val_main_v37 val_main_v36 val_main_cst_2 val_main_v35 val_main_v34 val_main_cst_1 val_main_v33 val_main_v32 val_main_v31 val_main_v30
    generalize val_main_v29 x0 x2 x3 x4 x5 x6 = A_v29
    rfl

set_option maxRecDepth 8192 in
set_option maxHeartbeats 2000000 in
/-- After the run R4 (the per-point product of the weights and the features, the output layer, and the result laid out as the output): what it has written, and what later runs still read, by the stage functions. -/
theorem sR4 (a9 : V (D main_arg9) = x9)
    (a10 : V (D main_arg10) = x10)
    (h_v9 : V (D main_v9) = val_main_v9 x0 x1 x3 x4)
    (h_v38 : V (D main_v38) = val_main_v38 x0 x2 x3 x4 x5 x6 x7 x8) :
    after R4 V (D main_v51) = val_main_v51 x0 x1 x2 x3 x4 x5 x6 x7 x8 x9 x10 := by
  simp only [R4, ops, List.drop_succ_cons, List.drop_zero]
  after_results_simp
  try simp only [cast_cast, cast_eq]
  simp only [a9, a10, h_v9, h_v38]
  unfold val_main_v51 val_main_v50 val_main_v49 val_main_v48 val_main_v47 val_main_cst_4 val_main_v46 val_main_v45 val_main_cst_3 val_main_v44 val_main_v43 val_main_v42 val_main_v41 val_main_v40 val_main_v39
  generalize val_main_v38 x0 x2 x3 x4 x5 x6 x7 x8 = A_v38
  generalize val_main_v9 x0 x1 x3 x4 = A_v9
  rfl

/-- THE WHOLE LINE: from any contents whose argument buffers are `x0 … x10`, the result buffer ends at the last stage
    function of those arguments. The runs are chained: each is applied to the contents the previous runs leave. -/
theorem after_ops (a0 : V (D main_arg0) = x0) (a1 : V (D main_arg1) = x1) (a2 : V (D main_arg2) = x2) (a3 : V (D main_arg3) = x3) (a4 : V (D main_arg4) = x4) (a5 : V (D main_arg5) = x5) (a6 : V (D main_arg6) = x6) (a7 : V (D main_arg7) = x7) (a8 : V (D main_arg8) = x8) (a9 : V (D main_arg9) = x9) (a10 : V (D main_arg10) = x10) :
    after (ops (F := F)) V (D main_v51) = val_main_v51 x0 x1 x2 x3 x4 x5 x6 x7 x8 x9 x10 := by
  rw [ops_split]
  simp only [after_append]
  obtain ⟨a1_0, a1_1, a1_2, a1_3, a1_4, a1_5, a1_6, a1_7, a1_8, a1_9, a1_10⟩ := sA1 (V := V) a0 a1 a2 a3 a4 a5 a6 a7 a8 a9 a10
  obtain ⟨a2_0, a2_1, a2_2, a2_3, a2_4, a2_5, a2_6, a2_7, a2_8, a2_9, a2_10⟩ := sA2 (V := (after A1 V)) a1_0 a1_1 a1_2 a1_3 a1_4 a1_5 a1_6 a1_7 a1_8 a1_9 a1_10
  obtain ⟨t1_0, t1_1, t1_2, t1_3, t1_4, t1_5, t1_6, t1_7, t1_8, t1_9, t1_10, t1_11⟩ := sT1 (V := (after A2 (after A1 V))) a2_0 a2_1 a2_2 a2_3 a2_4 a2_5 a2_6 a2_7 a2_8 a2_9 a2_10
  obtain ⟨t2_0, t2_1, t2_2, t2_3, t2_4, t2_5, t2_6, t2_7, t2_8, t2_9, t2_10, t2_11, t2_12⟩ := sT2 (V := (after T1 (after A2 (after A1 V)))) t1_0 t1_1 t1_2 t1_3 t1_4 t1_5 t1_6 t1_7 t1_8 t1_9 t1_10 t1_11
  obtain ⟨t3_0, t3_1, t3_2, t3_3, t3_4, t3_5, t3_6, t3_7, t3_8, t3_9, t3_10, t3_11, t3_12⟩ := sT3 (V := (after T2 (after T1 (after A2 (after A1 V))))) t2_0 t2_1 t2_2 t2_3 t2_4 t2_5 t2_6 t2_7 t2_8 t2_9 t2_10 t2_11 t2_12
  obtain ⟨t4_0, t4_1, t4_2, t4_3, t4_4, t4_5, t4_6, t4_7, t4_8, t4_9, t4_10, t4_11⟩ := sT4 (V := (after T3 (after T2 (after T1 (after A2 (after A1 V)))))) t3_0 t3_1 t3_2 t3_3 t3_4 t3_5 t3_6 t3_7 t3_8 t3_9 t3_10 t3_11 t3_12
  obtain ⟨t5_0, t5_1, t5_2, t5_3, t5_4, t5_5, t5_6, t5_7, t5_8, t5_9, t5_10⟩ := sT5 (V := (after T4 (after T3 (after T2 (after T1 (after A2 (after A1 V))))))) t4_0 t4_1 t4_2 t4_3 t4_4 t4_5 t4_6 t4_7 t4_8 t4_9 t4_10 t4_11
  obtain ⟨m_0, m_1, m_2, m_3, m_4, m_5, m_6, m_7, m_8, m_9, m_10⟩ := sM (V := (after T5 (after T4 (after T3 (after T2 (after T1 (after A2 (after A1 V)))))))) t5_0 t5_1 t5_2 t5_3 t5_4 t5_5 t5_6 t5_7 t5_8 t5_9 t5_10
  obtain ⟨u1_0, u1_1, u1_2, u1_3, u1_4, u1_5, u1_6, u1_7, u1_8, u1_9, u1_10⟩ := sU1 (V := (after M (after T5 (after T4 (after T3 (after T2 (after T1 (after A2 (after A1 V))))))))) m_0 m_1 m_2 m_3 m_4 m_5 m_6 m_7 m_8 m_9 m_10
  obtain ⟨u2_0, u2_1, u2_2, u2_3, u2_4, u2_5, u2_6, u2_7, u2_8, u2_9, u2_10, u2_11⟩ := sU2 (V := (after U1 (after M (after T5 (after T4 (after T3 (after T2 (after T1 (after A2 (after A1 V)))))))))) u1_0 u1_1 u1_2 u1_3 u1_4 u1_5 u1_6 u1_7 u1_8 u1_9 u1_10
  obtain ⟨u3_0, u3_1, u3_2, u3_3, u3_4, u3_5, u3_6, u3_7, u3_8, u3_9, u3_10, u3_11⟩ := sU3 (V := (after U2 (after U1 (after M (after T5 (after T4 (after T3 (after T2 (after T1 (after A2 (after A1 V))))))))))) u2_0 u2_1 u2_2 u2_3 u2_4 u2_5 u2_6 u2_7 u2_8 u2_9 u2_10 u2_11
  obtain ⟨u4_0, u4_1, u4_2, u4_3, u4_4, u4_5, u4_6, u4_7, u4_8, u4_9, u4_10⟩ := sU4 (V := (after U3 (after U2 (after U1 (after M (after T5 (after T4 (after T3 (after T2 (after T1 (after A2 (after A1 V)))))))))))) u3_0 u3_1 u3_2 u3_3 u3_4 u3_5 u3_6 u3_7 u3_8 u3_9 u3_10 u3_11
  obtain ⟨u5_0, u5_1, u5_2, u5_3, u5_4, u5_5, u5_6, u5_7, u5_8, u5_9⟩ := sU5 (V := (after U4 (after U3 (after U2 (after U1 (after M (after T5 (after T4 (after T3 (after T2 (after T1 (after A2 (after A1 V))))))))))))) u4_0 u4_1 u4_2 u4_3 u4_4 u4_5 u4_6 u4_7 u4_8 u4_9 u4_10
  obtain ⟨r1_0, r1_1, r1_2, r1_3, r1_4, r1_5, r1_6, r1_7⟩ := sR1 (V := (after U5 (after U4 (after U3 (after U2 (after U1 (after M (after T5 (after T4 (after T3 (after T2 (after T1 (after A2 (after A1 V)))))))))))))) u5_0 u5_1 u5_2 u5_3 u5_4 u5_5 u5_6 u5_7 u5_8 u5_9
  obtain ⟨r2_0, r2_1, r2_2, r2_3, r2_4, r2_5⟩ := sR2 (V := (after R1 (after U5 (after U4 (after U3 (after U2 (after U1 (after M (after T5 (after T4 (after T3 (after T2 (after T1 (after A2 (after A1 V))))))))))))))) r1_0 r1_1 r1_2 r1_3 r1_4 r1_5 r1_6 r1_7
  obtain ⟨r3_0, r3_1, r3_2, r3_3⟩ := sR3 (V := (after R2 (after R1 (after U5 (after U4 (after U3 (after U2 (after U1 (after M (after T5 (after T4 (after T3 (after T2 (after T1 (after A2 (after A1 V)))))))))))))))) r2_0 r2_1 r2_2 r2_3 r2_4 r2_5
  exact sR4 (V := (after R3 (after R2 (after R1 (after U5 (after U4 (after U3 (after U2 (after U1 (after M (after T5 (after T4 (after T3 (after T2 (after T1 (after A2 (after A1 V))))))))))))))))) r3_0 r3_1 r3_2 r3_3

set_option maxRecDepth 8192 in
set_option maxHeartbeats 40000000 in
/-- On every device, for any float values, from any memory with zero counters: every weakly fair execution of the
    reference's @main terminates with the result buffer at the last stage function of the argument arrays, and the
    argument arrays unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => ∀ c : Dev nD,
      r.2.mem ((c.tc : Thread nD τ).loc main_v51) = val_main_v51 (F := F) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v51).trans (after_ops (V := launchContents m c) rfl rfl rfl rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run0 m ρ)

end Cert.ReferenceIdeal.Hand

end
-- ==== Proof.Claims.lean ====
/-
  The five claims.

  The three frames are the generated frame runs (the reference's is its run with the result dropped); the ideal pass
  rewrote nothing, so `preserves` is `True`. For `algebraic`: at the ideal instance the kernel's output array ends
  holding, at every query point and (padded) output channel, the point convolution of the point's gathered neighbour
  rows, its coordinates and the weights; the host then keeps the 64 real channels and re-lays them channel-first. The
  reference's stage before its own channel-first re-laying is the same point convolution of the same rows (its separately
  gathered neighbour coordinates are the rows' first three channels), index by index, and both programs end with the
  same transpose and reshape: equal results. No algebraic law beyond the associativity of `+` on the extended reals
  (sixteen terms added in order onto zero are their sum) is used, so the precondition is never opened.
-/
import proofs.«141387_j90323162235005_1_alg».proof.Defs
import proofs.«141387_j90323162235005_1_alg».proof.Proof.Gen.Kernel.Frame
import proofs.«141387_j90323162235005_1_alg».proof.Proof.Gen.KernelIdeal.Frame
import proofs.«141387_j90323162235005_1_alg».proof.Proof.Gen.ReferenceIdeal
import proofs.«141387_j90323162235005_1_alg».proof.Proof.Gen.Pre_finite_inputs
import proofs.«141387_j90323162235005_1_alg».proof.Proof.Final
import proofs.«141387_j90323162235005_1_alg».proof.Proof.KernelRun
import proofs.«141387_j90323162235005_1_alg».proof.Proof.KernelRows
import proofs.«141387_j90323162235005_1_alg».proof.Proof.Bridge
import proofs.«141387_j90323162235005_1_alg».proof.Proof.RefRun

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- The kernel's result — the output array's 64 real channels, channel-first — is the reference's last stage of the
    same argument arrays. -/
theorem result_eq (m : (ℓ : Loc Cert.KernelIdeal.nD Cert.KernelIdeal.τ Cert.KernelIdeal.sig) → Buf (Elt Ideal) ℓ) (c : Dev Cert.KernelIdeal.nD) :
    shapeCast Cert.KernelIdeal.S2x64x160x224 (transpose Cert.KernelIdeal.S2x64x35840 [0, 2, 1]
        (extractStridedSlice Cert.KernelIdeal.S2x35840x64 ![0, 0, 0] ((Cert.KernelIdeal.Gen.dats m 0 c).arrAt 8 Cert.KernelIdeal.cfg0.N)
          Cert.KernelIdeal.Gen.slices_S2x35840x128_S2x35840x64_0_0_0)
        Cert.KernelIdeal.Gen.transposes_S2x35840x64_S2x64x35840_0_2_1) Cert.KernelIdeal.Gen.shapeCasts_S2x64x35840_S2x64x160x224
      = Cert.ReferenceIdeal.ReadP.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  rw [Cert.KernelIdeal.Arr.final m c, Cert.Proof.Bridge.slice_eq m c (Cert.KernelIdeal.Rows.V_main_v9 m c)]
  rfl

/-- Both programs run, from memories agreeing on the arguments, to equal results. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩) (Cert.ReferenceIdeal.Hand.run m' ρ')
  obtain ⟨h0, h1, h2, h3, h4, h5, h6, h7, h8, h9, h10⟩ := hagree c
  rw [h0, h1, h2, h3, h4, h5, h6, h7, h8, h9, h10]
  exact (result_eq m c).symm

end Cert.Proof.Claims

end
-- ==== Proof.lean ====
/-
  The certificate of the point-convolution kernel against its jnp reference: the witnesses of the three programs' and
  the precondition's stated facts, then the five claims (Proof/Claims.lean, where the mathematics is said).
-/
import proofs.«141387_j90323162235005_1_alg».proof.Defs
import proofs.«141387_j90323162235005_1_alg».proof.Proof.Gen.Kernel
import proofs.«141387_j90323162235005_1_alg».proof.Proof.Gen.Kernel.Skeleton
import proofs.«141387_j90323162235005_1_alg».proof.Proof.Gen.Kernel.Launch
import proofs.«141387_j90323162235005_1_alg».proof.Proof.Gen.Kernel.Points
import proofs.«141387_j90323162235005_1_alg».proof.Proof.Gen.Kernel.Frame
import proofs.«141387_j90323162235005_1_alg».proof.Proof.Gen.KernelIdeal
import proofs.«141387_j90323162235005_1_alg».proof.Proof.Gen.KernelIdeal.Skeleton
import proofs.«141387_j90323162235005_1_alg».proof.Proof.Gen.KernelIdeal.Launch
import proofs.«141387_j90323162235005_1_alg».proof.Proof.Gen.KernelIdeal.Points
import proofs.«141387_j90323162235005_1_alg».proof.Proof.Gen.KernelIdeal.Frame
import proofs.«141387_j90323162235005_1_alg».proof.Proof.Gen.ReferenceIdeal
import proofs.«141387_j90323162235005_1_alg».proof.Proof.Gen.Pre_finite_inputs
import proofs.«141387_j90323162235005_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
